-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v69)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v69) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x64x112x112 : Shape := ⟨4, ![64, 64, 112, 112]⟩
abbrev S_ : Shape := ⟨0, ![]⟩

class Facts : Prop where
  bcast_S_S64x64x112x112 : S_.BroadcastsInDim S64x64x112x112 (![] : Fin 0 → Fin S64x64x112x112.rank)
  reducesTo_S64x64x112x112_S_d0_1_2_3 : S64x64x112x112.ReducesTo [0, 1, 2, 3] S_
  h_S_ : 0 < S_.numel

variable [Facts]

def fn {F : FTy → Type} [FloatOps F] (main_arg0 : FVec F S64x64x112x112 .f32) : IVec S_ 1 :=
  let main_v0 : FVec F S64x64x112x112 .f32 := Host.absf main_arg0
  let main_cst : FVec F S_ .f32 := constant S_ .f32 0x7F800000#32
  let main_v1 : FVec F S64x64x112x112 .f32 := broadcastInDim S64x64x112x112 ![] bcast_S_S64x64x112x112 main_cst
  let main_v2 : IVec S64x64x112x112 1 := cmpf .olt main_v0 main_v1
  let main_c : IVec S_ 1 := constantI S_ 1 1#1
  let main_v3 : IVec S_ 1 := (fun x v => Host.reduce IntOp.andi x v reducesTo_S64x64x112x112_S_d0_1_2_3 h_S_) main_v2 main_c
  main_v3
-- ==== Kernel.lean ====
abbrev S64x64x112x112 : Shape := ⟨4, ![64, 64, 112, 112]⟩
abbrev S64x64x12544 : Shape := ⟨3, ![64, 64, 12544]⟩
abbrev S2x64x1 : Shape := ⟨3, ![2, 64, 1]⟩
abbrev S2x64x64 : Shape := ⟨3, ![2, 64, 64]⟩
abbrev S1x64x12544 : Shape := ⟨3, ![1, 64, 12544]⟩
abbrev S1x64x1 : Shape := ⟨3, ![1, 64, 1]⟩
abbrev S1x64x64 : Shape := ⟨3, ![1, 64, 64]⟩
abbrev S64x1 : Shape := ⟨2, ![64, 1]⟩
abbrev S64x64 : Shape := ⟨2, ![64, 64]⟩
abbrev S64x12544 : Shape := ⟨2, ![64, 12544]⟩
abbrev S64 : Shape := ⟨1, ![64]⟩
abbrev S12544x64 : Shape := ⟨2, ![12544, 64]⟩
abbrev S_ : Shape := ⟨0, ![]⟩
abbrev S1x64 : Shape := ⟨2, ![1, 64]⟩

abbrev nBuf : Space → Nat
  | .hbm => 99
  | .vmem => 12
  | .smem => 0
  | _ => 0

abbrev bufTy : (tb : Table) → Fin (tcTables nBuf tb) → BufTy
  | .hbm, ⟨0, _⟩ => ⟨S64x64x112x112, .f32⟩
  | .hbm, ⟨1, _⟩ => ⟨S64x64x12544, .f32⟩
  | .hbm, ⟨2, _⟩ => ⟨S2x64x1, .f32⟩
  | .hbm, ⟨3, _⟩ => ⟨S2x64x64, .f32⟩
  | .hbm, ⟨4, _⟩ => ⟨S_, .f32⟩
  | .hbm, ⟨5, _⟩ => ⟨S64x1, .f32⟩
  | .hbm, ⟨6, _⟩ => ⟨S_, .f32⟩
  | .hbm, ⟨7, _⟩ => ⟨S64x64, .f32⟩
  | .hbm, ⟨8, _⟩ => ⟨S_, .f32⟩
  | .hbm, ⟨9, _⟩ => ⟨S64x1, .f32⟩
  | .hbm, ⟨10, _⟩ => ⟨S64x1, .f32⟩
  | .hbm, ⟨11, _⟩ => ⟨S64x64, .i32⟩
  | .hbm, ⟨12, _⟩ => ⟨S64x64, .i32⟩
  | .hbm, ⟨13, _⟩ => ⟨S_, .i32⟩
  | .hbm, ⟨14, _⟩ => ⟨S64x64, .i32⟩
  | .hbm, ⟨15, _⟩ => ⟨S64x64, .i32⟩
  | .hbm, ⟨16, _⟩ => ⟨S64x64, .i1⟩
  | .hbm, ⟨17, _⟩ => ⟨S64x64, .f32⟩
  | .hbm, ⟨18, _⟩ => ⟨S_, .f32⟩
  | .hbm, ⟨19, _⟩ => ⟨S64x64, .f32⟩
  | .hbm, ⟨20, _⟩ => ⟨S64x64, .f32⟩
  | .hbm, ⟨21, _⟩ => ⟨S_, .f32⟩
  | .hbm, ⟨22, _⟩ => ⟨S64x64, .f32⟩
  | .hbm, ⟨23, _⟩ => ⟨S64x64, .f32⟩
  | .hbm, ⟨24, _⟩ => ⟨S64x64, .f32⟩
  | .hbm, ⟨25, _⟩ => ⟨S1x64, .f32⟩
  | .hbm, ⟨26, _⟩ => ⟨S64x64, .f32⟩
  | .hbm, ⟨27, _⟩ => ⟨S64x64, .f32⟩
  | .hbm, ⟨28, _⟩ => ⟨S64x64, .i32⟩
  | .hbm, ⟨29, _⟩ => ⟨S64x64, .i32⟩
  | .hbm, ⟨30, _⟩ => ⟨S_, .i32⟩
  | .hbm, ⟨31, _⟩ => ⟨S64x64, .i32⟩
  | .hbm, ⟨32, _⟩ => ⟨S64x64, .i32⟩
  | .hbm, ⟨33, _⟩ => ⟨S64x64, .i1⟩
  | .hbm, ⟨34, _⟩ => ⟨S_, .f32⟩
  | .hbm, ⟨35, _⟩ => ⟨S64x64, .f32⟩
  | .hbm, ⟨36, _⟩ => ⟨S64x64, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S64x64, .f32⟩
  | .hbm, ⟨42, _⟩ => ⟨S64x64, .f32⟩
  | .hbm, ⟨43, _⟩ => ⟨S64x64, .f32⟩
  | .hbm, ⟨44, _⟩ => ⟨S64x64, .f32⟩
  | .hbm, ⟨45, _⟩ => ⟨S_, .f32⟩
  | .hbm, ⟨46, _⟩ => ⟨S64x64, .f32⟩
  | .hbm, ⟨47, _⟩ => ⟨S64x64, .f32⟩
  | .hbm, ⟨48, _⟩ => ⟨S64x64, .f32⟩
  | .hbm, ⟨49, _⟩ => ⟨S_, .f32⟩
  | .hbm, ⟨50, _⟩ => ⟨S64x64, .f32⟩
  | .hbm, ⟨51, _⟩ => ⟨S64x64, .f32⟩
  | .hbm, ⟨52, _⟩ => ⟨S64x64, .f32⟩
  | .hbm, ⟨53, _⟩ => ⟨S64x64, .f32⟩
  | .hbm, ⟨54, _⟩ => ⟨S64x64, .f32⟩
  | .hbm, ⟨55, _⟩ => ⟨S_, .f32⟩
  | .hbm, ⟨56, _⟩ => ⟨S64x64, .f32⟩
  | .hbm, ⟨57, _⟩ => ⟨S64x64, .f32⟩
  | .hbm, ⟨58, _⟩ => ⟨S64x64, .f32⟩
  | .hbm, ⟨59, _⟩ => ⟨S_, .f32⟩
  | .hbm, ⟨60, _⟩ => ⟨S64x64, .f32⟩
  | .hbm, ⟨61, _⟩ => ⟨S64x64, .f32⟩
  | .hbm, ⟨62, _⟩ => ⟨S64x64, .f32⟩
  | .hbm, ⟨63, _⟩ => ⟨S64x64, .f32⟩
  | .hbm, ⟨64, _⟩ => ⟨S64x64, .f32⟩
  | .hbm, ⟨65, _⟩ => ⟨S_, .f32⟩
  | .hbm, ⟨66, _⟩ => ⟨S64x64, .f32⟩
  | .hbm, ⟨67, _⟩ => ⟨S64x64, .f32⟩
  | .hbm, ⟨68, _⟩ => ⟨S64x64, .f32⟩
  | .hbm, ⟨69, _⟩ => ⟨S_, .f32⟩
  | .hbm, ⟨70, _⟩ => ⟨S64x64, .f32⟩
  | .hbm, ⟨71, _⟩ => ⟨S64x64, .f32⟩
  | .hbm, ⟨72, _⟩ => ⟨S64x64, .f32⟩
  | .hbm, ⟨73, _⟩ => ⟨S64x64, .f32⟩
  | .hbm, ⟨74, _⟩ => ⟨S64x64, .f32⟩
  | .hbm, ⟨75, _⟩ => ⟨S_, .f32⟩
  | .hbm, ⟨76, _⟩ => ⟨S64x64, .f32⟩
  | .hbm, ⟨77, _⟩ => ⟨S64x64, .f32⟩
  | .hbm, ⟨78, _⟩ => ⟨S64x64, .f32⟩
  | .hbm, ⟨79, _⟩ => ⟨S_, .f32⟩
  | .hbm, ⟨80, _⟩ => ⟨S64x64, .f32⟩
  | .hbm, ⟨81, _⟩ => ⟨S64x64, .f32⟩
  | .hbm, ⟨82, _⟩ => ⟨S64x64, .f32⟩
  | .hbm, ⟨83, _⟩ => ⟨S64x64, .f32⟩
  | .hbm, ⟨84, _⟩ => ⟨S64x64, .f32⟩
  | .hbm, ⟨85, _⟩ => ⟨S_, .f32⟩
  | .hbm, ⟨86, _⟩ => ⟨S64x64, .f32⟩
  | .hbm, ⟨87, _⟩ => ⟨S64x64, .f32⟩
  | .hbm, ⟨88, _⟩ => ⟨S64x64, .f32⟩
  | .hbm, ⟨89, _⟩ => ⟨S_, .f32⟩
  | .hbm, ⟨90, _⟩ => ⟨S64x64, .f32⟩
  | .hbm, ⟨91, _⟩ => ⟨S64x64, .f32⟩
  | .hbm, ⟨92, _⟩ => ⟨S64x64, .f32⟩
  | .hbm, ⟨93, _⟩ => ⟨S_, .f32⟩
  | .hbm, ⟨94, _⟩ => ⟨S64x64, .f32⟩
  | .hbm, ⟨95, _⟩ => ⟨S64x64, .f32⟩
  | .hbm, ⟨96, _⟩ => ⟨S64x1, .f32⟩
  | .hbm, ⟨97, _⟩ => ⟨S64x64x12544, .f32⟩
  | .hbm, ⟨98, _⟩ => ⟨S64x64x112x112, .f32⟩
  | .local _ .vmem, ⟨0, _⟩ => ⟨S1x64x12544, .f32⟩
  | .local _ .vmem, ⟨1, _⟩ => ⟨S1x64x12544, .f32⟩
  | .local _ .vmem, ⟨2, _⟩ => ⟨S1x64x1, .f32⟩
  | .local _ .vmem, ⟨3, _⟩ => ⟨S1x64x1, .f32⟩
  | .local _ .vmem, ⟨4, _⟩ => ⟨S1x64x64, .f32⟩
  | .local _ .vmem, ⟨5, _⟩ => ⟨S1x64x64, .f32⟩
  | .local _ .vmem, ⟨6, _⟩ => ⟨S1x64x12544, .f32⟩
  | .local _ .vmem, ⟨7, _⟩ => ⟨S1x64x12544, .f32⟩
  | .local _ .vmem, ⟨8, _⟩ => ⟨S64x64, .f32⟩
  | .local _ .vmem, ⟨9, _⟩ => ⟨S64x1, .f32⟩
  | .local _ .vmem, ⟨10, _⟩ => ⟨S1x64x12544, .f32⟩
  | .local _ .vmem, ⟨11, _⟩ => ⟨S1x64x12544, .f32⟩
  | _, _ => ⟨S64x64x112x112, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1_0 : Ref sig .tc := ⟨.hbm, 2, rfl⟩
abbrev main_v1_1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_cst_3 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_call0_v0 : Ref sig .tc := ⟨.hbm, 28, rfl⟩
abbrev main_call0_v1 : Ref sig .tc := ⟨.hbm, 29, rfl⟩
abbrev main_call0_c : Ref sig .tc := ⟨.hbm, 30, rfl⟩
abbrev main_call0_v2 : Ref sig .tc := ⟨.hbm, 31, rfl⟩
abbrev main_call0_v3 : Ref sig .tc := ⟨.hbm, 32, rfl⟩
abbrev main_call0_v4 : Ref sig .tc := ⟨.hbm, 33, rfl⟩
abbrev main_call0_cst : Ref sig .tc := ⟨.hbm, 34, rfl⟩
abbrev main_call0_v5 : Ref sig .tc := ⟨.hbm, 35, rfl⟩
abbrev main_call0_v6 : Ref sig .tc := ⟨.hbm, 36, rfl⟩
abbrev main_call0_cst_0 : Ref sig .tc := ⟨.hbm, 37, rfl⟩
abbrev main_v20 : Ref sig .tc := ⟨.hbm, 38, rfl⟩
abbrev main_cst_4 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_cst_5 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_cst_6 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_cst_7 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_cst_8 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_cst_9 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_cst_10 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_cst_11 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_cst_12 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_cst_13 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_cst_14 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x64x12544 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x64x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨1, ![64], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x64x12544 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1x64x12544 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  shapeCasts_S64x64x112x112_S64x64x12544 : S64x64x112x112.ShapeCasts S64x64x12544
  inb_S1x64x1_S1x64x1_0_0_0 : ∀ a, (![0, 0, 0] : Fin 3 → Nat) a + S1x64x1.size a ≤ S1x64x1.size a
  h_S1x64x1 : 0 < S1x64x1.numel
  shapeCasts_S1x64x1_S64x1 : S1x64x1.ShapeCasts S64x1
  shapeCasts_S64x1_S1x64x1 : S64x1.ShapeCasts S1x64x1
  inb_S1x64x64_S1x64x64_0_0_0 : ∀ a, (![0, 0, 0] : Fin 3 → Nat) a + S1x64x64.size a ≤ S1x64x64.size a
  h_S1x64x64 : 0 < S1x64x64.numel
  shapeCasts_S1x64x64_S64x64 : S1x64x64.ShapeCasts S64x64
  shapeCasts_S64x64_S1x64x64 : S64x64.ShapeCasts S1x64x64
  inb_S1x64x12544_S1x64x12544_0_0_0 : ∀ a, (![0, 0, 0] : Fin 3 → Nat) a + S1x64x12544.size a ≤ S1x64x12544.size a
  h_S1x64x12544 : 0 < S1x64x12544.numel
  shapeCasts_S1x64x12544_S64x12544 : S1x64x12544.ShapeCasts S64x12544
  reduces_S64x12544_S64 : S64x12544.Reduces [1] S64
  shapeCasts_S64_S64x1 : S64.ShapeCasts S64x1
  bitsLt_bf16_f32 : FTy.bits .bf16 < FTy.bits .f32
  transposes_S64x12544_p1_0_S12544x64 : S64x12544.Transposes [1, 0] S12544x64
  reducesTo_S2x64x1_S64x1_d0 : S2x64x1.ReducesTo [0] S64x1
  h_S_ : 0 < S_.numel
  reducesTo_S2x64x64_S64x64_d0 : S2x64x64.ReducesTo [0] S64x64
  bcast_S_S64x1 : S_.BroadcastsInDim S64x1 (![] : Fin 0 → Fin S64x1.rank)
  bcast_S_S64x64 : S_.BroadcastsInDim S64x64 (![] : Fin 0 → Fin S64x64.rank)
  transposes_S64x1_S1x64_1_0 : S64x1.Transposes [1, 0] S1x64
  reducesTo_S64x64_S_d0_1 : S64x64.ReducesTo [0, 1] S_
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S64x1_S64x1_0_0 : ∀ a, (![0, 0] : Fin 2 → Nat) a + S64x1.size a ≤ S64x1.size a
  h_S64x1 : 0 < S64x1.numel
  shapeCasts_S64x1_S64x1 : S64x1.ShapeCasts S64x1
  broadcasts_S64x1_S64x12544 : S64x1.Broadcasts S64x12544
  shapeCasts_S64x12544_S1x64x12544 : S64x12544.ShapeCasts S1x64x12544
  shapeCasts_S64x64x12544_S64x64x112x112 : S64x64x12544.ShapeCasts S64x64x112x112
  dot_S64x12544_S12544x64_S64x64_1_0_0_1_n_n_wf : DotDims.WF S64x12544 S12544x64 S64x64 [1] [0] [0] [1] [] []
  dot_S64x1_S1x64_S64x64_1_0_0_1_n_n_wf : DotDims.WF S64x1 S1x64 S64x64 [1] [0] [0] [1] [] []
  dot_S64x64_S64x64_S64x64_1_0_0_1_n_n_wf : DotDims.WF S64x64 S64x64 S64x64 [1] [0] [0] [1] [] []
  dot_S64x64_S64x1_S64x1_1_0_0_1_n_n_wf : DotDims.WF S64x64 S64x1 S64x1 [1] [0] [0] [1] [] []
  dot_S64x64_S64x12544_S64x12544_1_0_0_1_n_n_wf : DotDims.WF S64x64 S64x12544 S64x12544 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x12544.size a ≤ S64x64x12544.size a
  hwx0_0 : ∀ i : grid0.Coords, EltTy.bits .f32 = 32 ∨ (Rect.block (s := S64x64x12544) S1x64x12544.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x1.size a ≤ S2x64x1.size a
  hwx0_1 : ∀ i : grid0.Coords, EltTy.bits .f32 = 32 ∨ (Rect.block (s := S2x64x1) S1x64x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x64x64.size a ≤ S2x64x64.size a
  hwx0_2 : ∀ i : grid0.Coords, EltTy.bits .f32 = 32 ∨ (Rect.block (s := S2x64x64) S1x64x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x64x12544.size a ≤ S64x64x12544.size a
  hwx1_0 : ∀ i : grid1.Coords, EltTy.bits .f32 = 32 ∨ (Rect.block (s := S64x64x12544) S1x64x12544.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x1.size a ≤ S64x1.size a
  hwx1_2 : ∀ i : grid1.Coords, EltTy.bits .f32 = 32 ∨ (Rect.block (s := S64x1) S64x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x64x12544.size a ≤ S64x64x12544.size a
  hwx1_3 : ∀ i : grid1.Coords, EltTy.bits .f32 = 32 ∨ (Rect.block (s := S64x64x12544) S1x64x12544.size (cc1_transform_3 i) (hinb1_3 i)).WholeWords (EltTy.packing .f32)

variable [Facts₀]

def dot_S64x12544_S12544x64_S64x64_1_0_0_1_n_n : DotDims S64x12544 S12544x64 S64x64 where
  lhsContracting := [1]
  rhsContracting := [0]
  lhsNonContracting := [0]
  rhsNonContracting := [1]
  lhsBatch := []
  rhsBatch := []
  wf := dot_S64x12544_S12544x64_S64x64_1_0_0_1_n_n_wf
def dot_S64x1_S1x64_S64x64_1_0_0_1_n_n : DotDims S64x1 S1x64 S64x64 where
  lhsContracting := [1]
  rhsContracting := [0]
  lhsNonContracting := [0]
  rhsNonContracting := [1]
  lhsBatch := []
  rhsBatch := []
  wf := dot_S64x1_S1x64_S64x64_1_0_0_1_n_n_wf
def dot_S64x64_S64x64_S64x64_1_0_0_1_n_n : DotDims S64x64 S64x64 S64x64 where
  lhsContracting := [1]
  rhsContracting := [0]
  lhsNonContracting := [0]
  rhsNonContracting := [1]
  lhsBatch := []
  rhsBatch := []
  wf := dot_S64x64_S64x64_S64x64_1_0_0_1_n_n_wf
def dot_S64x64_S64x1_S64x1_1_0_0_1_n_n : DotDims S64x64 S64x1 S64x1 where
  lhsContracting := [1]
  rhsContracting := [0]
  lhsNonContracting := [0]
  rhsNonContracting := [1]
  lhsBatch := []
  rhsBatch := []
  wf := dot_S64x64_S64x1_S64x1_1_0_0_1_n_n_wf
def dot_S64x64_S64x12544_S64x12544_1_0_0_1_n_n : DotDims S64x64 S64x12544 S64x12544 where
  lhsContracting := [1]
  rhsContracting := [0]
  lhsNonContracting := [0]
  rhsNonContracting := [1]
  lhsBatch := []
  rhsBatch := []
  wf := dot_S64x64_S64x12544_S64x12544_1_0_0_1_n_n_wf

abbrev win0_0 : Pipeline.Window sig grid0 :=
  Pipeline.Window.ofSpec (Memref.whole main_v0) S1x64x12544.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1_0) S1x64x1.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_1) S1x64x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v0) S1x64x12544.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v66) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v67) S64x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v68) S1x64x12544.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S64x64x112x112 : Shape := ⟨4, ![64, 64, 112, 112]⟩
abbrev S64x802816 : Shape := ⟨2, ![64, 802816]⟩
abbrev S_ : Shape := ⟨0, ![]⟩
abbrev S64 : Shape := ⟨1, ![64]⟩
abbrev S64x1 : Shape := ⟨2, ![64, 1]⟩
abbrev S64x64 : Shape := ⟨2, ![64, 64]⟩
abbrev S802816x64 : Shape := ⟨2, ![802816, 64]⟩

abbrev nBuf : Space → Nat
  | .hbm => 98
  | .vmem => 0
  | .smem => 0
  | _ => 0

abbrev bufTy : (tb : Table) → Fin (tcTables nBuf tb) → BufTy
  | .hbm, ⟨0, _⟩ => ⟨S64x64x112x112, .f32⟩
  | .hbm, ⟨1, _⟩ => ⟨S64x64x112x112, .f32⟩
  | .hbm, ⟨2, _⟩ => ⟨S64x802816, .f32⟩
  | .hbm, ⟨3, _⟩ => ⟨S_, .f32⟩
  | .hbm, ⟨4, _⟩ => ⟨S64, .f32⟩
  | .hbm, ⟨5, _⟩ => ⟨S64x1, .f32⟩
  | .hbm, ⟨6, _⟩ => ⟨S_, .f32⟩
  | .hbm, ⟨7, _⟩ => ⟨S64x1, .f32⟩
  | .hbm, ⟨8, _⟩ => ⟨S64x1, .f32⟩
  | .hbm, ⟨9, _⟩ => ⟨S64x802816, .f32⟩
  | .hbm, ⟨10, _⟩ => ⟨S64x802816, .f32⟩
  | .hbm, ⟨11, _⟩ => ⟨S64x64, .i32⟩
  | .hbm, ⟨12, _⟩ => ⟨S64x64, .i32⟩
  | .hbm, ⟨13, _⟩ => ⟨S_, .i32⟩
  | .hbm, ⟨14, _⟩ => ⟨S64x64, .i32⟩
  | .hbm, ⟨15, _⟩ => ⟨S64x64, .i32⟩
  | .hbm, ⟨16, _⟩ => ⟨S64x64, .i1⟩
  | .hbm, ⟨17, _⟩ => ⟨S64x64, .f32⟩
  | .hbm, ⟨18, _⟩ => ⟨S_, .f32⟩
  | .hbm, ⟨19, _⟩ => ⟨S64x64, .f32⟩
  | .hbm, ⟨20, _⟩ => ⟨S64x64, .f32⟩
  | .hbm, ⟨21, _⟩ => ⟨S802816x64, .f32⟩
  | .hbm, ⟨22, _⟩ => ⟨S64x64, .f32⟩
  | .hbm, ⟨23, _⟩ => ⟨S_, .f32⟩
  | .hbm, ⟨24, _⟩ => ⟨S64x64, .f32⟩
  | .hbm, ⟨25, _⟩ => ⟨S64x64, .f32⟩
  | .hbm, ⟨26, _⟩ => ⟨S64x64, .f32⟩
  | .hbm, ⟨27, _⟩ => ⟨S64x64, .i32⟩
  | .hbm, ⟨28, _⟩ => ⟨S64x64, .i32⟩
  | .hbm, ⟨29, _⟩ => ⟨S_, .i32⟩
  | .hbm, ⟨30, _⟩ => ⟨S64x64, .i32⟩
  | .hbm, ⟨31, _⟩ => ⟨S64x64, .i32⟩
  | .hbm, ⟨32, _⟩ => ⟨S64x64, .i1⟩
  | .hbm, ⟨33, _⟩ => ⟨S_, .f32⟩
  | .hbm, ⟨34, _⟩ => ⟨S64x64, .f32⟩
  | .hbm, ⟨35, _⟩ => ⟨S64x64, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S64x64, .f32⟩
  | .hbm, ⟨41, _⟩ => ⟨S64x64, .f32⟩
  | .hbm, ⟨42, _⟩ => ⟨S64x64, .f32⟩
  | .hbm, ⟨43, _⟩ => ⟨S64x64, .f32⟩
  | .hbm, ⟨44, _⟩ => ⟨S_, .f32⟩
  | .hbm, ⟨45, _⟩ => ⟨S64x64, .f32⟩
  | .hbm, ⟨46, _⟩ => ⟨S64x64, .f32⟩
  | .hbm, ⟨47, _⟩ => ⟨S64x64, .f32⟩
  | .hbm, ⟨48, _⟩ => ⟨S_, .f32⟩
  | .hbm, ⟨49, _⟩ => ⟨S64x64, .f32⟩
  | .hbm, ⟨50, _⟩ => ⟨S64x64, .f32⟩
  | .hbm, ⟨51, _⟩ => ⟨S64x64, .f32⟩
  | .hbm, ⟨52, _⟩ => ⟨S64x64, .f32⟩
  | .hbm, ⟨53, _⟩ => ⟨S64x64, .f32⟩
  | .hbm, ⟨54, _⟩ => ⟨S_, .f32⟩
  | .hbm, ⟨55, _⟩ => ⟨S64x64, .f32⟩
  | .hbm, ⟨56, _⟩ => ⟨S64x64, .f32⟩
  | .hbm, ⟨57, _⟩ => ⟨S64x64, .f32⟩
  | .hbm, ⟨58, _⟩ => ⟨S_, .f32⟩
  | .hbm, ⟨59, _⟩ => ⟨S64x64, .f32⟩
  | .hbm, ⟨60, _⟩ => ⟨S64x64, .f32⟩
  | .hbm, ⟨61, _⟩ => ⟨S64x64, .f32⟩
  | .hbm, ⟨62, _⟩ => ⟨S64x64, .f32⟩
  | .hbm, ⟨63, _⟩ => ⟨S64x64, .f32⟩
  | .hbm, ⟨64, _⟩ => ⟨S_, .f32⟩
  | .hbm, ⟨65, _⟩ => ⟨S64x64, .f32⟩
  | .hbm, ⟨66, _⟩ => ⟨S64x64, .f32⟩
  | .hbm, ⟨67, _⟩ => ⟨S64x64, .f32⟩
  | .hbm, ⟨68, _⟩ => ⟨S_, .f32⟩
  | .hbm, ⟨69, _⟩ => ⟨S64x64, .f32⟩
  | .hbm, ⟨70, _⟩ => ⟨S64x64, .f32⟩
  | .hbm, ⟨71, _⟩ => ⟨S64x64, .f32⟩
  | .hbm, ⟨72, _⟩ => ⟨S64x64, .f32⟩
  | .hbm, ⟨73, _⟩ => ⟨S64x64, .f32⟩
  | .hbm, ⟨74, _⟩ => ⟨S_, .f32⟩
  | .hbm, ⟨75, _⟩ => ⟨S64x64, .f32⟩
  | .hbm, ⟨76, _⟩ => ⟨S64x64, .f32⟩
  | .hbm, ⟨77, _⟩ => ⟨S64x64, .f32⟩
  | .hbm, ⟨78, _⟩ => ⟨S_, .f32⟩
  | .hbm, ⟨79, _⟩ => ⟨S64x64, .f32⟩
  | .hbm, ⟨80, _⟩ => ⟨S64x64, .f32⟩
  | .hbm, ⟨81, _⟩ => ⟨S64x64, .f32⟩
  | .hbm, ⟨82, _⟩ => ⟨S64x64, .f32⟩
  | .hbm, ⟨83, _⟩ => ⟨S64x64, .f32⟩
  | .hbm, ⟨84, _⟩ => ⟨S_, .f32⟩
  | .hbm, ⟨85, _⟩ => ⟨S64x64, .f32⟩
  | .hbm, ⟨86, _⟩ => ⟨S64x64, .f32⟩
  | .hbm, ⟨87, _⟩ => ⟨S64x64, .f32⟩
  | .hbm, ⟨88, _⟩ => ⟨S_, .f32⟩
  | .hbm, ⟨89, _⟩ => ⟨S64x64, .f32⟩
  | .hbm, ⟨90, _⟩ => ⟨S64x64, .f32⟩
  | .hbm, ⟨91, _⟩ => ⟨S64x64, .f32⟩
  | .hbm, ⟨92, _⟩ => ⟨S_, .f32⟩
  | .hbm, ⟨93, _⟩ => ⟨S64x64, .f32⟩
  | .hbm, ⟨94, _⟩ => ⟨S64x64, .f32⟩
  | .hbm, ⟨95, _⟩ => ⟨S64x802816, .f32⟩
  | .hbm, ⟨96, _⟩ => ⟨S64x64x112x112, .f32⟩
  | .hbm, ⟨97, _⟩ => ⟨S64x64x112x112, .f32⟩
  | _, _ => ⟨S64x64x112x112, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_c : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_1 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_2 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_call0_v0 : Ref sig .tc := ⟨.hbm, 27, rfl⟩
abbrev main_call0_v1 : Ref sig .tc := ⟨.hbm, 28, rfl⟩
abbrev main_call0_c : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_call0_cst : Ref sig .tc := ⟨.hbm, 33, rfl⟩
abbrev main_call0_v5 : Ref sig .tc := ⟨.hbm, 34, rfl⟩
abbrev main_call0_v6 : Ref sig .tc := ⟨.hbm, 35, rfl⟩
abbrev main_call0_cst_0 : Ref sig .tc := ⟨.hbm, 36, rfl⟩
abbrev main_v21 : Ref sig .tc := ⟨.hbm, 37, rfl⟩
abbrev main_cst_3 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_4 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_5 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_6 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_7 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_8 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst_9 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_cst_10 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_cst_11 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_12 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_cst_13 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩

abbrev nD : Nat := 1
abbrev τ : Topo := Topo.v7x

variable {F : FTy → Type} [FloatOps F]

class Facts₀ : Prop where
  transposes_S64x64x112x112_S64x64x112x112_1_0_2_3 : S64x64x112x112.Transposes [1, 0, 2, 3] S64x64x112x112
  shapeCasts_S64x64x112x112_S64x802816 : S64x64x112x112.ShapeCasts S64x802816
  reducesTo_S64x802816_S64_d1 : S64x802816.ReducesTo [1] S64
  h_S_ : 0 < S_.numel
  bcast_S64_S64x1_0 : S64.BroadcastsInDim S64x1 (![0] : Fin 1 → Fin S64x1.rank)
  bcast_S_S64x1 : S_.BroadcastsInDim S64x1 (![] : Fin 0 → Fin S64x1.rank)
  bcast_S64x1_S64x802816_0_1 : S64x1.BroadcastsInDim S64x802816 (![0, 1] : Fin 2 → Fin S64x802816.rank)
  bcast_S_S64x64 : S_.BroadcastsInDim S64x64 (![] : Fin 0 → Fin S64x64.rank)
  transposes_S64x802816_S802816x64_1_0 : S64x802816.Transposes [1, 0] S802816x64
  reducesTo_S64x64_S_d0_1 : S64x64.ReducesTo [0, 1] S_
  shapeCasts_S64x802816_S64x64x112x112 : S64x802816.ShapeCasts S64x64x112x112
  dot_S64x802816_S802816x64_S64x64_1_0_0_1_n_n_wf : DotDims.WF S64x802816 S802816x64 S64x64 [1] [0] [0] [1] [] []
  dot_S64x64_S64x64_S64x64_1_0_0_1_n_n_wf : DotDims.WF S64x64 S64x64 S64x64 [1] [0] [0] [1] [] []
  dot_S64x64_S64x802816_S64x802816_1_0_0_1_n_n_wf : DotDims.WF S64x64 S64x802816 S64x802816 [1] [0] [0] [1] [] []

variable [Facts₀]

def dot_S64x802816_S802816x64_S64x64_1_0_0_1_n_n : DotDims S64x802816 S802816x64 S64x64 where
  lhsContracting := [1]
  rhsContracting := [0]
  lhsNonContracting := [0]
  rhsNonContracting := [1]
  lhsBatch := []
  rhsBatch := []
  wf := dot_S64x802816_S802816x64_S64x64_1_0_0_1_n_n_wf
def dot_S64x64_S64x64_S64x64_1_0_0_1_n_n : DotDims S64x64 S64x64 S64x64 where
  lhsContracting := [1]
  rhsContracting := [0]
  lhsNonContracting := [0]
  rhsNonContracting := [1]
  lhsBatch := []
  rhsBatch := []
  wf := dot_S64x64_S64x64_S64x64_1_0_0_1_n_n_wf
def dot_S64x64_S64x802816_S64x802816_1_0_0_1_n_n : DotDims S64x64 S64x802816 S64x802816 where
  lhsContracting := [1]
  rhsContracting := [0]
  lhsNonContracting := [0]
  rhsNonContracting := [1]
  lhsBatch := []
  rhsBatch := []
  wf := dot_S64x64_S64x802816_S64x802816_1_0_0_1_n_n_wf

class Facts : Prop extends Facts₀ where

variable [Facts]
-- ==== Proof.KernelRun.lean ====
/-
  The kernel program's run with its result named.

  The program is seven stretches: a reshape of the input, the statistics pass (a grid of 2 × 32 points), the host
  arithmetic that turns the statistics into the whitening matrix and the whitened mean, the transform pass (64
  points), and a reshape back. The contents of every buffer at each boundary between stretches are a fold through the
  stretches from the launch memory: a host stretch applies its operations, a pass leaves its result arrays at what its
  write-backs hold and every other buffer as it found it. After the last stretch the result buffer holds that fold,
  and the argument array is as launched.
-/
import proofs.«119691_j51127290691774_2_alg».proof.Proof.Gen.KernelIdeal.Frame

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result buffer then holds the fold of
    the seven stretches at that buffer, and the argument array is as launched. -/
theorem run_value : θ_run defs (onTc (τ := τ) (main (F := F))) ⟨m, fun _ => 0, ρ⟩ (fun r => ∀ c : Dev nD,
      r.2.mem ((c.tc : Thread nD τ).loc main_v69) = W7 m ρ c (Proc.devRef .tc main_v69)
      ∧ r.2.mem ((c.tc : Thread nD τ).loc main_arg0) = m ((c.tc : Thread nD τ).loc main_arg0)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v69 (by decide)), (h c _ (mem_uc main_arg0 (by decide))).trans (W7_main_arg0 m ρ c)⟩)

end Cert.KernelIdeal.Hand

end
-- ==== Proof.Chain.lean ====
/-
  The whitening matrix as one function of the covariance matrix.

  Both programs pass a 64 × 64 matrix σ through the same stretch of array operations: its trace (the sum over every
  entry of σ masked to the diagonal), the reciprocal r = 1 / tr σ, the scaled matrix σ · r, five steps
  p ↦ 3/2 · p − 1/2 · p³ · (σ · r) of the Newton–Schulz iteration from the identity matrix, and the product of the last
  iterate with √r. The stretch is stated here once, over the few shape facts its operations cite, so that the two
  programs' values can be compared by comparing the σ that goes in; it is opened only to see that every entry it
  produces is a real number when σ is real with a positive trace.
-/
import Idealize.ShloMosaic.PureOps
import Idealize.ShloMosaic.PureOps.Ideal
import Idealize.ShloMosaic.PureOps.Ideal.Laws
import Idealize.ShloMosaic.Lib.ValueIdx

noncomputable section

namespace Cert.Whiten

open Idealize.ShloMosaic Idealize.ShloMosaic.ValueIdx

/-- The shape of a 64 × 64 matrix. -/
abbrev M : Shape := ⟨2, ![64, 64]⟩
/-- The shape of a single number. -/
abbrev Sc : Shape := ⟨0, ![]⟩

variable (bc : Sc.BroadcastsInDim M (![] : Fin 0 → Fin M.rank)) (red : M.ReducesTo [0, 1] Sc) (pos : 0 < Sc.numel)
  (D : DotDims M M M)

/-- The mask of the diagonal: row index (plus zero) equal to column index. -/
def diagMask : IVec M 1 :=
  cmpi .eq (addi (iotaInDim M 32 0) (broadcastInDim M ![] bc (constantI Sc 32 0#32))) (iotaInDim M 32 1)

/-- The identity matrix: the mask read as zeros and ones. -/
def eye : FVec Ideal M .f32 := uitofp .f32 (diagMask bc)

/-- A number spread over the matrix. -/
def spread (x : FVec Ideal Sc .f32) : FVec Ideal M .f32 := broadcastInDim M ![] bc x

/-- The float word `b` as a single number. -/
def word (b : BitVec 32) : FVec Ideal Sc .f32 := constant (F := Ideal) Sc .f32 b

/-- The trace: every entry off the diagonal replaced by zero, then the sum over all entries from zero. -/
def trace (σ : FVec Ideal M .f32) : FVec Ideal Sc .f32 :=
  Host.reduceAdd (select (diagMask bc) σ (spread bc (word 0x00000000#32))) (word 0x00000000#32) red pos

/-- r = 1 / tr σ. -/
def invTrace (σ : FVec Ideal M .f32) : FVec Ideal Sc .f32 := Host.divf (word 0x3F800000#32) (trace bc red pos σ)

/-- σ · r. -/
def scaled (σ : FVec Ideal M .f32) : FVec Ideal M .f32 := mulf σ (spread bc (invTrace bc red pos σ))

/-- One Newton–Schulz step: 3/2 · p − 1/2 · ((p · p) · p) · s. -/
def step (p s : FVec Ideal M .f32) : FVec Ideal M .f32 :=
  subf (mulf (spread bc (word 0x3FC00000#32)) p)
    (mulf (spread bc (word 0x3F000000#32)) (Host.dotGeneral D none (Host.dotGeneral D none (Host.dotGeneral D none p p) p) s))

/-- The whitening matrix: five steps from the identity on σ · r, times √r. -/
def whitener (σ : FVec Ideal M .f32) : FVec Ideal M .f32 :=
  mulf (step bc D (step bc D (step bc D (step bc D (step bc D (eye bc) (scaled bc red pos σ)) (scaled bc red pos σ))
      (scaled bc red pos σ)) (scaled bc red pos σ)) (scaled bc red pos σ))
    (spread bc (Host.sqrt (invTrace bc red pos σ)))

/-- ε on the diagonal: the word 0x3727C5AC spread over the matrix, times the identity. -/
def epsEye : FVec Ideal M .f32 := mulf (spread bc (word 0x3727C5AC#32)) (eye bc)

end Cert.Whiten

end
-- ==== Proof.KernelHost.lean ====
/-
  The host arithmetic between the two passes, up to the trace.

  From the two statistics arrays (two slots each) the program forms the channel means — the two slots summed from zero,
  divided by the pixel count — and the covariance matrix  ε·identity + (second moments summed over the slots) / count
  − mean · meanᵀ, then its trace. Each stretch of operations is read here over an arbitrary incoming valuation, so that
  nothing computed earlier is ever unfolded.
-/
import proofs.«119691_j51127290691774_2_alg».proof.Proof.Gen.KernelIdeal.Launch
import proofs.«119691_j51127290691774_2_alg».proof.Proof.Chain
import Idealize.ShloMosaic.Lib.StableHlo.Run

set_option maxRecDepth 16384

noncomputable section

namespace Cert.KernelIdeal.Hand

open Idealize.ShloMosaic Idealize.SL.Sem
open Cert.KernelIdeal Cert.KernelIdeal.Facts₀ Cert.KernelIdeal.Facts
open Cert.KernelIdeal.Gen (hostOps0 hostOps1 hostOps1_1 hostOps2)

/-- The column of channel means from the two slots of channel sums. -/
def meanCol (s1 : FVec Ideal S2x64x1 .f32) : FVec Ideal S64x1 .f32 :=
  Host.divf (Host.reduceAdd s1 (constant (F := Ideal) S_ .f32 0x00000000#32) reducesTo_S2x64x1_S64x1_d0 h_S_)
    (broadcastInDim S64x1 ![] bcast_S_S64x1 (constant (F := Ideal) S_ .f32 0x49440000#32))

/-- The covariance matrix from the two slots of channel sums and of second moments. -/
def sigmaK (s1 : FVec Ideal S2x64x1 .f32) (s2 : FVec Ideal S2x64x64 .f32) : FVec Ideal S64x64 .f32 :=
  subf (addf (Cert.Whiten.epsEye bcast_S_S64x64)
      (Host.divf (Host.reduceAdd s2 (constant (F := Ideal) S_ .f32 0x00000000#32) reducesTo_S2x64x64_S64x64_d0 h_S_)
        (broadcastInDim S64x64 ![] bcast_S_S64x64 (constant (F := Ideal) S_ .f32 0x49440000#32))))
    (Host.dotGeneral dot_S64x1_S1x64_S64x64_1_0_0_1_n_n none (meanCol s1)
      (transpose S1x64 [1, 0] (meanCol s1) transposes_S64x1_S1x64_1_0))

variable (W : Valuation τ sig (Elt Ideal))

/-- The reshape in front of the statistics pass. -/
theorem v0_after0 : StableHlo.after (hostOps0 (F := Ideal)) W (Proc.devRef .tc main_v0)
    = (shapeCast S64x64x12544 (W (Proc.devRef .tc main_arg0)) shapeCasts_S64x64x112x112_S64x64x12544 : S64x64x12544.Idx → Ideal .f32) := by
  after_results_simp
  rfl

theorem v19_after1 : StableHlo.after (hostOps1 (F := Ideal)) W (Proc.devRef .tc main_v19)
    = sigmaK (W (Proc.devRef .tc main_v1_0)) (W (Proc.devRef .tc main_v1_1)) := by
  after_results_simp
  rfl

theorem v11_after1 : StableHlo.after (hostOps1 (F := Ideal)) W (Proc.devRef .tc main_v11)
    = Cert.Whiten.eye bcast_S_S64x64 := by
  after_results_simp
  rfl

theorem v5_after1 : StableHlo.after (hostOps1 (F := Ideal)) W (Proc.devRef .tc main_v5)
    = meanCol (W (Proc.devRef .tc main_v1_0)) := by
  after_results_simp
  rfl

theorem v0_after1 : StableHlo.after (hostOps1 (F := Ideal)) W (Proc.devRef .tc main_v0) = W (Proc.devRef .tc main_v0) := by
  after_results_simp

/-- The trace call. -/
theorem v20_after2 : StableHlo.after (hostOps1_1 (F := Ideal)) W (Proc.devRef .tc main_v20)
    = Cert.Whiten.trace bcast_S_S64x64 reducesTo_S64x64_S_d0_1 h_S_ (W (Proc.devRef .tc main_v19)) := by
  after_results_simp
  rfl

theorem v19_after2 : StableHlo.after (hostOps1_1 (F := Ideal)) W (Proc.devRef .tc main_v19) = W (Proc.devRef .tc main_v19) := by
  after_results_simp
theorem v11_after2 : StableHlo.after (hostOps1_1 (F := Ideal)) W (Proc.devRef .tc main_v11) = W (Proc.devRef .tc main_v11) := by
  after_results_simp
theorem v5_after2 : StableHlo.after (hostOps1_1 (F := Ideal)) W (Proc.devRef .tc main_v5) = W (Proc.devRef .tc main_v5) := by
  after_results_simp
theorem v0_after2 : StableHlo.after (hostOps1_1 (F := Ideal)) W (Proc.devRef .tc main_v0) = W (Proc.devRef .tc main_v0) := by
  after_results_simp

/-- The reshape behind the transform pass. -/
theorem v69_after3 : StableHlo.after (hostOps2 (F := Ideal)) W (Proc.devRef .tc main_v69)
    = (shapeCast S64x64x112x112 (W (Proc.devRef .tc main_v68)) shapeCasts_S64x64x12544_S64x64x112x112 : S64x64x112x112.Idx → Ideal .f32) := by
  after_results_simp
  rfl

end Cert.KernelIdeal.Hand

end
-- ==== Proof.LibDenseOps.lean ====
/-
  General lemmas: the operations of a dense layer read at an index written with `ix1` / `ix2`, at the ideal values.

  * a vector `[a]` cast to a column `[a, 1]`, and a column `[a, 1]` broadcast over `b` columns (the two "keepdims"
    layout steps around a row reduction);
  * a plain matrix product `[a, k] × [k, b]` into a zero accumulator as the sum over `Fin k` of the products;
  * a lane sum and a lane maximum of an `[a, b]` array (the reduction over axis 1) as a sum and a fold over `Fin b`;
  * the host's maximum-reduce over axis 1 as the same fold.
  Nothing here mentions a program: the extents are variables and the dimension records are hypotheses.
-/
import Idealize.ShloMosaic.Lib.ValueLayout
import Idealize.ShloMosaic.Lib.ValueIdx
import Idealize.ShloMosaic.PureOps.Ideal.Laws

noncomputable section

namespace Cert.LibDenseOps

open Idealize.ShloMosaic Idealize.ShloMosaic.ValueIdx

variable {α : Type}

/-- An `[a]` array cast to a column `[a, 1]` reads, at `(p, u)`, the operand at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A matrix product of an `[a, k]` by a `[k, b]` array into the zero accumulator, whose dimension record contracts
    the left operand's columns against the right operand's rows (the four coordinate facts), is at `(p, j)` the sum over
    `q` of `L (p, q) · R (q, j)`. -/
theorem matmul_zero_ix2 {a k b : ℕ} {φ₁ φ₂ : FTy} (D : DotDims ⟨2, ![a, k]⟩ ⟨2, ![k, b]⟩ ⟨2, ![a, b]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision) (L : FVec Ideal ⟨2, ![a, k]⟩ φ₁) (R : FVec Ideal ⟨2, ![k, b]⟩ φ₂) (p : Fin a) (j : Fin b) :
    FloatOps.matmul D prec L R (constant ⟨2, ![a, b]⟩ .f32 0x00000000#32) (ix2 p j) = ∑ q : Fin k, L (ix2 p q) * R (ix2 q j) := by
  rw [Ideal.matmul_constant_zero_apply, ← Equiv.sum_comp (contrEquiv1 D k hr hs).symm]
  refine Finset.sum_congr rfl fun q _ => ?_
  have hq := contrEquiv1_symm_val D k hr hs q
  have el : D.lhsIdx (ix2 p j) ((contrEquiv1 D k hr hs).symm q) = ix2 p q := funext fun ax => Fin.ext (by
    match ax with
    | ⟨0, _⟩ => exact hl0 _ _
    | ⟨1, _⟩ => exact (hl1 _ _).trans hq)
  have er : D.rhsIdx (ix2 p j) ((contrEquiv1 D k hr hs).symm q) = ix2 q j := funext fun ax => Fin.ext (by
    match ax with
    | ⟨0, _⟩ => exact (hr0 _ _).trans hq
    | ⟨1, _⟩ => exact hr1 _ _)
  rw [el, er]

/-- The reduced index `p` of an `[a, b]` array with lane `c` put back on axis 1 is `(p, c)`. -/
theorem lift_lane {a b : ℕ} (h : (⟨2, ![a, b]⟩ : Shape).Reduces [1] (⟨1, ![a]⟩ : Shape)) (p : Fin a)
    (c : Fin ((⟨2, ![a, b]⟩ : Shape).size 1)) : h.lift (ix1 p) c = ix2 p (⟨c.val, c.isLt⟩ : Fin b) := by
  funext ax; apply Fin.ext
  fin_cases ax <;> rfl

/-- A lane sum of an `[a, b]` array, read at row `p`: the sum over the row. -/
theorem laneSum_apply {a b : ℕ} (src : FVec Ideal ⟨2, ![a, b]⟩ .f32) (acc : BitVec 32)
    (h : (⟨2, ![a, b]⟩ : Shape).Reduces [1] (⟨1, ![a]⟩ : Shape)) (hφ : FKind.Formats .f32) (hacc : acc = FKind.add.neutral .f32 hφ) (p : Fin a) :
    multiReduction .add [1] ⟨1, ![a]⟩ src acc h hφ hacc (ix1 p) = ∑ c : Fin b, src (ix2 p c) := by
  refine (Ideal.multiReduction_add_single src acc h hφ hacc (ix1 p)).trans ?_
  exact Finset.sum_congr rfl fun c _ => congrArg src (lift_lane h p c)

/-- A lane maximum of an `[a, b]` array, read at row `p`: the fold of `max` over the row from the accumulator's value. -/
theorem laneMax_apply {a b : ℕ} (src : FVec Ideal ⟨2, ![a, b]⟩ .f32) (acc : BitVec 32)
    (h : (⟨2, ![a, b]⟩ : Shape).Reduces [1] (⟨1, ![a]⟩ : Shape)) (hφ : FKind.Formats .f32) (hacc : acc = FKind.maximumf.neutral .f32 hφ) (p : Fin a) :
    multiReduction .maximumf [1] ⟨1, ![a]⟩ src acc h hφ hacc (ix1 p)
      = (Finset.univ : Finset (Fin b)).fold max (Ideal.ofBits .f32 acc) (fun c => src (ix2 p c)) := by
  refine (Ideal.multiReduction_maximumf_single src acc h hφ hacc (ix1 p)).trans ?_
  have hf : (src ∘ h.lift (ix1 p)) = fun c : Fin b => src (ix2 p c) := funext fun c => congrArg src (lift_lane h p c)
  exact congrArg (fun f => Finset.fold max (Ideal.ofBits .f32 acc) f (Finset.univ : Finset (Fin b))) hf

/-- The host's reduce with a maximum body over axis 1 of an `[a, b]` array, read at row `p`: the same fold from the
    initial value. -/
theorem hostRowMax_apply {a b : ℕ} (x : FVec Ideal ⟨2, ![a, b]⟩ .f32) (init : (⟨0, ![]⟩ : Shape).Idx → Ideal .f32)
    (h' : (⟨2, ![a, b]⟩ : Shape).ReducesTo [1] (⟨1, ![a]⟩ : Shape)) (h : (⟨2, ![a, b]⟩ : Shape).Reduces [1] (⟨1, ![a]⟩ : Shape))
    (hu : 0 < (⟨0, ![]⟩ : Shape).numel) (p : Fin a) :
    Host.reduce FloatOps.maximumf x init h' hu (ix1 p)
      = (Finset.univ : Finset (Fin b)).fold max (init (Shape.Idx.first hu)) (fun c => x (ix2 p c)) := by
  rw [Host.reduce_eq_fold_single FloatOps.maximumf x init h' h hu]
  have hf : (x ∘ h.lift (ix1 p)) = fun c : Fin b => x (ix2 p c) := funext fun c => congrArg x (lift_lane h p c)
  exact congrArg (fun f => Finset.fold max (init (Shape.Idx.first hu)) f (Finset.univ : Finset (Fin b))) hf

end Cert.LibDenseOps

end
-- ==== Proof.LibPlainDot.lean ====
/-
  General lemmas: the dimension record of a plain matrix product.

  A product of an [a, k] array by a [k, n] array contracts the left operand's axis 1 against the right operand's
  axis 0; the result's axis 0 is the left operand's axis 0 and its axis 1 the right operand's axis 1; nothing is
  batched. For ANY dimension record with those six axis lists:

  * `contr_rank`, `contr_size`: the contraction has one axis, of extent k;
  * `lhs_row`, `lhs_col`: at result index i and contraction position q the left operand is read at
    (i 0, q 0);
  * `rhs_row`, `rhs_col`: the right operand is read at (q 0, i 1).

  These are the six facts under which a host product and a matrix-unit product into a zero accumulator are the sum
  over q of L (p, q) · R (q, j). Nothing here mentions a program: the extents are variables and the record is any
  record with the stated axis lists.
-/
import Idealize.ShloMosaic.Lib.ValueIdx

noncomputable section

namespace Cert.LibPlainDot

open Idealize.ShloMosaic Idealize.ShloMosaic.ValueIdx

variable {a k n : ℕ} (D : DotDims ⟨2, ![a, k]⟩ ⟨2, ![k, n]⟩ ⟨2, ![a, n]⟩)

/-- The contraction has one axis. -/
theorem contr_rank (hlc : D.lhsContracting = [1]) : D.contr.rank = 1 := by
  rw [D.rank_contr, hlc]; rfl

/-- Two coordinates of one index at equal positions are equal. -/
private theorem coord_congr {s : Shape} (i : s.Idx) (p q : ℕ) (hp : p < s.rank) (hq : q < s.rank) (h : p = q) :
    (i ⟨p, hp⟩).val = (i ⟨q, hq⟩).val := by subst h; rfl

/-- The contraction's one axis has the left operand's column extent. -/
theorem contr_size (hlc : D.lhsContracting = [1]) :
    D.contr.size ⟨0, by rw [contr_rank D hlc]; exact Nat.one_pos⟩ = k := by
  have h0 : 0 < D.lhsContracting.length := by rw [hlc]; exact Nat.one_pos
  have e := D.size_contr 0 h0
  have e1 : D.lhsContracting[0] = (1 : Fin 2) := by simp only [hlc, List.getElem_cons_zero]
  rw [e1] at e
  exact e

/-- The left operand's row is the result's row. -/
theorem lhs_row (hlb : D.lhsBatch = []) (hln : D.lhsNonContracting = [0]) (i : (⟨2, ![a, n]⟩ : Shape).Idx) (q : D.contr.Idx) :
    (D.lhsIdx i q 0).val = (i 0).val := by
  unfold DotDims.lhsIdx
  rw [dif_neg (by rw [hlb]; exact List.not_mem_nil), dif_pos (by rw [hln]; exact List.mem_singleton.mpr rfl)]
  simp only [Fin.val_cast]
  exact coord_congr i _ _ _ _ (by simp [hlb, hln])

/-- The left operand's column is the contraction position. -/
theorem lhs_col (hlc : D.lhsContracting = [1]) (i : (⟨2, ![a, n]⟩ : Shape).Idx) (q : D.contr.Idx) :
    (D.lhsIdx i q 1).val = (q ⟨0, by rw [contr_rank D hlc]; exact Nat.one_pos⟩).val :=
  D.lhsIdx_val_of_single hlc i q

/-- The right operand's row is the contraction position. -/
theorem rhs_row (hlc : D.lhsContracting = [1]) (hrc : D.rhsContracting = [0]) (i : (⟨2, ![a, n]⟩ : Shape).Idx) (q : D.contr.Idx) :
    (D.rhsIdx i q 0).val = (q ⟨0, by rw [contr_rank D hlc]; exact Nat.one_pos⟩).val :=
  D.rhsIdx_val_of_single hrc i q

/-- The right operand's column is the result's column. -/
theorem rhs_col (hlb : D.lhsBatch = []) (hln : D.lhsNonContracting = [0]) (hrb : D.rhsBatch = []) (hrn : D.rhsNonContracting = [1])
    (i : (⟨2, ![a, n]⟩ : Shape).Idx) (q : D.contr.Idx) :
    (D.rhsIdx i q 1).val = (i 1).val := by
  unfold DotDims.rhsIdx
  rw [dif_neg (by rw [hrb]; exact List.not_mem_nil), dif_pos (by rw [hrn]; exact List.mem_singleton.mpr rfl)]
  simp only [Fin.val_cast]
  exact coord_congr i _ _ _ _ (by simp [hlb, hln, hrn])

end Cert.LibPlainDot

end
-- ==== Proof.Payloads.lean ====
/-
  The two kernel bodies' arithmetic, read at an index over the extended reals.

  The statistics body takes one image x (64 channels of 12544 pixels) and two running arrays: to the column of channel
  sums it adds Σ_q x (c, q), and to the 64 × 64 matrix of second moments it adds Σ_q x (i, q) · x (j, q) (the product of
  the image with its own transpose; the change of float format in front of it is the identity here). Both start from
  zero. The transform body returns Σ_k w (c, k) · x (k, q) − b (c) for a matrix w and a column b.
-/
import proofs.«119691_j51127290691774_2_alg».proof.Proof.Gen.KernelIdeal.Skeleton
import proofs.«119691_j51127290691774_2_alg».proof.Proof.LibDenseOps
import proofs.«119691_j51127290691774_2_alg».proof.Proof.LibPlainDot
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Idealize.ShloMosaic Idealize.ShloMosaic.ValueIdx
open Cert.KernelIdeal Cert.KernelIdeal.Gen

/-- The zero column the channel sums start from. -/
theorem pay1_apply (j : S1x64x1.Idx) : k0_pay1 (F := Ideal) j = 0 := Ideal.ofBits_zero_f32

/-- The zero matrix the second moments start from. -/
theorem pay2_apply (j : S1x64x64.Idx) : k0_pay2 (F := Ideal) j = 0 := Ideal.ofBits_zero_f32

/-- The channel sums after one more image: the running sum plus the sum over the image's pixels. -/
theorem pay4_apply (x : Vec Ideal S1x64x12544 .f32) (xo : Vec Ideal S1x64x1 .f32) (i : Fin 64) :
    k0_pay4 x xo (ix3 (0 : Fin 1) i (0 : Fin 1))
      = xo (ix3 (0 : Fin 1) i (0 : Fin 1)) + ∑ q : Fin 12544, x (ix3 (0 : Fin 1) i q) := by
  unfold k0_pay4 k0_pay3
  dsimp only
  rw [shapeCast_ab_1ab_apply, addf_apply, shapeCast_1ab_ab_apply, Cert.LibDenseOps.shapeCast_a_a1_apply]
  refine congrArg (xo (ix3 (0 : Fin 1) i (0 : Fin 1)) + ·) ?_
  refine (Cert.LibDenseOps.laneSum_apply (a := 64) (b := 12544) _ 0x00000000#32 _ _ _ i).trans ?_
  exact Finset.sum_congr rfl fun q _ => shapeCast_1ab_ab_apply _ _ _ _

/-- The second moments after one more image: the running matrix plus the image times its transpose. -/
theorem pay5_apply (x : Vec Ideal S1x64x12544 .f32) (xo : Vec Ideal S1x64x64 .f32) (i j : Fin 64) :
    k0_pay5 x xo (ix3 (0 : Fin 1) i j)
      = xo (ix3 (0 : Fin 1) i j) + ∑ q : Fin 12544, x (ix3 (0 : Fin 1) i q) * x (ix3 (0 : Fin 1) j q) := by
  unfold k0_pay5 k0_pay3
  dsimp only
  rw [shapeCast_ab_1ab_apply, addf_apply, shapeCast_1ab_ab_apply]
  simp only [matmul]
  rw [Cert.LibDenseOps.matmul_zero_ix2 dot_S64x12544_S12544x64_S64x64_1_0_0_1_n_n
    (Cert.LibPlainDot.contr_rank _ rfl) (Cert.LibPlainDot.contr_size _ rfl)
    (fun a q => Cert.LibPlainDot.lhs_row _ rfl rfl a q) (fun a q => Cert.LibPlainDot.lhs_col _ rfl a q)
    (fun a q => Cert.LibPlainDot.rhs_row _ rfl rfl a q) (fun a q => Cert.LibPlainDot.rhs_col _ rfl rfl rfl rfl a q)]
  refine congrArg _ (Finset.sum_congr rfl fun q _ => ?_)
  rw [truncf_apply, transpose_ix2_apply, truncf_apply, shapeCast_1ab_ab_apply, shapeCast_1ab_ab_apply]

/-- The transform: the matrix applied to the image's pixel column, minus the bias. -/
theorem pay_apply_apply (x : Vec Ideal S1x64x12544 .f32) (w : Vec Ideal S64x64 .f32) (b : Vec Ideal S64x1 .f32)
    (c : Fin 64) (q : Fin 12544) :
    k1_pay1 x w b (ix3 (0 : Fin 1) c q)
      = (∑ k : Fin 64, w (ix2 c k) * x (ix3 (0 : Fin 1) k q)) - b (ix2 c (0 : Fin 1)) := by
  unfold k1_pay1
  rw [shapeCast_ab_1ab_apply, subf_apply, Cert.LibDenseOps.broadcastTo_a1_ab_apply]
  simp only [matmul, shapeCast_self]
  rw [Cert.LibDenseOps.matmul_zero_ix2 dot_S64x64_S64x12544_S64x12544_1_0_0_1_n_n
    (Cert.LibPlainDot.contr_rank _ rfl) (Cert.LibPlainDot.contr_size _ rfl)
    (fun a q => Cert.LibPlainDot.lhs_row _ rfl rfl a q) (fun a q => Cert.LibPlainDot.lhs_col _ rfl a q)
    (fun a q => Cert.LibPlainDot.rhs_row _ rfl rfl a q) (fun a q => Cert.LibPlainDot.rhs_col _ rfl rfl rfl rfl a q)]
  refine congrArg (fun z : EReal => z - b (ix2 c (0 : Fin 1))) (Finset.sum_congr rfl fun k _ => ?_)
  rw [truncf_apply, truncf_apply, shapeCast_1ab_ab_apply]

end Cert.KernelIdeal.Hand

end
-- ==== Proof.Region0.lean ====
/-
  The statistics pass: what its two result arrays hold.

  The pass visits 2 × 32 grid points; point n = 32 · s + b handles image n and accumulates into slot s of each result:
  at b = 0 the slot's accumulators are first set to zero, at every point the image's channel sums are added to the
  column of sums and the image's matrix of second moments to the matrix accumulator, and after b = 31 the slot is
  written back. So slot s of the first result ends as 0 + Σ_{b < 32} (channel sums of image 32 · s + b) and slot s of the
  second as 0 + Σ_{b < 32} (second moments of image 32 · s + b). The sums are in grid order; on the extended reals
  addition is associative and commutative, so they are plain finite sums.
-/
import proofs.«119691_j51127290691774_2_alg».proof.Proof.Gen.KernelIdeal.Frame
import proofs.«119691_j51127290691774_2_alg».proof.Proof.Payloads
import Idealize.ShloMosaic.Lib.Pipeline.Value
import Idealize.ShloMosaic.Lib.Tactic

set_option maxRecDepth 16384

noncomputable section

namespace Cert.KernelIdeal.Hand

open Idealize.ShloMosaic Idealize.ShloMosaic.TcCoe Idealize.SL.Sem Idealize.ShloMosaic.Tactic Idealize.ShloMosaic.ValueIdx
open Idealize.ShloMosaic.Pipeline (Dat)
open Cert.KernelIdeal Cert.KernelIdeal.Gen

section Cases
variable {F : FTy → Type} [FloatOps F]

theorem hz3 : (![0, 0, 0] : Fin 3 → Nat) = fun _ => 0 := funext fun a => by fin_cases a <;> rfl

/-- At a point that is not the first of its row of the grid, the column of channel sums ends as the incoming column
    plus this image's channel sums. -/
theorem out_B_1 (c : Dev nD) (i : grid0.Coords) (a2 : Memref sig .tc .vmem S1x64x12544 .f32) (h2 : a2.IsWhole)
    (a3 : Memref sig .tc .vmem S1x64x1 .f32) (h3 : a3.IsWhole) (a4 : Memref sig .tc .vmem S1x64x64 .f32) (h4 : a4.IsWhole)
    (hc : ¬cond0_0 i) (x : Vec F S1x64x12544 .f32) (xo1 : Vec F S1x64x1 .f32) (xo2 : Vec F S1x64x64 .f32) :
    out0_B_1 c i a2 h2 a3 h3 a4 h4 hc x xo1 xo2 = k0_pay4 x xo1 := by
  unfold out0_B_1
  rw [View.read_writes_eq_canon _ _ _ (cover0_B_1 c i a2 h2 a3 h3 a4 h4 hc x xo1 xo2)]
  unfold kernelRun0_B
  dsimp only
  rw [View.canon_unit_zero hz3]
  simp only [View.readAt_eq_ld, h2.read_unread, h3.read_unread, View.ld_unit_zero (S := S1x64x12544) hz3,
    View.ld_unit_zero (S := S1x64x1) hz3]

/-- … and the matrix of second moments as the incoming matrix plus this image's. -/
theorem out_B_2 (c : Dev nD) (i : grid0.Coords) (a2 : Memref sig .tc .vmem S1x64x12544 .f32) (h2 : a2.IsWhole)
    (a3 : Memref sig .tc .vmem S1x64x1 .f32) (h3 : a3.IsWhole) (a4 : Memref sig .tc .vmem S1x64x64 .f32) (h4 : a4.IsWhole)
    (hc : ¬cond0_0 i) (x : Vec F S1x64x12544 .f32) (xo1 : Vec F S1x64x1 .f32) (xo2 : Vec F S1x64x64 .f32) :
    out0_B_2 c i a2 h2 a3 h3 a4 h4 hc x xo1 xo2 = k0_pay5 x xo2 := by
  unfold out0_B_2
  rw [View.read_writes_eq_canon _ _ _ (cover0_B_2 c i a2 h2 a3 h3 a4 h4 hc x xo1 xo2)]
  unfold kernelRun0_B
  dsimp only
  rw [View.canon_unit_zero hz3]
  simp only [View.readAt_eq_ld, h2.read_unread, h4.read_unread, View.ld_unit_zero (S := S1x64x12544) hz3,
    View.ld_unit_zero (S := S1x64x64) hz3]

/-- At the first point of a row of the grid both accumulators are first set to zero, so they end as zero plus this
    image's sums. -/
theorem out_A_1 (c : Dev nD) (i : grid0.Coords) (a2 : Memref sig .tc .vmem S1x64x12544 .f32) (h2 : a2.IsWhole)
    (a3 : Memref sig .tc .vmem S1x64x1 .f32) (h3 : a3.IsWhole) (a4 : Memref sig .tc .vmem S1x64x64 .f32) (h4 : a4.IsWhole)
    (hc : cond0_0 i) (x : Vec F S1x64x12544 .f32) :
    out0_A_1 c i a2 h2 a3 h3 a4 h4 hc x = k0_pay4 x (k0_pay1 (F := F)) := by
  unfold out0_A_1
  rw [View.read_writes_eq_canon _ _ _ (cover0_A_1 c i a2 h2 a3 h3 a4 h4 hc x)]
  unfold kernelRun0_A
  dsimp only
  sl_unfold_words
  rw [View.canon_cons_unit_zero (S := S1x64x1) hz3, View.readCov_unit_zero (S := S1x64x1) _ hz3]
  simp only [View.readAt_eq_ld, h2.read_unread, View.ld_unit_zero (S := S1x64x12544) hz3]

theorem out_A_2 (c : Dev nD) (i : grid0.Coords) (a2 : Memref sig .tc .vmem S1x64x12544 .f32) (h2 : a2.IsWhole)
    (a3 : Memref sig .tc .vmem S1x64x1 .f32) (h3 : a3.IsWhole) (a4 : Memref sig .tc .vmem S1x64x64 .f32) (h4 : a4.IsWhole)
    (hc : cond0_0 i) (x : Vec F S1x64x12544 .f32) :
    out0_A_2 c i a2 h2 a3 h3 a4 h4 hc x = k0_pay5 x (k0_pay2 (F := F)) := by
  unfold out0_A_2
  rw [View.read_writes_eq_canon _ _ _ (cover0_A_2 c i a2 h2 a3 h3 a4 h4 hc x)]
  unfold kernelRun0_A
  dsimp only
  sl_unfold_words
  rw [View.canon_cons_unit_zero (S := S1x64x64) hz3, View.readCov_unit_zero (S := S1x64x64) _ hz3]
  simp only [View.readAt_eq_ld, h2.read_unread, View.ld_unit_zero (S := S1x64x12544) hz3]

end Cases

/-! ## The accumulation over a row of the grid -/

section Acc

variable (V : (c : Dev nD) → (b : Ref sig .tc) → Buf (Elt Ideal) ((c : Thread nD τ).loc b)) (c : Dev nD)

/-- Image n as the pass reads it: the block of its input window at point n (zero past the grid, never used). -/
def img (n : ℕ) : Vec Ideal S1x64x12544 .f32 := if h : n < cfg0.N then iblk0 V c 0 ⟨n, h⟩ else fun _ => 0

theorem img_of_lt (n : ℕ) (h : n < cfg0.N) : img V c n = iblk0 V c 0 ⟨n, h⟩ := dif_pos h

/-- The sum of channel i of image n over its pixels. -/
def chanSum (n : ℕ) (i : Fin 64) : EReal := ∑ q : Fin 12544, img V c n (ix3 (0 : Fin 1) i q)

/-- The second moment of channels i and j of image n. -/
def gram (n : ℕ) (i j : Fin 64) : EReal := ∑ q : Fin 12544, img V c n (ix3 (0 : Fin 1) i q) * img V c n (ix3 (0 : Fin 1) j q)

/-- After point t the column accumulator holds zero plus the channel sums of the images of t's row up to t. -/
theorem sums_at (t : ℕ) (ht : t < cfg0.N) (u v : Fin 1) (i : Fin 64) :
    (outsAt0 V c t ht).1 (ix3 u i v) = 0 + ∑ s ∈ Finset.range (t % 32 + 1), chanSum V c (32 * (t / 32) + s) i := by
  obtain rfl : u = 0 := Subsingleton.elim _ _
  obtain rfl : v = 0 := Subsingleton.elim _ _
  have hb : 32 * (t / 32) + t % 32 < cfg0.N := by rw [Nat.div_add_mod]; exact ht
  have key := Pipeline.eq_accAt_of_mod (N := cfg0.N) (fun n h => (outsAt0 V c n h).1) 32
    (fun n h => k0_pay4 (iblk0 V c 0 ⟨n, h⟩) (k0_pay1 (F := Ideal)))
    (fun n h acc => k0_pay4 (iblk0 V c 0 ⟨n, h⟩) acc)
    (fun n h hn => by
      show (outsAt0 V c n h).1 = _
      rw [outsAt0_A V c ⟨n, h⟩ hn]
      dsimp only
      exact out_A_1 (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) _ (iblk0 V c 0 ⟨n, h⟩))
    (fun n h hn => by
      show (outsAt0 V c (n + 1) h).1 = _
      rw [outsAt0_B V c ⟨n + 1, h⟩ hn]
      dsimp only
      exact out_B_1 (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) _ (iblk0 V c 0 ⟨n + 1, h⟩) _ _)
    (by norm_num) t ht hb
  have key' : (outsAt0 V c t ht).1 = _ := key
  rw [key']
  refine (Pipeline.accAt_add_apply (N := cfg0.N) (ι := S1x64x1.Idx) (β := EReal) _ _ (fun _ => 0)
    (fun n j => chanSum V c n (j 1)) (32 * (t / 32)) 31 ?_ ?_ (t % 32) (by omega) hb _).trans ?_
  · intro h j
    obtain ⟨u, p, v, rfl⟩ : ∃ (u : Fin 1) (p : Fin 64) (v : Fin 1), j = ix3 u p v := ⟨j 0, j 1, j 2, eq_ix3 j⟩
    obtain rfl : u = 0 := Subsingleton.elim _ _
    obtain rfl : v = 0 := Subsingleton.elim _ _
    show k0_pay4 (F := Ideal) _ _ _ = 0 + chanSum V c _ p
    rw [pay4_apply, pay1_apply]
    unfold chanSum
    rw [img_of_lt V c _ h]
  · intro n h acc j _ _
    obtain ⟨u, p, v, rfl⟩ : ∃ (u : Fin 1) (p : Fin 64) (v : Fin 1), j = ix3 u p v := ⟨j 0, j 1, j 2, eq_ix3 j⟩
    obtain rfl : u = 0 := Subsingleton.elim _ _
    obtain rfl : v = 0 := Subsingleton.elim _ _
    show k0_pay4 (F := Ideal) _ _ _ = acc _ + chanSum V c n p
    rw [pay4_apply]
    unfold chanSum
    rw [img_of_lt V c _ h]
  · rfl

/-- After point t the matrix accumulator holds zero plus the second moments of the images of t's row up to t. -/
theorem moments_at (t : ℕ) (ht : t < cfg0.N) (u : Fin 1) (i j : Fin 64) :
    (outsAt0 V c t ht).2 (ix3 u i j) = 0 + ∑ s ∈ Finset.range (t % 32 + 1), gram V c (32 * (t / 32) + s) i j := by
  obtain rfl : u = 0 := Subsingleton.elim _ _
  have hb : 32 * (t / 32) + t % 32 < cfg0.N := by rw [Nat.div_add_mod]; exact ht
  have key := Pipeline.eq_accAt_of_mod (N := cfg0.N) (fun n h => (outsAt0 V c n h).2) 32
    (fun n h => k0_pay5 (iblk0 V c 0 ⟨n, h⟩) (k0_pay2 (F := Ideal)))
    (fun n h acc => k0_pay5 (iblk0 V c 0 ⟨n, h⟩) acc)
    (fun n h hn => by
      show (outsAt0 V c n h).2 = _
      rw [outsAt0_A V c ⟨n, h⟩ hn]
      dsimp only
      exact out_A_2 (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) _ (iblk0 V c 0 ⟨n, h⟩))
    (fun n h hn => by
      show (outsAt0 V c (n + 1) h).2 = _
      rw [outsAt0_B V c ⟨n + 1, h⟩ hn]
      dsimp only
      exact out_B_2 (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) _ (iblk0 V c 0 ⟨n + 1, h⟩) _ _)
    (by norm_num) t ht hb
  have key' : (outsAt0 V c t ht).2 = _ := key
  rw [key']
  refine (Pipeline.accAt_add_apply (N := cfg0.N) (ι := S1x64x64.Idx) (β := EReal) _ _ (fun _ => 0)
    (fun n y => gram V c n (y 1) (y 2)) (32 * (t / 32)) 31 ?_ ?_ (t % 32) (by omega) hb _).trans ?_
  · intro h y
    obtain ⟨u, p, r, rfl⟩ : ∃ (u : Fin 1) (p r : Fin 64), y = ix3 u p r := ⟨y 0, y 1, y 2, eq_ix3 y⟩
    obtain rfl : u = 0 := Subsingleton.elim _ _
    show k0_pay5 (F := Ideal) _ _ _ = 0 + gram V c _ p r
    rw [pay5_apply, pay2_apply]
    unfold gram
    rw [img_of_lt V c _ h]
  · intro n h acc y _ _
    obtain ⟨u, p, r, rfl⟩ : ∃ (u : Fin 1) (p r : Fin 64), y = ix3 u p r := ⟨y 0, y 1, y 2, eq_ix3 y⟩
    obtain rfl : u = 0 := Subsingleton.elim _ _
    show k0_pay5 (F := Ideal) _ _ _ = acc _ + gram V c n p r
    rw [pay5_apply]
    unfold gram
    rw [img_of_lt V c _ h]
  · rfl

end Acc

end Cert.KernelIdeal.Hand

end
-- ==== Proof.Region0Array.lean ====
/-
  The statistics pass: its two result arrays after the pass.

  Slot s of each result is written back once, after the last point 32 · s + 31 of its row of the grid, and the two
  slots tile the arrays. So entry (s, i) of the first result is zero plus the channel sums of images 32 · s … 32 · s + 31,
  and entry (s, i, j) of the second zero plus their second moments.
-/
import proofs.«119691_j51127290691774_2_alg».proof.Proof.Region0

set_option maxRecDepth 16384

noncomputable section

namespace Cert.KernelIdeal.Hand

open Idealize.ShloMosaic Idealize.ShloMosaic.TcCoe Idealize.SL.Sem Idealize.ShloMosaic.Tactic Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b)) (c : Dev nD)

/-- The first result: slot s, channel i holds zero plus the channel sums of the slot's 32 images. -/
def sumsArr : S2x64x1.Idx → EReal :=
  fun j => 0 + ∑ s ∈ Finset.range 32, chanSum V c (32 * (j 0).val + s) (j 1)

/-- The second result: slot s, channels i, j holds zero plus the second moments of the slot's 32 images. -/
def momentsArr : S2x64x64.Idx → EReal :=
  fun j => 0 + ∑ s ∈ Finset.range 32, gram V c (32 * (j 0).val + s) (j 1) (j 2)

/-- The printed index maps over the grid: the results' slot is the row of the grid, the input's image the point. -/
theorem idx_facts0 : ∀ t : Fin cfg0.N, win0_1.index t (0 : Fin 3) = t.val / 32 ∧ win0_1.index t (1 : Fin 3) = 0
    ∧ win0_1.index t (2 : Fin 3) = 0 ∧ win0_2.index t (0 : Fin 3) = t.val / 32 ∧ win0_2.index t (1 : Fin 3) = 0
    ∧ win0_2.index t (2 : Fin 3) = 0 ∧ win0_0.index t (0 : Fin 3) = t.val ∧ win0_0.index t (1 : Fin 3) = 0
    ∧ win0_0.index t (2 : Fin 3) = 0 :=
  (by decide +kernel : ∀ t : Fin grid0.N, _)

/-- What a row's last point writes back into the first result is that slot of `sumsArr`. -/
theorem flushed1_eq (t : Fin cfg0.N) (hf : (cfg0.win 1).flush t = true) :
    (dat0 V c).flushed 1 t = ((cfg0.win 1).blk t).view.read (Elt Ideal) (sumsArr V c) := by
  have h31 : t.val % 32 = 31 := (flush0_1 t).mp hf
  obtain ⟨e0, e1, e2, -⟩ := idx_facts0 t
  show (cfg0.win 1).cut (grid0.coords t) ((dat0 V c).after 1 t) = _
  rw [after0_1]
  funext y
  obtain ⟨u, i, v, rfl⟩ : ∃ (u : Fin 1) (i : Fin 64) (v : Fin 1), y = ix3 u i v := ⟨y 0, y 1, y 2, eq_ix3 y⟩
  show (outsAt0 V c t.val t.isLt).1 (ix3 u i v)
    = 0 + ∑ s ∈ Finset.range 32, chanSum V c (32 * ((((cfg0.win 1).blk t).view.emb (ix3 u i v)) 0).val + s)
        ((((cfg0.win 1).blk t).view.emb (ix3 u i v)) 1)
  have hj0 : ((((cfg0.win 1).blk t).view.emb (ix3 u i v)) 0).val = t.val / 32 := by
    show win0_1.index t (0 : Fin 3) * 1 + 1 * u.val = _
    rw [e0]; have := u.isLt; omega
  have hj1 : (((cfg0.win 1).blk t).view.emb (ix3 u i v)) 1 = i := Fin.ext (by
    show win0_1.index t (1 : Fin 3) * 64 + 1 * i.val = i.val
    rw [e1]; omega)
  rw [sums_at, h31, hj0, hj1]

/-- … and into the second result that slot of `momentsArr`. -/
theorem flushed2_eq (t : Fin cfg0.N) (hf : (cfg0.win 2).flush t = true) :
    (dat0 V c).flushed 2 t = ((cfg0.win 2).blk t).view.read (Elt Ideal) (momentsArr V c) := by
  have h31 : t.val % 32 = 31 := (flush0_2 t).mp hf
  obtain ⟨-, -, -, e0, e1, e2, -⟩ := idx_facts0 t
  show (cfg0.win 2).cut (grid0.coords t) ((dat0 V c).after 2 t) = _
  rw [after0_2]
  funext y
  obtain ⟨u, i, j, rfl⟩ : ∃ (u : Fin 1) (i j : Fin 64), y = ix3 u i j := ⟨y 0, y 1, y 2, eq_ix3 y⟩
  show (outsAt0 V c t.val t.isLt).2 (ix3 u i j)
    = 0 + ∑ s ∈ Finset.range 32, gram V c (32 * ((((cfg0.win 2).blk t).view.emb (ix3 u i j)) 0).val + s)
        ((((cfg0.win 2).blk t).view.emb (ix3 u i j)) 1) ((((cfg0.win 2).blk t).view.emb (ix3 u i j)) 2)
  have hj0 : ((((cfg0.win 2).blk t).view.emb (ix3 u i j)) 0).val = t.val / 32 := by
    show win0_2.index t (0 : Fin 3) * 1 + 1 * u.val = _
    rw [e0]; have := u.isLt; omega
  have hj1 : (((cfg0.win 2).blk t).view.emb (ix3 u i j)) 1 = i := Fin.ext (by
    show win0_2.index t (1 : Fin 3) * 64 + 1 * i.val = i.val
    rw [e1]; omega)
  have hj2 : (((cfg0.win 2).blk t).view.emb (ix3 u i j)) 2 = j := Fin.ext (by
    show win0_2.index t (2 : Fin 3) * 64 + 1 * j.val = j.val
    rw [e2]; omega)
  rw [moments_at, h31, hj0, hj1, hj2]

/-- An index of the first result is in point t's block iff each coordinate is in the block's range on its axis. -/
theorem mem_blk1 (t : Fin cfg0.N) (i : S2x64x1.Idx) :
    i ∈ ((cfg0.win 1).blk t).view.set ↔ ∀ a : Fin 3, win0_1.index t a * S1x64x1.size a ≤ (i a).val
      ∧ (i a).val < win0_1.index t a * S1x64x1.size a + S1x64x1.size a := by
  show i ∈ ((View.whole main_v1_0).slice (win0_1.rect t)).set ↔ _
  rw [View.set_slice_whole, Rect.mem_set_unit]
  exact Iff.rfl

theorem mem_blk2 (t : Fin cfg0.N) (i : S2x64x64.Idx) :
    i ∈ ((cfg0.win 2).blk t).view.set ↔ ∀ a : Fin 3, win0_2.index t a * S1x64x64.size a ≤ (i a).val
      ∧ (i a).val < win0_2.index t a * S1x64x64.size a + S1x64x64.size a := by
  show i ∈ ((View.whole main_v1_1).slice (win0_2.rect t)).set ↔ _
  rw [View.set_slice_whole, Rect.mem_set_unit]
  exact Iff.rfl

/-- Every entry of the first result lies in the block its slot's last point writes back. -/
theorem cover1 (j : S2x64x1.Idx) :
    ∃ t : Fin cfg0.N, (cfg0.win 1).flush t = true ∧ j ∈ ((cfg0.win 1).blk t).view.set := by
  have hN : cfg0.N = 64 := N_0
  have h0 : (j 0).val < 2 := (j 0).isLt
  have h1 : (j 1).val < 64 := (j 1).isLt
  have h2 : (j 2).val < 1 := (j 2).isLt
  have ht : 32 * (j 0).val + 31 < cfg0.N := by omega
  obtain ⟨e0, e1, e2, -⟩ := idx_facts0 ⟨32 * (j 0).val + 31, ht⟩
  have e0' : win0_1.index ⟨32 * (j 0).val + 31, ht⟩ (0 : Fin 3) = (j 0).val := by rw [e0]; show (32 * (j 0).val + 31) / 32 = _; omega
  refine ⟨⟨32 * (j 0).val + 31, ht⟩, (flush0_1 _).mpr (by show (32 * (j 0).val + 31) % 32 = 31; omega), ?_⟩
  rw [mem_blk1]
  intro a
  match a with
  | ⟨0, _⟩ => show win0_1.index ⟨32 * (j 0).val + 31, ht⟩ (0 : Fin 3) * 1 ≤ (j 0).val ∧ (j 0).val < win0_1.index ⟨32 * (j 0).val + 31, ht⟩ (0 : Fin 3) * 1 + 1
              rw [e0']; omega
  | ⟨1, _⟩ => show win0_1.index ⟨32 * (j 0).val + 31, ht⟩ (1 : Fin 3) * 64 ≤ (j 1).val ∧ (j 1).val < win0_1.index ⟨32 * (j 0).val + 31, ht⟩ (1 : Fin 3) * 64 + 64
              rw [e1]; omega
  | ⟨2, _⟩ => show win0_1.index ⟨32 * (j 0).val + 31, ht⟩ (2 : Fin 3) * 1 ≤ (j 2).val ∧ (j 2).val < win0_1.index ⟨32 * (j 0).val + 31, ht⟩ (2 : Fin 3) * 1 + 1
              rw [e2]; omega

theorem cover2 (j : S2x64x64.Idx) :
    ∃ t : Fin cfg0.N, (cfg0.win 2).flush t = true ∧ j ∈ ((cfg0.win 2).blk t).view.set := by
  have hN : cfg0.N = 64 := N_0
  have h0 : (j 0).val < 2 := (j 0).isLt
  have h1 : (j 1).val < 64 := (j 1).isLt
  have h2 : (j 2).val < 64 := (j 2).isLt
  have ht : 32 * (j 0).val + 31 < cfg0.N := by omega
  obtain ⟨-, -, -, e0, e1, e2, -⟩ := idx_facts0 ⟨32 * (j 0).val + 31, ht⟩
  have e0' : win0_2.index ⟨32 * (j 0).val + 31, ht⟩ (0 : Fin 3) = (j 0).val := by rw [e0]; show (32 * (j 0).val + 31) / 32 = _; omega
  refine ⟨⟨32 * (j 0).val + 31, ht⟩, (flush0_2 _).mpr (by show (32 * (j 0).val + 31) % 32 = 31; omega), ?_⟩
  rw [mem_blk2]
  intro a
  match a with
  | ⟨0, _⟩ => show win0_2.index ⟨32 * (j 0).val + 31, ht⟩ (0 : Fin 3) * 1 ≤ (j 0).val ∧ (j 0).val < win0_2.index ⟨32 * (j 0).val + 31, ht⟩ (0 : Fin 3) * 1 + 1
              rw [e0']; omega
  | ⟨1, _⟩ => show win0_2.index ⟨32 * (j 0).val + 31, ht⟩ (1 : Fin 3) * 64 ≤ (j 1).val ∧ (j 1).val < win0_2.index ⟨32 * (j 0).val + 31, ht⟩ (1 : Fin 3) * 64 + 64
              rw [e1]; omega
  | ⟨2, _⟩ => show win0_2.index ⟨32 * (j 0).val + 31, ht⟩ (2 : Fin 3) * 64 ≤ (j 2).val ∧ (j 2).val < win0_2.index ⟨32 * (j 0).val + 31, ht⟩ (2 : Fin 3) * 64 + 64
              rw [e2]; omega

/-- The first result after the pass. -/
theorem final1 : (dat0 V c).arrAt 1 cfg0.N = sumsArr V c :=
  (dat0 V c).arrAt_eq_of_cover 1 (sumsArr V c) (flushed1_eq V c) (cover1)

/-- The second result after the pass. -/
theorem final2 : (dat0 V c).arrAt 2 cfg0.N = momentsArr V c :=
  (dat0 V c).arrAt_eq_of_cover 2 (momentsArr V c) (flushed2_eq V c) (cover2)

/-- Image n as the pass reads it is image n of the array it was given. -/
theorem img_apply (n : Fin 64) (i : Fin 64) (q : Fin 12544) :
    img V c n.val (ix3 (0 : Fin 1) i q) = V c main_v0 (ix3 n i q) := by
  have hN : cfg0.N = 64 := N_0
  have hn : n.val < cfg0.N := by have := n.isLt; omega
  obtain ⟨-, -, -, -, -, -, e0, e1, e2⟩ := idx_facts0 ⟨n.val, hn⟩
  rw [img_of_lt V c _ hn]
  unfold iblk0
  rw [View.read_apply]
  show V c main_v0 _ = V c main_v0 _
  congr 1
  funext a
  apply Fin.ext
  match a with
  | ⟨0, _⟩ => show win0_0.index ⟨n.val, hn⟩ (0 : Fin 3) * 1 + 1 * 0 = n.val; rw [e0]; show n.val * 1 + 1 * 0 = n.val; omega
  | ⟨1, _⟩ => show win0_0.index ⟨n.val, hn⟩ (1 : Fin 3) * 64 + 1 * i.val = i.val; rw [e1]; omega
  | ⟨2, _⟩ => show win0_0.index ⟨n.val, hn⟩ (2 : Fin 3) * 12544 + 1 * q.val = q.val; rw [e2]; omega

end Cert.KernelIdeal.Hand

end
-- ==== Proof.Spec.lean ====
/-
  The two arrangements of the whitening computation, index by index.

  The input is 64 images of 64 channels of 112 × 112 pixels. Write pix b c q for pixel q = 112 · h + w of channel c of
  image b, and m = 64 · 12544 = 802816 for the number of pixels of one channel over all images. Both programs compute
  the channel means  mean c = (Σ_b Σ_q pix b c q) / m. One forms the covariance from centred pixels,
      σ (i, j) = ε·[i = j] + (Σ_b Σ_q (pix b i q − mean i) · (pix b j q − mean j)) / m,
  and whitens the centred pixels,  out (b, c, q) = Σ_k wm (c, k) · (pix b k q − mean k);  the other forms it from the raw
  second moments,
      σ (i, j) = (ε·[i = j] + (Σ_b Σ_q pix b i q · pix b j q) / m) − mean i · mean j,
  and subtracts the whitened mean afterwards,  out (b, c, q) = Σ_k wm (c, k) · pix b k q − Σ_k wm (c, k) · mean k.
  Over the reals the two agree; on the extended reals they agree once every pixel is a real number.
-/
import proofs.«119691_j51127290691774_2_alg».proof.Proof.Chain

noncomputable section

namespace Cert.Whiten

open Idealize.ShloMosaic Idealize.ShloMosaic.ValueIdx

/-- The shape of the input and of the result: image, channel, row, column. -/
abbrev S4 : Shape := ⟨4, ![64, 64, 112, 112]⟩

/-- Pixel q = 112 · h + w of channel c of image b. -/
def pix (x : S4.Idx → EReal) (b c : Fin 64) (q : Fin 12544) : EReal :=
  x (ix4 b c (⟨q.val / 112, by omega⟩ : Fin 112) (⟨q.val % 112, Nat.mod_lt _ (by norm_num)⟩ : Fin 112))

/-- The pixel count of one channel over all images, 802816, as the float word both programs divide by. -/
def count : EReal := Ideal.ofBits .f32 0x49440000#32

/-- The mean of channel c. -/
def mean (x : S4.Idx → EReal) (c : Fin 64) : EReal := Ideal.div (∑ b : Fin 64, ∑ q : Fin 12544, pix x b c q) count

variable (bc : Sc.BroadcastsInDim M (![] : Fin 0 → Fin M.rank))

/-- Entry (i, j) of the covariance matrix from centred pixels. -/
def sigmaCAt (x : S4.Idx → EReal) (i j : Fin 64) : EReal :=
  epsEye bc (ix2 i j) + Ideal.div (∑ b : Fin 64, ∑ q : Fin 12544, (pix x b i q - mean x i) * (pix x b j q - mean x j)) count

/-- Entry (i, j) of the covariance matrix from raw second moments. -/
def sigmaUAt (x : S4.Idx → EReal) (i j : Fin 64) : EReal :=
  (epsEye bc (ix2 i j) + Ideal.div (∑ b : Fin 64, ∑ q : Fin 12544, pix x b i q * pix x b j q) count) - mean x i * mean x j

/-- The covariance matrix from centred pixels. -/
def sigmaC (x : S4.Idx → EReal) : FVec Ideal M .f32 := fun ij => sigmaCAt bc x (ij 0) (ij 1)

/-- The covariance matrix from raw second moments. -/
def sigmaU (x : S4.Idx → EReal) : FVec Ideal M .f32 := fun ij => sigmaUAt bc x (ij 0) (ij 1)

theorem sigmaC_ix2 (x : S4.Idx → EReal) (i j : Fin 64) : sigmaC bc x (ix2 i j) = sigmaCAt bc x i j := rfl
theorem sigmaU_ix2 (x : S4.Idx → EReal) (i j : Fin 64) : sigmaU bc x (ix2 i j) = sigmaUAt bc x i j := rfl

/-- The whitened centred pixel. -/
def outC (wm : FVec Ideal M .f32) (x : S4.Idx → EReal) (b c : Fin 64) (q : Fin 12544) : EReal :=
  ∑ k : Fin 64, wm (ix2 c k) * (pix x b k q - mean x k)

/-- The whitened pixel minus the whitened mean. -/
def outU (wm : FVec Ideal M .f32) (x : S4.Idx → EReal) (b c : Fin 64) (q : Fin 12544) : EReal :=
  (∑ k : Fin 64, wm (ix2 c k) * pix x b k q) - ∑ k : Fin 64, wm (ix2 c k) * mean x k

end Cert.Whiten

end
-- ==== Proof.LibBlockSum.lean ====
/-
  General lemmas: a sum over J·K consecutive naturals, cut into J consecutive blocks of K.

  In a commutative additive monoid (the extended reals are one: their sum is commutative and associative, also at the
  infinities) the sum of g over 0 … J·K − 1 is the sum, over the blocks s = 0 … J − 1, of the sum of g over the block's
  K members s·K + 0 … s·K + (K − 1). `sum_range_blocks` states it over ranges of naturals, `sum_fin_blocks` with the
  members of a block and the whole index set as finite types, the form in which a contraction blocked along its
  summation axis meets the unblocked contraction.
-/
import Mathlib.Algebra.BigOperators.Fin

namespace Cert.LibBlockSum

open scoped BigOperators

variable {β : Type*} [AddCommMonoid β]

/-- The J blocks of K consecutive naturals exhaust 0 … J·K − 1: the sum block by block is the whole sum. -/
theorem sum_range_blocks (g : ℕ → β) (J K : ℕ) :
    ∑ s ∈ Finset.range J, ∑ k ∈ Finset.range K, g (s * K + k) = ∑ n ∈ Finset.range (J * K), g n := by
  induction J with
  | zero => simp
  | succ J ih => rw [Finset.sum_range_succ, ih, Nat.succ_mul, Finset.sum_range_add]

/-- The same with each block's members and the whole index set as finite types. -/
theorem sum_fin_blocks (g : ℕ → β) (J K : ℕ) :
    ∑ s ∈ Finset.range J, ∑ k : Fin K, g (s * K + k.val) = ∑ n : Fin (J * K), g n.val := by
  rw [← Finset.sum_range (fun n => g n), ← sum_range_blocks]
  exact Finset.sum_congr rfl fun s _ => (Finset.sum_range (fun k => g (s * K + k))).symm

end Cert.LibBlockSum
-- ==== Proof.SumSplit.lean ====
/-
  A sum over 64 consecutive naturals, taken as two rows of 32.

  The sum, over the two rows s = 0, 1, of zero plus the sum of f over the row's 32 members 32·s + 0 … 32·s + 31 is the
  sum of f over 0 … 63: the two rows are the two consecutive blocks of 32 that exhaust 0 … 63. It holds in every
  commutative additive monoid, the extended reals among them.
-/
import proofs.«119691_j51127290691774_2_alg».proof.Proof.LibBlockSum

namespace Cert.Whiten

open scoped BigOperators

variable {β : Type*} [AddCommMonoid β]

theorem sum_two_rows (f : ℕ → β) :
    ∑ s : Fin 2, (0 + ∑ k ∈ Finset.range 32, f (32 * s.val + k)) = ∑ b : Fin 64, f b.val := by
  rw [← Finset.sum_range (fun n => f n), ← Finset.sum_range (fun s => 0 + ∑ k ∈ Finset.range 32, f (32 * s + k)),
    show (64 : ℕ) = 2 * 32 from rfl, ← Cert.LibBlockSum.sum_range_blocks]
  exact Finset.sum_congr rfl fun s _ => by rw [zero_add, Nat.mul_comm]

end Cert.Whiten
-- ==== Proof.LibAxis0Sum.lean ====
/-
  General lemmas: the LEADING axis — sums over it, a product contracting it, and two unit axes put in front — read at an
  index, at the ideal values.

  * the host's sum over axis 0 of an `[a, b]` array is, at `k`, the initial value plus the sum over `p` of the entries
    `(p, k)`; of an `[a, b, c]` array, at `(k, j)`, the initial value plus the sum over `p` of the entries `(p, k, j)`;
  * the vector unit's sum over axis 0 of an `[a, b]` array (from the zero word) is the plain sum over the rows;
  * a matrix product `[k, a] × [k, b]` contracting both FIRST axes into a zero accumulator is the sum over `q` of
    `L (q, p) · R (q, j)`;
  * a `[b]` array cast to `[1, 1, b]` reads the operand at the trailing coordinate.
  Nothing here mentions a program: the extents are variables and the shape facts and dimension records are hypotheses.
-/
import Idealize.ShloMosaic.Lib.ValueLayout
import Idealize.ShloMosaic.Lib.ValueIdx
import Idealize.ShloMosaic.PureOps.Ideal.Laws

noncomputable section

namespace Cert.LibAxis0Sum

open Idealize.ShloMosaic Idealize.ShloMosaic.ValueIdx

/-- The reduced index `k` of an `[a, b]` array with row `p` put back on axis 0 is `(p, k)`. -/
theorem lift_first2 {a b : ℕ} (h : (⟨2, ![a, b]⟩ : Shape).Reduces [0] (⟨1, ![b]⟩ : Shape)) (k : Fin b)
    (p : Fin ((⟨2, ![a, b]⟩ : Shape).size 0)) : h.lift (ix1 k) p = ix2 (⟨p.val, p.isLt⟩ : Fin a) k := by
  funext ax; apply Fin.ext
  fin_cases ax <;> rfl

/-- The host's sum over axis 0 of an `[a, b]` array, read at `k`: the initial value plus the column's sum. -/
theorem hostFirstSum2_apply {a b : ℕ} (x : FVec Ideal ⟨2, ![a, b]⟩ .f32) (init : (⟨0, ![]⟩ : Shape).Idx → Ideal .f32)
    (h' : (⟨2, ![a, b]⟩ : Shape).ReducesTo [0] (⟨1, ![b]⟩ : Shape)) (hu : 0 < (⟨0, ![]⟩ : Shape).numel) (k : Fin b) :
    Host.reduceAdd x init h' hu (ix1 k) = init ix0 + ∑ p : Fin a, x (ix2 p k) := by
  have h : (⟨2, ![a, b]⟩ : Shape).Reduces [0] (⟨1, ![b]⟩ : Shape) := ⟨h'.1, Nat.one_pos, h'.2⟩
  show Ideal.hostReduceAdd h' x (init (Shape.Idx.first hu)) (ix1 k) = _
  rw [Ideal.hostReduceAdd_single h' h, show Shape.Idx.first hu = ix0 from eq_ix0 _]
  exact congrArg (init ix0 + ·) (Finset.sum_congr rfl fun p _ => congrArg x (lift_first2 h k p))

/-- The reduced index `(k, j)` of an `[a, b, c]` array with `p` put back on axis 0 is `(p, k, j)`. -/
theorem lift_first3 {a b c : ℕ} (h : (⟨3, ![a, b, c]⟩ : Shape).Reduces [0] (⟨2, ![b, c]⟩ : Shape)) (k : Fin b) (j : Fin c)
    (p : Fin ((⟨3, ![a, b, c]⟩ : Shape).size 0)) : h.lift (ix2 k j) p = ix3 (⟨p.val, p.isLt⟩ : Fin a) k j := by
  funext ax; apply Fin.ext
  fin_cases ax <;> rfl

/-- The host's sum over axis 0 of an `[a, b, c]` array, read at `(k, j)`: the initial value plus the sum over `p`. -/
theorem hostFirstSum3_apply {a b c : ℕ} (x : FVec Ideal ⟨3, ![a, b, c]⟩ .f32) (init : (⟨0, ![]⟩ : Shape).Idx → Ideal .f32)
    (h' : (⟨3, ![a, b, c]⟩ : Shape).ReducesTo [0] (⟨2, ![b, c]⟩ : Shape)) (hu : 0 < (⟨0, ![]⟩ : Shape).numel)
    (k : Fin b) (j : Fin c) :
    Host.reduceAdd x init h' hu (ix2 k j) = init ix0 + ∑ p : Fin a, x (ix3 p k j) := by
  have h : (⟨3, ![a, b, c]⟩ : Shape).Reduces [0] (⟨2, ![b, c]⟩ : Shape) := ⟨h'.1, Nat.succ_pos 1, h'.2⟩
  show Ideal.hostReduceAdd h' x (init (Shape.Idx.first hu)) (ix2 k j) = _
  rw [Ideal.hostReduceAdd_single h' h, show Shape.Idx.first hu = ix0 from eq_ix0 _]
  exact congrArg (init ix0 + ·) (Finset.sum_congr rfl fun p _ => congrArg x (lift_first3 h k j p))

/-- A matrix product of a `[k, a]` by a `[k, b]` array into the zero accumulator, whose dimension record contracts the
    FIRST axis of each operand (the four coordinate facts), is at `(p, j)` the sum over `q` of `L (q, p) · R (q, j)`. -/
theorem matmul_zero_tn_ix2 {a k b : ℕ} {φ₁ φ₂ : FTy} (D : DotDims ⟨2, ![k, a]⟩ ⟨2, ![k, b]⟩ ⟨2, ![a, b]⟩)
    (hr : D.contr.rank = 1) (hs : D.contr.size ⟨0, by omega⟩ = k)
    (hl0 : ∀ i q, (D.lhsIdx i q 0).val = (q ⟨0, by omega⟩).val) (hl1 : ∀ i q, (D.lhsIdx i q 1).val = (i 0).val)
    (hr0 : ∀ i q, (D.rhsIdx i q 0).val = (q ⟨0, by omega⟩).val) (hr1 : ∀ i q, (D.rhsIdx i q 1).val = (i 1).val)
    (prec : Option ContractPrecision) (L : FVec Ideal ⟨2, ![k, a]⟩ φ₁) (R : FVec Ideal ⟨2, ![k, b]⟩ φ₂) (p : Fin a) (j : Fin b) :
    FloatOps.matmul D prec L R (constant ⟨2, ![a, b]⟩ .f32 0x00000000#32) (ix2 p j) = ∑ q : Fin k, L (ix2 q p) * R (ix2 q j) := by
  rw [Ideal.matmul_constant_zero_apply, ← Equiv.sum_comp (contrEquiv1 D k hr hs).symm]
  refine Finset.sum_congr rfl fun q _ => ?_
  have hq := contrEquiv1_symm_val D k hr hs q
  have el : D.lhsIdx (ix2 p j) ((contrEquiv1 D k hr hs).symm q) = ix2 q p := funext fun ax => Fin.ext (by
    match ax with
    | ⟨0, _⟩ => exact (hl0 _ _).trans hq
    | ⟨1, _⟩ => exact hl1 _ _)
  have er : D.rhsIdx (ix2 p j) ((contrEquiv1 D k hr hs).symm q) = ix2 q j := funext fun ax => Fin.ext (by
    match ax with
    | ⟨0, _⟩ => exact (hr0 _ _).trans hq
    | ⟨1, _⟩ => exact hr1 _ _)
  rw [el, er]

/-- The sum over the rows of an `[a, b]` array, read at column `k`: the sum over `r` of the entries `(r, k)`. -/
theorem colSum_apply {a b : ℕ} (src : FVec Ideal ⟨2, ![a, b]⟩ .f32) (acc : BitVec 32)
    (h : (⟨2, ![a, b]⟩ : Shape).Reduces [0] (⟨1, ![b]⟩ : Shape)) (hφ : FKind.Formats .f32) (hacc : acc = FKind.add.neutral .f32 hφ) (k : Fin b) :
    multiReduction .add [0] ⟨1, ![b]⟩ src acc h hφ hacc (ix1 k) = ∑ r : Fin a, src (ix2 r k) := by
  refine (Ideal.multiReduction_add_single src acc h hφ hacc (ix1 k)).trans ?_
  exact Finset.sum_congr rfl fun r _ => congrArg src (lift_first2 h k r)

/-- A `[b]` array cast to `[1, 1, b]` reads, at `(u, v, k)`, the operand at `k`. -/
theorem shapeCast_b_11b_apply {α : Type} {b : ℕ} (x : (⟨1, ![b]⟩ : Shape).Idx → α) (h : (⟨1, ![b]⟩ : Shape).ShapeCasts ⟨3, ![1, 1, b]⟩)
    (u v : Fin 1) (k : Fin b) : shapeCast ⟨3, ![1, 1, b]⟩ x h (ix3 u v k) = x (ix1 k) :=
  shapeCast_apply x h _ _ (by
    have hu : u.val = 0 := by omega
    have hv : v.val = 0 := by omega
    rw [Shape.rowMajor_val_three, Shape.rowMajor_val_one]
    show k.val = (u.val * 1 + v.val) * b + k.val
    rw [hu, hv]; omega)

end Cert.LibAxis0Sum

end
-- ==== Proof.LibAffine.lean ====
/-
  General lemmas: a dense layer over the extended reals, as one function of its operands read at an index.

  A dense layer takes a matrix `x` of shape [a, k], a weight `w` of shape [k, n] and a bias row `b` of shape [1, n],
  and returns the [a, n] matrix whose entry (p, j) is the sum over q of x (p, q) · w (q, j), plus b (0, j). The layer
  with a second product, on a second matrix `h` and weight `wr`, adds to that the sum over q of h (p, q) · wr (q, j).

  * `affine`, `affine2`: the two layers as functions of their operands, with `affineAt`, `affine2At` their entries;
  * `hostDot_ix2`: the host's plain product [a, k] × [k, n] at (p, j) is that sum of products;
  * `hostAffine_eq`, `hostAffine2_eq`: the host's product, plus the bias row laid along every row (a broadcast along
    both axes), plus for the second layer the second product, is the layer;
  * `coreAffine_eq`, `coreAffine2_eq`: a matrix-unit product into a zero accumulator, plus the bias row broadcast over
    the rows, plus for the second layer a second such product, is the layer;
  * `affineAt_congr`, `affine2At_congr`: the entry (p, j) only reads row p of the matrices, column j of the weights and
    entry j of the bias, so operands that agree there give the same entry (a block of rows of the layer is the layer
    of the block of rows).
  Nothing here mentions a program: the extents are variables and the dimension records are hypotheses.
-/
import Idealize.ShloMosaic.Lib.ValueLayout
import Idealize.ShloMosaic.Lib.ValueIdx
import Idealize.ShloMosaic.Lib.Pipeline.Value
import Idealize.ShloMosaic.PureOps.Ideal.Laws

noncomputable section

namespace Cert.LibAffine

open Idealize.ShloMosaic Idealize.ShloMosaic.ValueIdx

variable {a k n : ℕ}

/-- Entry (p, j) of `x · w + b`: the sum over q of x (p, q) · w (q, j), plus the bias row's entry j. -/
def affineAt (x : FVec Ideal ⟨2, ![a, k]⟩ .f32) (w : FVec Ideal ⟨2, ![k, n]⟩ .f32) (b : FVec Ideal ⟨2, ![1, n]⟩ .f32)
    (p : Fin a) (j : Fin n) : Ideal .f32 :=
  (∑ q : Fin k, x (ix2 p q) * w (ix2 q j)) + b (ix2 (0 : Fin 1) j)

/-- The dense layer `x · w + b` as an [a, n] array. -/
def affine (x : FVec Ideal ⟨2, ![a, k]⟩ .f32) (w : FVec Ideal ⟨2, ![k, n]⟩ .f32) (b : FVec Ideal ⟨2, ![1, n]⟩ .f32) :
    FVec Ideal ⟨2, ![a, n]⟩ .f32 :=
  fun i => affineAt x w b (i 0) (i 1)

theorem affine_ix2 (x : FVec Ideal ⟨2, ![a, k]⟩ .f32) (w : FVec Ideal ⟨2, ![k, n]⟩ .f32) (b : FVec Ideal ⟨2, ![1, n]⟩ .f32)
    (p : Fin a) (j : Fin n) : affine x w b (ix2 p j) = affineAt x w b p j := rfl

/-- Entry (p, j) of `s · wl + b + h · wr`. -/
def affine2At (s h : FVec Ideal ⟨2, ![a, k]⟩ .f32) (wl : FVec Ideal ⟨2, ![k, n]⟩ .f32) (b : FVec Ideal ⟨2, ![1, n]⟩ .f32)
    (wr : FVec Ideal ⟨2, ![k, n]⟩ .f32) (p : Fin a) (j : Fin n) : Ideal .f32 :=
  (∑ q : Fin k, s (ix2 p q) * wl (ix2 q j)) + b (ix2 (0 : Fin 1) j) + ∑ q : Fin k, h (ix2 p q) * wr (ix2 q j)

/-- The two-product layer `s · wl + b + h · wr` as an [a, n] array. -/
def affine2 (s h : FVec Ideal ⟨2, ![a, k]⟩ .f32) (wl : FVec Ideal ⟨2, ![k, n]⟩ .f32) (b : FVec Ideal ⟨2, ![1, n]⟩ .f32)
    (wr : FVec Ideal ⟨2, ![k, n]⟩ .f32) : FVec Ideal ⟨2, ![a, n]⟩ .f32 :=
  fun i => affine2At s h wl b wr (i 0) (i 1)

theorem affine2_ix2 (s h : FVec Ideal ⟨2, ![a, k]⟩ .f32) (wl : FVec Ideal ⟨2, ![k, n]⟩ .f32) (b : FVec Ideal ⟨2, ![1, n]⟩ .f32)
    (wr : FVec Ideal ⟨2, ![k, n]⟩ .f32) (p : Fin a) (j : Fin n) : affine2 s h wl b wr (ix2 p j) = affine2At s h wl b wr p j := rfl

/-- Entry (p, j) reads only row p of the matrix, column j of the weight and entry j of the bias. -/
theorem affineAt_congr {a' : ℕ} (X : FVec Ideal ⟨2, ![a, k]⟩ .f32) (W : FVec Ideal ⟨2, ![k, n]⟩ .f32) (B : FVec Ideal ⟨2, ![1, n]⟩ .f32)
    (x : FVec Ideal ⟨2, ![a', k]⟩ .f32) (w : FVec Ideal ⟨2, ![k, n]⟩ .f32) (b : FVec Ideal ⟨2, ![1, n]⟩ .f32)
    (p : Fin a') (p' : Fin a) (j : Fin n)
    (hx : ∀ q : Fin k, x (ix2 p q) = X (ix2 p' q)) (hw : ∀ q : Fin k, w (ix2 q j) = W (ix2 q j))
    (hb : b (ix2 (0 : Fin 1) j) = B (ix2 (0 : Fin 1) j)) :
    affineAt x w b p j = affineAt X W B p' j := by
  unfold affineAt
  rw [hb]
  exact congrArg (· + B (ix2 (0 : Fin 1) j)) (Finset.sum_congr rfl fun q _ => by rw [hx q, hw q])

/-- The same for the two-product layer. -/
theorem affine2At_congr {a' : ℕ} (S H : FVec Ideal ⟨2, ![a, k]⟩ .f32) (WL : FVec Ideal ⟨2, ![k, n]⟩ .f32) (B : FVec Ideal ⟨2, ![1, n]⟩ .f32)
    (WR : FVec Ideal ⟨2, ![k, n]⟩ .f32)
    (s h : FVec Ideal ⟨2, ![a', k]⟩ .f32) (wl : FVec Ideal ⟨2, ![k, n]⟩ .f32) (b : FVec Ideal ⟨2, ![1, n]⟩ .f32)
    (wr : FVec Ideal ⟨2, ![k, n]⟩ .f32) (p : Fin a') (p' : Fin a) (j : Fin n)
    (hs : ∀ q : Fin k, s (ix2 p q) = S (ix2 p' q)) (hh : ∀ q : Fin k, h (ix2 p q) = H (ix2 p' q))
    (hwl : ∀ q : Fin k, wl (ix2 q j) = WL (ix2 q j)) (hb : b (ix2 (0 : Fin 1) j) = B (ix2 (0 : Fin 1) j))
    (hwr : ∀ q : Fin k, wr (ix2 q j) = WR (ix2 q j)) :
    affine2At s h wl b wr p j = affine2At S H WL B WR p' j := by
  unfold affine2At
  rw [hb, Finset.sum_congr rfl fun q _ => (by rw [hs q, hwl q] : s (ix2 p q) * wl (ix2 q j) = S (ix2 p' q) * WL (ix2 q j)),
    Finset.sum_congr rfl fun q _ => (by rw [hh q, hwr q] : h (ix2 p q) * wr (ix2 q j) = H (ix2 p' q) * WR (ix2 q j))]

/-- The host's plain product of an [a, k] by a [k, n] array, whose dimension record contracts the left operand's
    columns against the right operand's rows (the four coordinate facts), is at (p, j) the sum over q of
    L (p, q) · R (q, j). -/
theorem hostDot_ix2 {φ₁ φ₂ : FTy} (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision) (L : FVec Ideal ⟨2, ![a, k]⟩ φ₁) (R : FVec Ideal ⟨2, ![k, n]⟩ φ₂) (p : Fin a) (j : Fin n) :
    Host.dotGeneral D prec L R (ix2 p j) = ∑ q : Fin k, L (ix2 p q) * R (ix2 q j) := by
  show FloatOps.dotGeneral D prec .single L R (ix2 p j) = _
  rw [Ideal.dotGeneral_apply, ← Equiv.sum_comp (contrEquiv1 D k hr hs).symm]
  refine Finset.sum_congr rfl fun q _ => ?_
  have hq := contrEquiv1_symm_val D k hr hs q
  have el : D.lhsIdx (ix2 p j) ((contrEquiv1 D k hr hs).symm q) = ix2 p q := funext fun ax => Fin.ext (by
    match ax with
    | ⟨0, _⟩ => exact hl0 _ _
    | ⟨1, _⟩ => exact (hl1 _ _).trans hq)
  have er : D.rhsIdx (ix2 p j) ((contrEquiv1 D k hr hs).symm q) = ix2 q j := funext fun ax => Fin.ext (by
    match ax with
    | ⟨0, _⟩ => exact (hr0 _ _).trans hq
    | ⟨1, _⟩ => exact hr1 _ _)
  rw [el, er]

/-- A matrix-unit product of an [a, k] by a [k, n] array into the zero accumulator, under the same four coordinate
    facts, is at (p, j) the sum over q of L (p, q) · R (q, j). -/
theorem coreDot_ix2 {φ₁ φ₂ : FTy} (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision) (L : FVec Ideal ⟨2, ![a, k]⟩ φ₁) (R : FVec Ideal ⟨2, ![k, n]⟩ φ₂) (p : Fin a) (j : Fin n) :
    FloatOps.matmul D prec L R (constant ⟨2, ![a, n]⟩ .f32 0x00000000#32) (ix2 p j) = ∑ q : Fin k, L (ix2 p q) * R (ix2 q j) := by
  rw [Ideal.matmul_constant_zero_apply, ← Equiv.sum_comp (contrEquiv1 D k hr hs).symm]
  refine Finset.sum_congr rfl fun q _ => ?_
  have hq := contrEquiv1_symm_val D k hr hs q
  have el : D.lhsIdx (ix2 p j) ((contrEquiv1 D k hr hs).symm q) = ix2 p q := funext fun ax => Fin.ext (by
    match ax with
    | ⟨0, _⟩ => exact hl0 _ _
    | ⟨1, _⟩ => exact (hl1 _ _).trans hq)
  have er : D.rhsIdx (ix2 p j) ((contrEquiv1 D k hr hs).symm q) = ix2 q j := funext fun ax => Fin.ext (by
    match ax with
    | ⟨0, _⟩ => exact (hr0 _ _).trans hq
    | ⟨1, _⟩ => exact hr1 _ _)
  rw [el, er]

/-- A row [1, n] laid along every row of an [a, n] array by a broadcast along both axes reads, at (p, j), the row's
    entry j. -/
theorem broadcastInDim_1n_an_apply {α : Type} (hd : (⟨2, ![1, n]⟩ : Shape).BroadcastsInDim ⟨2, ![a, n]⟩ ![0, 1])
    (v : (⟨2, ![1, n]⟩ : Shape).Idx → α) (p : Fin a) (j : Fin n) :
    broadcastInDim ⟨2, ![a, n]⟩ ![0, 1] hd v (ix2 p j) = v (ix2 (0 : Fin 1) j) := by
  refine broadcastInDim_apply ![0, 1] hd v (ix2 p j) (ix2 (0 : Fin 1) j) fun ax => ?_
  match ax with
  | ⟨0, _⟩ =>
    show (0 : ℕ) = if (1 : ℕ) = 1 then 0 else p.val
    rw [if_pos rfl]
  | ⟨1, _⟩ =>
    show j.val = if n = 1 then 0 else j.val
    split
    · have := j.isLt; omega
    · rfl

/-- The host's product plus the bias row laid along every row is the dense layer. -/
theorem hostAffine_eq (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (hd : (⟨2, ![1, n]⟩ : Shape).BroadcastsInDim ⟨2, ![a, n]⟩ ![0, 1]) (prec : Option ContractPrecision)
    (x : FVec Ideal ⟨2, ![a, k]⟩ .f32) (w : FVec Ideal ⟨2, ![k, n]⟩ .f32) (b : FVec Ideal ⟨2, ![1, n]⟩ .f32) :
    addf (Host.dotGeneral D prec x w) (broadcastInDim ⟨2, ![a, n]⟩ ![0, 1] hd b) = affine x w b := by
  funext i
  obtain ⟨p, j, rfl⟩ : ∃ (p : Fin a) (j : Fin n), i = ix2 p j := ⟨i 0, i 1, eq_ix2 i⟩
  rw [addf_apply, hostDot_ix2 D hr hs hl0 hl1 hr0 hr1, broadcastInDim_1n_an_apply, affine_ix2]
  rfl

/-- The host's product plus the bias row plus a second product is the two-product layer. -/
theorem hostAffine2_eq (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (hd : (⟨2, ![1, n]⟩ : Shape).BroadcastsInDim ⟨2, ![a, n]⟩ ![0, 1]) (prec : Option ContractPrecision)
    (s h : FVec Ideal ⟨2, ![a, k]⟩ .f32) (wl : FVec Ideal ⟨2, ![k, n]⟩ .f32) (b : FVec Ideal ⟨2, ![1, n]⟩ .f32)
    (wr : FVec Ideal ⟨2, ![k, n]⟩ .f32) :
    addf (addf (Host.dotGeneral D prec s wl) (broadcastInDim ⟨2, ![a, n]⟩ ![0, 1] hd b)) (Host.dotGeneral D prec h wr)
      = affine2 s h wl b wr := by
  funext i
  obtain ⟨p, j, rfl⟩ : ∃ (p : Fin a) (j : Fin n), i = ix2 p j := ⟨i 0, i 1, eq_ix2 i⟩
  rw [addf_apply, addf_apply, hostDot_ix2 D hr hs hl0 hl1 hr0 hr1, hostDot_ix2 D hr hs hl0 hl1 hr0 hr1,
    broadcastInDim_1n_an_apply, affine2_ix2]
  rfl

/-- A matrix-unit product into the zero accumulator plus the bias row broadcast over the rows is the dense layer. -/
theorem coreAffine_eq {φ : FTy} (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (hb : (⟨2, ![1, n]⟩ : Shape).Broadcasts ⟨2, ![a, n]⟩) (prec : Option ContractPrecision)
    (x : FVec Ideal ⟨2, ![a, k]⟩ φ) (w : FVec Ideal ⟨2, ![k, n]⟩ φ) (b : FVec Ideal ⟨2, ![1, n]⟩ .f32) :
    addf (FloatOps.matmul D prec x w (constant ⟨2, ![a, n]⟩ .f32 0x00000000#32)) (broadcastTo ⟨2, ![a, n]⟩ b hb)
      = affine (fun i => x i) (fun i => w i) b := by
  funext i
  obtain ⟨p, j, rfl⟩ : ∃ (p : Fin a) (j : Fin n), i = ix2 p j := ⟨i 0, i 1, eq_ix2 i⟩
  rw [addf_apply, coreDot_ix2 D hr hs hl0 hl1 hr0 hr1, broadcastTo_1b_ab_apply, affine_ix2]
  rfl

/-- Two matrix-unit products into zero accumulators, the bias row broadcast over the rows added to the first, is the
    two-product layer. -/
theorem coreAffine2_eq {φ : FTy} (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (hb : (⟨2, ![1, n]⟩ : Shape).Broadcasts ⟨2, ![a, n]⟩) (prec : Option ContractPrecision)
    (s h : FVec Ideal ⟨2, ![a, k]⟩ φ) (wl wr : FVec Ideal ⟨2, ![k, n]⟩ φ) (b : FVec Ideal ⟨2, ![1, n]⟩ .f32) :
    addf (addf (FloatOps.matmul D prec s wl (constant ⟨2, ![a, n]⟩ .f32 0x00000000#32)) (broadcastTo ⟨2, ![a, n]⟩ b hb))
        (FloatOps.matmul D prec h wr (constant ⟨2, ![a, n]⟩ .f32 0x00000000#32))
      = affine2 (fun i => s i) (fun i => h i) (fun i => wl i) b (fun i => wr i) := by
  funext i
  obtain ⟨p, j, rfl⟩ : ∃ (p : Fin a) (j : Fin n), i = ix2 p j := ⟨i 0, i 1, eq_ix2 i⟩
  rw [addf_apply, addf_apply, coreDot_ix2 D hr hs hl0 hl1 hr0 hr1, coreDot_ix2 D hr hs hl0 hl1 hr0 hr1,
    broadcastTo_1b_ab_apply, affine2_ix2]
  rfl

end Cert.LibAffine

end
-- ==== Proof.LibMatProd.lean ====
/-
  General lemmas: the product of two matrices over the extended reals as one function read at an index.

  For an [a, k] array L and a [k, n] array R, `mm L R` is the [a, n] array whose entry (p, j) is the sum over q of
  L (p, q) · R (q, j).

  * `mm`, `mm_ix2`: the product and its entry;
  * `mm_congr`: entry (p, j) reads only row p of the left operand and column j of the right one, so a block of rows
    of the product is the product of the block of rows;
  * `hostDot_eq`: the host's plain product, whose dimension record contracts the left operand's columns against the
    right operand's rows, is `mm`;
  * `coreDot_eq`: a matrix-unit product into the zero accumulator, under the same record facts, is `mm`.
  Addition and multiplication on the extended reals are total, so none of this needs finiteness. Nothing here
  mentions a program: the extents are variables and the dimension records are hypotheses.
-/
import proofs.«119691_j51127290691774_2_alg».proof.Proof.LibAffine

noncomputable section

namespace Cert.LibMatProd

open Idealize.ShloMosaic Idealize.ShloMosaic.ValueIdx

variable {a k n : ℕ}

/-- The product of an [a, k] array by a [k, n] array: entry (p, j) is the sum over q of L (p, q) · R (q, j). -/
def mm (L : FVec Ideal ⟨2, ![a, k]⟩ .f32) (R : FVec Ideal ⟨2, ![k, n]⟩ .f32) : FVec Ideal ⟨2, ![a, n]⟩ .f32 :=
  fun i => ∑ q : Fin k, L (ix2 (i 0) q) * R (ix2 q (i 1))

theorem mm_ix2 (L : FVec Ideal ⟨2, ![a, k]⟩ .f32) (R : FVec Ideal ⟨2, ![k, n]⟩ .f32) (p : Fin a) (j : Fin n) :
    mm L R (ix2 p j) = ∑ q : Fin k, L (ix2 p q) * R (ix2 q j) := rfl

/-- Entry (p, j) of the product reads only row p of the left operand and column j of the right one. -/
theorem mm_congr {a' : ℕ} (L : FVec Ideal ⟨2, ![a, k]⟩ .f32) (R : FVec Ideal ⟨2, ![k, n]⟩ .f32)
    (L' : FVec Ideal ⟨2, ![a', k]⟩ .f32) (R' : FVec Ideal ⟨2, ![k, n]⟩ .f32) (p : Fin a) (p' : Fin a') (j : Fin n)
    (hl : ∀ q : Fin k, L (ix2 p q) = L' (ix2 p' q)) (hr : ∀ q : Fin k, R (ix2 q j) = R' (ix2 q j)) :
    mm L R (ix2 p j) = mm L' R' (ix2 p' j) := by
  rw [mm_ix2, mm_ix2]
  exact Finset.sum_congr rfl fun q _ => by rw [hl q, hr q]

/-- The host's plain product of an [a, k] by a [k, n] array is `mm`. -/
theorem hostDot_eq (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision) (L : FVec Ideal ⟨2, ![a, k]⟩ .f32) (R : FVec Ideal ⟨2, ![k, n]⟩ .f32) :
    Host.dotGeneral D prec L R = mm L R := by
  funext i
  obtain ⟨p, j, rfl⟩ : ∃ (p : Fin a) (j : Fin n), i = ix2 p j := ⟨i 0, i 1, eq_ix2 i⟩
  rw [Cert.LibAffine.hostDot_ix2 D hr hs hl0 hl1 hr0 hr1, mm_ix2]

/-- A matrix-unit product of an [a, k] by a [k, n] array into the zero accumulator is `mm`. -/
theorem coreDot_eq (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision) (L : FVec Ideal ⟨2, ![a, k]⟩ .f32) (R : FVec Ideal ⟨2, ![k, n]⟩ .f32) :
    FloatOps.matmul D prec L R (constant ⟨2, ![a, n]⟩ .f32 0x00000000#32) = mm L R := by
  funext i
  obtain ⟨p, j, rfl⟩ : ∃ (p : Fin a) (j : Fin n), i = ix2 p j := ⟨i 0, i 1, eq_ix2 i⟩
  rw [Cert.LibAffine.coreDot_ix2 D hr hs hl0 hl1 hr0 hr1, mm_ix2]

end Cert.LibMatProd

end
-- ==== Proof.LibBroadcastRead.lean ====
/-
  Two broadcasts read at an index.

  A single number broadcast into an array of any shape is that number at every index. A one-column array [a, 1] laid
  along every row of an [a, b] array by a broadcast along both axes is, at (p, c), the column's entry p.

  General lemmas: nothing here mentions a program; the shapes and extents are variables.
-/
import Idealize.ShloMosaic.Lib.Pipeline.Value
import Idealize.ShloMosaic.Lib.ValueIdx
import Idealize.ShloMosaic.Lib.ValueLayout

namespace Cert.LibBroadcastRead

open Idealize.ShloMosaic Idealize.ShloMosaic.ValueIdx

variable {α : Type}

/-- A rank-0 array broadcast into any shape reads, at every index, its one entry. -/
theorem broadcastInDim_scalar_apply {t : Shape} (hd : (⟨0, ![]⟩ : Shape).BroadcastsInDim t ![])
    (x : (⟨0, ![]⟩ : Shape).Idx → α) (j : t.Idx) : broadcastInDim t ![] hd x j = x ix0 :=
  broadcastInDim_apply ![] hd x j ix0 fun ax => ax.elim0

/-- A column [a, 1] laid along every row of an [a, b] array by a broadcast along both axes reads, at (p, c), the
    column's entry p. -/
theorem broadcastInDim_a1_ab_apply {a b : ℕ} (hd : (⟨2, ![a, 1]⟩ : Shape).BroadcastsInDim ⟨2, ![a, b]⟩ ![0, 1])
    (v : (⟨2, ![a, 1]⟩ : Shape).Idx → α) (p : Fin a) (c : Fin b) :
    broadcastInDim ⟨2, ![a, b]⟩ ![0, 1] hd v (ix2 p c) = v (ix2 p (0 : Fin 1)) := by
  refine broadcastInDim_apply ![0, 1] hd v (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

end Cert.LibBroadcastRead
-- ==== Proof.KernelSigma.lean ====
/-
  The kernel program's covariance matrix is the one from raw second moments.

  The statistics arrays hold, per slot, sums over the slot's 32 images; the host sums the two slots. Image n of the
  reshaped input at (channel, pixel) is pix n channel pixel, so the two-slot sums are sums over all 64 images, the
  mean column is the channel mean, and the matrix the host forms is  (ε·identity + raw second moments / count) − mean · meanᵀ
  entry by entry. Only associativity and commutativity of the sums on the extended reals are used.
-/
import proofs.«119691_j51127290691774_2_alg».proof.Proof.Gen.KernelIdeal.Frame
import proofs.«119691_j51127290691774_2_alg».proof.Proof.KernelHost
import proofs.«119691_j51127290691774_2_alg».proof.Proof.Region0Array
import proofs.«119691_j51127290691774_2_alg».proof.Proof.Spec
import proofs.«119691_j51127290691774_2_alg».proof.Proof.SumSplit
import proofs.«119691_j51127290691774_2_alg».proof.Proof.LibAxis0Sum
import proofs.«119691_j51127290691774_2_alg».proof.Proof.LibMatProd
import proofs.«119691_j51127290691774_2_alg».proof.Proof.LibPlainDot
import proofs.«119691_j51127290691774_2_alg».proof.Proof.LibBroadcastRead
import Idealize.ShloMosaic.Lib.ValueLayout
import Idealize.ShloMosaic.Lib.Pipeline.Value

set_option maxRecDepth 16384

noncomputable section

namespace Cert.KernelIdeal.Hand

open Idealize.ShloMosaic Idealize.ShloMosaic.TcCoe Idealize.SL.Sem Idealize.ShloMosaic.ValueIdx
open Cert.KernelIdeal Cert.KernelIdeal.Facts₀ Cert.KernelIdeal.Facts
open Cert.KernelIdeal.Gen (V1 W0 N_0)

/-- The mean column at channel i: the two slots summed from zero, over the count. -/
theorem meanCol_apply (s1 : FVec Ideal S2x64x1 .f32) (i : Fin 64) (u : Fin 1) :
    meanCol s1 (ix2 i u) = Ideal.div (0 + ∑ s : Fin 2, s1 (ix3 s i u)) Cert.Whiten.count := by
  unfold meanCol
  show Ideal.div (Host.reduceAdd s1 _ reducesTo_S2x64x1_S64x1_d0 h_S_ (ix2 i u))
    (broadcastInDim S64x1 ![] bcast_S_S64x1 (constant (F := Ideal) S_ .f32 0x49440000#32) (ix2 i u)) = _
  rw [Cert.LibAxis0Sum.hostFirstSum3_apply, Cert.LibBroadcastRead.broadcastInDim_scalar_apply]
  show Ideal.div (Ideal.ofBits .f32 0x00000000#32 + _) _ = _
  rw [Ideal.ofBits_zero_f32]
  rfl

/-- The host's matrix at (i, j). -/
theorem sigmaK_apply (s1 : FVec Ideal S2x64x1 .f32) (s2 : FVec Ideal S2x64x64 .f32) (i j : Fin 64) :
    sigmaK s1 s2 (ix2 i j)
      = (Cert.Whiten.epsEye bcast_S_S64x64 (ix2 i j) + Ideal.div (0 + ∑ s : Fin 2, s2 (ix3 s i j)) Cert.Whiten.count)
        - meanCol s1 (ix2 i (0 : Fin 1)) * meanCol s1 (ix2 j (0 : Fin 1)) := by
  unfold sigmaK
  rw [subf_apply, addf_apply]
  have h1 : Host.divf (Host.reduceAdd s2 (constant (F := Ideal) S_ .f32 0x00000000#32) reducesTo_S2x64x64_S64x64_d0 h_S_)
      (broadcastInDim S64x64 ![] bcast_S_S64x64 (constant (F := Ideal) S_ .f32 0x49440000#32)) (ix2 i j)
      = Ideal.div (0 + ∑ s : Fin 2, s2 (ix3 s i j)) Cert.Whiten.count := by
    show Ideal.div (Host.reduceAdd s2 _ reducesTo_S2x64x64_S64x64_d0 h_S_ (ix2 i j))
      (broadcastInDim S64x64 ![] bcast_S_S64x64 (constant (F := Ideal) S_ .f32 0x49440000#32) (ix2 i j)) = _
    rw [Cert.LibAxis0Sum.hostFirstSum3_apply, Cert.LibBroadcastRead.broadcastInDim_scalar_apply]
    show Ideal.div (Ideal.ofBits .f32 0x00000000#32 + _) _ = _
    rw [Ideal.ofBits_zero_f32]
    rfl
  have h2 : Host.dotGeneral dot_S64x1_S1x64_S64x64_1_0_0_1_n_n none (meanCol s1)
      (transpose S1x64 [1, 0] (meanCol s1) transposes_S64x1_S1x64_1_0) (ix2 i j)
      = meanCol s1 (ix2 i (0 : Fin 1)) * meanCol s1 (ix2 j (0 : Fin 1)) := by
    rw [Cert.LibMatProd.hostDot_eq (a := 64) (k := 1) (n := 64) dot_S64x1_S1x64_S64x64_1_0_0_1_n_n
      (Cert.LibPlainDot.contr_rank _ rfl) (Cert.LibPlainDot.contr_size _ rfl)
      (fun a q => Cert.LibPlainDot.lhs_row _ rfl rfl a q) (fun a q => Cert.LibPlainDot.lhs_col _ rfl a q)
      (fun a q => Cert.LibPlainDot.rhs_row _ rfl rfl a q) (fun a q => Cert.LibPlainDot.rhs_col _ rfl rfl rfl rfl a q) none,
      Cert.LibMatProd.mm_ix2, Fin.sum_univ_one, transpose_ix2_apply]
  rw [h1, h2]

/-- The reshaped input at (image, channel, pixel) is that pixel. -/
theorem pix_of_reshape (x : S64x64x112x112.Idx → EReal) (b i : Fin 64) (q : Fin 12544) :
    shapeCast S64x64x12544 x shapeCasts_S64x64x112x112_S64x64x12544 (ix3 b i q) = Cert.Whiten.pix x b i q := by
  unfold Cert.Whiten.pix
  refine shapeCast_apply x _ _ _ ?_
  rw [Shape.rowMajor_val_four, Shape.rowMajor_val_three]
  show ((b.val * 64 + i.val) * 112 + q.val / 112) * 112 + q.val % 112 = (b.val * 64 + i.val) * 12544 + q.val
  omega

section Run

variable (m : (ℓ : Loc nD τ sig) → Buf (Elt Ideal) ℓ) (ρ : Dev nD → PrngReg) (c : Dev nD)

/-- The input array on core c. -/
abbrev inp : S64x64x112x112.Idx → EReal := m ((c : Thread nD τ).loc main_arg0)

/-- What the statistics pass reads is the reshaped input. -/
theorem x3_eq : (V1 m ρ c main_v0 : S64x64x12544.Idx → EReal)
    = shapeCast S64x64x12544 (inp m c) shapeCasts_S64x64x112x112_S64x64x12544 :=
  v0_after0 (W0 m ρ c)

/-- The channel sum of image n (zero past the last image). -/
def chanTot (i : Fin 64) (n : ℕ) : EReal := if h : n < 64 then ∑ q : Fin 12544, Cert.Whiten.pix (inp m c) ⟨n, h⟩ i q else 0

/-- The second moment of image n (zero past the last image). -/
def gramTot (i j : Fin 64) (n : ℕ) : EReal :=
  if h : n < 64 then ∑ q : Fin 12544, Cert.Whiten.pix (inp m c) ⟨n, h⟩ i q * Cert.Whiten.pix (inp m c) ⟨n, h⟩ j q else 0

theorem chanSum_eq (i : Fin 64) (n : ℕ) : chanSum (V1 m ρ) c n i = chanTot m c i n := by
  have hN : cfg0.N = 64 := N_0
  unfold chanSum chanTot
  by_cases h : n < 64
  · rw [dif_pos h]
    refine Finset.sum_congr rfl fun q _ => ?_
    rw [img_apply (V1 m ρ) c ⟨n, h⟩ i q, x3_eq, pix_of_reshape]
  · rw [dif_neg h]
    have hn : ¬ n < cfg0.N := by omega
    unfold img
    rw [dif_neg hn]
    exact Finset.sum_const_zero

theorem gram_eq (i j : Fin 64) (n : ℕ) : gram (V1 m ρ) c n i j = gramTot m c i j n := by
  have hN : cfg0.N = 64 := N_0
  unfold gram gramTot
  by_cases h : n < 64
  · rw [dif_pos h]
    refine Finset.sum_congr rfl fun q _ => ?_
    rw [img_apply (V1 m ρ) c ⟨n, h⟩ i q, img_apply (V1 m ρ) c ⟨n, h⟩ j q, x3_eq, pix_of_reshape, pix_of_reshape]
  · rw [dif_neg h]
    have hn : ¬ n < cfg0.N := by omega
    unfold img
    rw [dif_neg hn]
    exact Finset.sum_eq_zero fun q _ => zero_mul _

/-- The mean column the host forms from the statistics pass's sums is the channel mean. -/
theorem mean_eq (i : Fin 64) : meanCol (sumsArr (V1 m ρ) c) (ix2 i (0 : Fin 1)) = Cert.Whiten.mean (inp m c) i := by
  rw [meanCol_apply]
  unfold Cert.Whiten.mean
  refine congrArg (fun z => Ideal.div z Cert.Whiten.count) ?_
  have e : ∀ s : Fin 2, sumsArr (V1 m ρ) c (ix3 s i (0 : Fin 1)) = 0 + ∑ k ∈ Finset.range 32, chanTot m c i (32 * s.val + k) := fun s => by
    show 0 + ∑ k ∈ Finset.range 32, chanSum (V1 m ρ) c (32 * s.val + k) i = _
    exact congrArg (0 + ·) (Finset.sum_congr rfl fun k _ => chanSum_eq m ρ c i _)
  rw [Finset.sum_congr rfl fun s _ => e s, Cert.Whiten.sum_two_rows, zero_add]
  exact Finset.sum_congr rfl fun b _ => by
    unfold chanTot
    rw [dif_pos b.isLt]

/-- The second moments the host sums over the two slots are those of all 64 images. -/
theorem moments_eq (i j : Fin 64) : (0 : EReal) + ∑ s : Fin 2, momentsArr (V1 m ρ) c (ix3 s i j)
    = ∑ b : Fin 64, ∑ q : Fin 12544, Cert.Whiten.pix (inp m c) b i q * Cert.Whiten.pix (inp m c) b j q := by
  have e : ∀ s : Fin 2, momentsArr (V1 m ρ) c (ix3 s i j) = 0 + ∑ k ∈ Finset.range 32, gramTot m c i j (32 * s.val + k) := fun s => by
    show 0 + ∑ k ∈ Finset.range 32, gram (V1 m ρ) c (32 * s.val + k) i j = _
    exact congrArg (0 + ·) (Finset.sum_congr rfl fun k _ => gram_eq m ρ c i j _)
  rw [Finset.sum_congr rfl fun s _ => e s, Cert.Whiten.sum_two_rows, zero_add]
  exact Finset.sum_congr rfl fun b _ => by
    unfold gramTot
    rw [dif_pos b.isLt]

/-- The host's covariance matrix is the one from raw second moments. -/
theorem sigmaK_eq : sigmaK (sumsArr (V1 m ρ) c) (momentsArr (V1 m ρ) c) = Cert.Whiten.sigmaU bcast_S_S64x64 (inp m c) := by
  funext ij
  obtain ⟨i, j, rfl⟩ : ∃ (i j : Fin 64), ij = ix2 i j := ⟨ij 0, ij 1, eq_ix2 ij⟩
  rw [sigmaK_apply, Cert.Whiten.sigmaU_ix2, mean_eq, mean_eq, moments_eq]
  rfl

end Run

end Cert.KernelIdeal.Hand

end
-- ==== Proof.Region1.lean ====
/-
  The transform pass: what its result array holds.

  The pass visits 64 grid points; point t reads image t of the input (64 channels of 12544 pixels), the whole 64 × 64
  matrix w and the whole column b, computes  Σ_k w (c, k) · x (t, k, q) − b (c)  for every channel c and pixel q, and
  writes it back as image t of the result. The 64 blocks tile the result, so entry (t, c, q) of the result array ends as
  Σ_k w (c, k) · x (t, k, q) − b (c).
-/
import proofs.«119691_j51127290691774_2_alg».proof.Proof.Gen.KernelIdeal.Frame
import proofs.«119691_j51127290691774_2_alg».proof.Proof.Payloads
import Idealize.ShloMosaic.Lib.Pipeline.Value
import Idealize.ShloMosaic.Lib.Tactic

set_option maxRecDepth 16384

noncomputable section

namespace Cert.KernelIdeal.Hand

open Idealize.ShloMosaic Idealize.ShloMosaic.TcCoe Idealize.SL.Sem Idealize.ShloMosaic.Tactic Idealize.ShloMosaic.ValueIdx
open Idealize.ShloMosaic.Pipeline (Dat)
open Cert.KernelIdeal Cert.KernelIdeal.Gen

/-- The matrix applied to every pixel column of every image, minus the bias column. -/
def applyOut (X : S64x64x12544.Idx → EReal) (W : S64x64.Idx → EReal) (B : S64x1.Idx → EReal) : S64x64x12544.Idx → EReal :=
  fun j => (∑ k : Fin 64, W (ix2 (j 1) k) * X (ix3 (j 0) k (j 2))) - B (ix2 (j 1) (0 : Fin 1))

theorem applyOut_ix3 (X : S64x64x12544.Idx → EReal) (W : S64x64.Idx → EReal) (B : S64x1.Idx → EReal)
    (b c : Fin 64) (q : Fin 12544) :
    applyOut X W B (ix3 b c q) = (∑ k : Fin 64, W (ix2 c k) * X (ix3 b k q)) - B (ix2 c (0 : Fin 1)) := rfl

theorem zero3 : (![0, 0, 0] : Fin 3 → Nat) = fun _ => 0 := funext fun a => by fin_cases a <;> rfl
theorem zero2 : (![0, 0] : Fin 2 → Nat) = fun _ => 0 := funext fun a => by fin_cases a <;> rfl

/-- The block indices of the four windows at every grid point: the image windows sit at image t, the matrix and the
    column are read whole. -/
theorem idx1 : ∀ t : Fin cfg1.N,
    win1_0.index t (0 : Fin 3) = t.val ∧ win1_0.index t (1 : Fin 3) = 0 ∧ win1_0.index t (2 : Fin 3) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 3) = t.val ∧ win1_3.index t (1 : Fin 3) = 0 ∧ win1_3.index t (2 : Fin 3) = 0 :=
  (by decide +kernel : ∀ t : Fin grid1.N, _)

section Blocks

variable (V : (c : Dev nD) → (b : Ref sig .tc) → Buf (Elt Ideal) ((c : Thread nD τ).loc b)) (c : Dev nD)

/-- The image block at point t is image t of the input. -/
theorem blk0_apply (t : Fin cfg1.N) (y : S1x64x12544.Idx) (k : S64x64x12544.Idx)
    (h0 : (k 0).val = t.val) (h1 : (k 1).val = (y 1).val) (h2 : (k 2).val = (y 2).val) :
    (iblk1 V c 0 t : Vec Ideal S1x64x12544 .f32) y = (V c main_v0 : S64x64x12544.Idx → EReal) k := by
  obtain ⟨e0, e1, e2, -⟩ := idx1 t
  unfold iblk1
  rw [View.read_apply]
  show V c main_v0 _ = V c main_v0 _
  congr 1
  funext a
  apply Fin.ext
  have hy : (y 0).val < 1 := (y 0).isLt
  match a with
  | ⟨0, _⟩ => show win1_0.index t 0 * 1 + 1 * (y 0).val = (k 0).val; rw [e0, h0]; omega
  | ⟨1, _⟩ => show win1_0.index t 1 * 64 + 1 * (y 1).val = (k 1).val; rw [e1, h1]; omega
  | ⟨2, _⟩ => show win1_0.index t 2 * 12544 + 1 * (y 2).val = (k 2).val; rw [e2, h2]; omega

/-- The matrix block at every point is the whole matrix. -/
theorem blk1_apply (t : Fin cfg1.N) (y : S64x64.Idx) :
    (iblk1 V c 1 t : Vec Ideal S64x64 .f32) y = (V c main_v66 : S64x64.Idx → EReal) y := by
  obtain ⟨-, -, -, e0, e1, -⟩ := idx1 t
  unfold iblk1
  rw [View.read_apply]
  show V c main_v66 _ = V c main_v66 _
  congr 1
  funext a
  apply Fin.ext
  match a with
  | ⟨0, _⟩ => show win1_1.index t 0 * 64 + 1 * (y 0).val = (y 0).val; rw [e0]; omega
  | ⟨1, _⟩ => show win1_1.index t 1 * 64 + 1 * (y 1).val = (y 1).val; rw [e1]; omega

/-- The column block at every point is the whole column. -/
theorem blk2_apply (t : Fin cfg1.N) (y : S64x1.Idx) :
    (iblk1 V c 2 t : Vec Ideal S64x1 .f32) y = (V c main_v67 : S64x1.Idx → EReal) y := by
  obtain ⟨-, -, -, -, -, e0, e1, -⟩ := idx1 t
  unfold iblk1
  rw [View.read_apply]
  show V c main_v67 _ = V c main_v67 _
  congr 1
  funext a
  apply Fin.ext
  match a with
  | ⟨0, _⟩ => show win1_2.index t 0 * 64 + 1 * (y 0).val = (y 0).val; rw [e0]; omega
  | ⟨1, _⟩ => show win1_2.index t 1 * 1 + 1 * (y 1).val = (y 1).val; rw [e1]; omega

end Blocks

section Final

variable (V : (c : Dev nD) → (b : Ref sig .tc) → Buf (Elt Ideal) ((c : Thread nD τ).loc b)) (c : Dev nD)

/-- What point t writes back is block t of the transform of the three arrays as the pass finds them. -/
theorem flushed3_eq (t : Fin cfg1.N) :
    (dat1 V c).flushed 3 t
      = ((cfg1.win 3).blk t).view.read (Elt Ideal) (applyOut (V c main_v0) (V c main_v66) (V c main_v67)) := by
  show (cfg1.win 3).cut (grid1.coords t) ((dat1 V c).after 3 t) = _
  rw [after1_3]
  unfold out1_3
  rw [View.canon_unit_zero zero3]
  simp only [View.ld_unit_zero (S := S1x64x12544) zero3, View.ld_unit_zero (S := S64x64) zero2,
    View.ld_unit_zero (S := S64x1) zero2]
  funext y
  obtain ⟨u, p, q, rfl⟩ : ∃ (u : Fin 1) (p : Fin 64) (q : Fin 12544), y = ix3 u p q := ⟨y 0, y 1, y 2, eq_ix3 y⟩
  obtain rfl : u = 0 := Subsingleton.elim _ _
  obtain ⟨-, -, -, -, -, -, -, e0, e1, e2⟩ := idx1 t
  have ht : t.val < 64 := t.isLt
  have hemb : ((cfg1.win 3).blk t).view.emb (ix3 (0 : Fin 1) p q) = ix3 (⟨t.val, ht⟩ : Fin 64) p q := by
    funext a
    apply Fin.ext
    match a with
    | ⟨0, _⟩ => show win1_3.index t 0 * 1 + 1 * (0 : Fin 1).val = t.val; rw [e0]; simp
    | ⟨1, _⟩ => show win1_3.index t 1 * 64 + 1 * p.val = p.val; rw [e1]; omega
    | ⟨2, _⟩ => show win1_3.index t 2 * 12544 + 1 * q.val = q.val; rw [e2]; omega
  show k1_pay1 (iblk1 V c 0 t) (iblk1 V c 1 t) (iblk1 V c 2 t) (ix3 (0 : Fin 1) p q)
    = applyOut (V c main_v0) (V c main_v66) (V c main_v67) (((cfg1.win 3).blk t).view.emb (ix3 (0 : Fin 1) p q))
  rw [pay_apply_apply, hemb, applyOut_ix3, blk2_apply]
  refine congrArg (fun z : EReal => z - (V c main_v67 : S64x1.Idx → EReal) (ix2 p (0 : Fin 1))) (Finset.sum_congr rfl fun k _ => ?_)
  rw [blk1_apply, blk0_apply V c t (ix3 (0 : Fin 1) k q) (ix3 (⟨t.val, ht⟩ : Fin 64) k q) rfl rfl rfl]

/-- An index of the result is in point t's block iff each coordinate is in the block's range on its axis. -/
theorem mem_blk3 (t : Fin cfg1.N) (i : S64x64x12544.Idx) :
    i ∈ ((cfg1.win 3).blk t).view.set
      ↔ ∀ a : Fin 3, win1_3.index t a * S1x64x12544.size a ≤ (i a).val
          ∧ (i a).val < win1_3.index t a * S1x64x12544.size a + S1x64x12544.size a := by
  show i ∈ ((View.whole main_v68).slice (win1_3.rect t)).set ↔ _
  rw [View.set_slice_whole, Rect.mem_set_unit]
  exact Iff.rfl

/-- Every index of the result lies in the block of the point of its image. -/
theorem cover3 (i : S64x64x12544.Idx) :
    ∃ t : Fin cfg1.N, (cfg1.win 3).flush t = true ∧ i ∈ ((cfg1.win 3).blk t).view.set := by
  have h0 : (i 0).val < 64 := (i 0).isLt
  have h1 : (i 1).val < 64 := (i 1).isLt
  have h2 : (i 2).val < 12544 := (i 2).isLt
  refine ⟨⟨(i 0).val, h0⟩, flush1_3 _, ?_⟩
  obtain ⟨-, -, -, -, -, -, -, e0, e1, e2⟩ := idx1 ⟨(i 0).val, h0⟩
  rw [mem_blk3]
  intro a
  match a with
  | ⟨0, _⟩ =>
    show win1_3.index ⟨(i 0).val, h0⟩ 0 * 1 ≤ (i 0).val ∧ (i 0).val < win1_3.index ⟨(i 0).val, h0⟩ 0 * 1 + 1
    rw [e0]; show (i 0).val * 1 ≤ (i 0).val ∧ (i 0).val < (i 0).val * 1 + 1; omega
  | ⟨1, _⟩ =>
    show win1_3.index ⟨(i 0).val, h0⟩ 1 * 64 ≤ (i 1).val ∧ (i 1).val < win1_3.index ⟨(i 0).val, h0⟩ 1 * 64 + 64
    rw [e1]; omega
  | ⟨2, _⟩ =>
    show win1_3.index ⟨(i 0).val, h0⟩ 2 * 12544 ≤ (i 2).val ∧ (i 2).val < win1_3.index ⟨(i 0).val, h0⟩ 2 * 12544 + 12544
    rw [e2]; omega

/-- The result array after the pass: the transform of the input, the matrix and the column it was entered with. -/
theorem final3 : (dat1 V c).arrAt 3 cfg1.N = applyOut (V c main_v0) (V c main_v66) (V c main_v67) :=
  (dat1 V c).arrAt_eq_of_cover 3 _ (fun t _ => flushed3_eq V c t) (cover3)

end Final

end Cert.KernelIdeal.Hand

end
-- ==== Proof.HostChain.lean ====
/-
  The stretch of array operations between the two passes: from the covariance matrix to the whitening matrix.

  The stretch takes the covariance matrix σ, the identity matrix, the trace of σ and the column of channel means. It forms
  r = 1 / tr σ and the scaled matrix s = σ · r, runs five steps p ↦ 3/2 · p − 1/2 · ((p · p) · p) · s from the identity
  matrix, multiplies the last iterate by √r to get the whitening matrix, and applies that matrix to the mean column.
  The line of operations is evaluated piece by piece: each piece is read over an arbitrary incoming assignment of contents
  to buffers as one named function of the few buffers it reads, and the buffers a later piece still reads are shown to
  pass through it unchanged.
-/
import proofs.«119691_j51127290691774_2_alg».proof.Proof.Chain
import proofs.«119691_j51127290691774_2_alg».proof.Proof.Gen.KernelIdeal.Launch
import Idealize.ShloMosaic.Lib.StableHlo.Run

noncomputable section

namespace Cert.KernelIdeal.Hand

open Cert.KernelIdeal Cert.KernelIdeal.Gen Idealize.ShloMosaic Idealize.ShloMosaic.TcCoe Idealize.SL.Sem Idealize.ShloMosaic.StableHlo

/-! ## The shape facts the stretch cites, as the program states them -/

abbrev bcK : Cert.Whiten.Sc.BroadcastsInDim Cert.Whiten.M (![] : Fin 0 → Fin Cert.Whiten.M.rank) := bcast_S_S64x64
abbrev DK : DotDims Cert.Whiten.M Cert.Whiten.M Cert.Whiten.M := dot_S64x64_S64x64_S64x64_1_0_0_1_n_n

/-! ## The whitening matrix as a function of σ, the identity matrix and the trace -/

/-- r = 1 / tr. -/
def rOf (tr : FVec Ideal S_ .f32) : FVec Ideal S_ .f32 := Host.divf (Cert.Whiten.word 0x3F800000#32) tr

/-- s = σ · r. -/
def sOf (σ : FVec Ideal S64x64 .f32) (tr : FVec Ideal S_ .f32) : FVec Ideal S64x64 .f32 :=
  mulf σ (Cert.Whiten.spread bcK (rOf tr))

/-- Five steps from e on s, times √r. -/
def wmFrom (σ e : FVec Ideal S64x64 .f32) (tr : FVec Ideal S_ .f32) : FVec Ideal S64x64 .f32 :=
  mulf (Cert.Whiten.step bcK DK (Cert.Whiten.step bcK DK (Cert.Whiten.step bcK DK (Cert.Whiten.step bcK DK
      (Cert.Whiten.step bcK DK e (sOf σ tr)) (sOf σ tr)) (sOf σ tr)) (sOf σ tr)) (sOf σ tr))
    (Cert.Whiten.spread bcK (Host.sqrt (rOf tr)))

/-- From the identity matrix and the trace of σ this is the whitening matrix of σ. -/
theorem wmFrom_whitener (red : Cert.Whiten.M.ReducesTo [0, 1] Cert.Whiten.Sc) (pos : 0 < Cert.Whiten.Sc.numel)
    (σ : FVec Ideal S64x64 .f32) :
    wmFrom σ (Cert.Whiten.eye bcK) (Cert.Whiten.trace bcK red pos σ) = Cert.Whiten.whitener bcK red pos DK σ := rfl

/-! ## The line of operations in pieces -/

section Pieces

variable {F : FTy → Type} [FloatOps F]

/-- The reciprocal of the trace, spread over the matrix, and the scaled matrix. -/
abbrev kScale : List (HloOp τ sig (Elt F)) :=
  [ StableHlo.nullary main_cst_4 (constant S_ .f32 0x3F800000#32),
    StableHlo.binary main_cst_4 main_v20 main_v21 (Host.divf : (⟨S_, .f32⟩ : BufTy).Contents (Elt F) → (⟨S_, .f32⟩ : BufTy).Contents (Elt F) → (⟨S_, .f32⟩ : BufTy).Contents (Elt F)),
    StableHlo.unary main_v21 main_v22 (broadcastInDim S64x64 ![] bcast_S_S64x64 : (⟨S_, .f32⟩ : BufTy).Contents (Elt F) → (⟨S64x64, .f32⟩ : BufTy).Contents (Elt F)),
    StableHlo.binary main_v19 main_v22 main_v23 (mulf : (⟨S64x64, .f32⟩ : BufTy).Contents (Elt F) → (⟨S64x64, .f32⟩ : BufTy).Contents (Elt F) → (⟨S64x64, .f32⟩ : BufTy).Contents (Elt F)) ]

/-- The first step, from the identity matrix. -/
abbrev kStep1 : List (HloOp τ sig (Elt F)) :=
  [ StableHlo.binary main_v11 main_v11 main_v24 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    StableHlo.binary main_v24 main_v11 main_v25 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    StableHlo.nullary main_cst_5 (constant S_ .f32 0x3FC00000#32),
    StableHlo.unary main_cst_5 main_v26 (broadcastInDim S64x64 ![] bcast_S_S64x64 : (⟨S_, .f32⟩ : BufTy).Contents (Elt F) → (⟨S64x64, .f32⟩ : BufTy).Contents (Elt F)),
    StableHlo.binary main_v26 main_v11 main_v27 (mulf : (⟨S64x64, .f32⟩ : BufTy).Contents (Elt F) → (⟨S64x64, .f32⟩ : BufTy).Contents (Elt F) → (⟨S64x64, .f32⟩ : BufTy).Contents (Elt F)),
    StableHlo.binary main_v25 main_v23 main_v28 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    StableHlo.nullary main_cst_6 (constant S_ .f32 0x3F000000#32),
    StableHlo.unary main_cst_6 main_v29 (broadcastInDim S64x64 ![] bcast_S_S64x64 : (⟨S_, .f32⟩ : BufTy).Contents (Elt F) → (⟨S64x64, .f32⟩ : BufTy).Contents (Elt F)),
    StableHlo.binary main_v29 main_v28 main_v30 (mulf : (⟨S64x64, .f32⟩ : BufTy).Contents (Elt F) → (⟨S64x64, .f32⟩ : BufTy).Contents (Elt F) → (⟨S64x64, .f32⟩ : BufTy).Contents (Elt F)),
    StableHlo.binary main_v27 main_v30 main_v31 (subf : (⟨S64x64, .f32⟩ : BufTy).Contents (Elt F) → (⟨S64x64, .f32⟩ : BufTy).Contents (Elt F) → (⟨S64x64, .f32⟩ : BufTy).Contents (Elt F)) ]

/-- The second step. -/
abbrev kStep2 : List (HloOp τ sig (Elt F)) :=
  [ StableHlo.binary main_v31 main_v31 main_v32 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    StableHlo.binary main_v32 main_v31 main_v33 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    StableHlo.nullary main_cst_7 (constant S_ .f32 0x3FC00000#32),
    StableHlo.unary main_cst_7 main_v34 (broadcastInDim S64x64 ![] bcast_S_S64x64 : (⟨S_, .f32⟩ : BufTy).Contents (Elt F) → (⟨S64x64, .f32⟩ : BufTy).Contents (Elt F)),
    StableHlo.binary main_v34 main_v31 main_v35 (mulf : (⟨S64x64, .f32⟩ : BufTy).Contents (Elt F) → (⟨S64x64, .f32⟩ : BufTy).Contents (Elt F) → (⟨S64x64, .f32⟩ : BufTy).Contents (Elt F)),
    StableHlo.binary main_v33 main_v23 main_v36 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    StableHlo.nullary main_cst_8 (constant S_ .f32 0x3F000000#32),
    StableHlo.unary main_cst_8 main_v37 (broadcastInDim S64x64 ![] bcast_S_S64x64 : (⟨S_, .f32⟩ : BufTy).Contents (Elt F) → (⟨S64x64, .f32⟩ : BufTy).Contents (Elt F)),
    StableHlo.binary main_v37 main_v36 main_v38 (mulf : (⟨S64x64, .f32⟩ : BufTy).Contents (Elt F) → (⟨S64x64, .f32⟩ : BufTy).Contents (Elt F) → (⟨S64x64, .f32⟩ : BufTy).Contents (Elt F)),
    StableHlo.binary main_v35 main_v38 main_v39 (subf : (⟨S64x64, .f32⟩ : BufTy).Contents (Elt F) → (⟨S64x64, .f32⟩ : BufTy).Contents (Elt F) → (⟨S64x64, .f32⟩ : BufTy).Contents (Elt F)) ]

/-- The third step. -/
abbrev kStep3 : List (HloOp τ sig (Elt F)) :=
  [ StableHlo.binary main_v39 main_v39 main_v40 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    StableHlo.binary main_v40 main_v39 main_v41 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    StableHlo.nullary main_cst_9 (constant S_ .f32 0x3FC00000#32),
    StableHlo.unary main_cst_9 main_v42 (broadcastInDim S64x64 ![] bcast_S_S64x64 : (⟨S_, .f32⟩ : BufTy).Contents (Elt F) → (⟨S64x64, .f32⟩ : BufTy).Contents (Elt F)),
    StableHlo.binary main_v42 main_v39 main_v43 (mulf : (⟨S64x64, .f32⟩ : BufTy).Contents (Elt F) → (⟨S64x64, .f32⟩ : BufTy).Contents (Elt F) → (⟨S64x64, .f32⟩ : BufTy).Contents (Elt F)),
    StableHlo.binary main_v41 main_v23 main_v44 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    StableHlo.nullary main_cst_10 (constant S_ .f32 0x3F000000#32),
    StableHlo.unary main_cst_10 main_v45 (broadcastInDim S64x64 ![] bcast_S_S64x64 : (⟨S_, .f32⟩ : BufTy).Contents (Elt F) → (⟨S64x64, .f32⟩ : BufTy).Contents (Elt F)),
    StableHlo.binary main_v45 main_v44 main_v46 (mulf : (⟨S64x64, .f32⟩ : BufTy).Contents (Elt F) → (⟨S64x64, .f32⟩ : BufTy).Contents (Elt F) → (⟨S64x64, .f32⟩ : BufTy).Contents (Elt F)),
    StableHlo.binary main_v43 main_v46 main_v47 (subf : (⟨S64x64, .f32⟩ : BufTy).Contents (Elt F) → (⟨S64x64, .f32⟩ : BufTy).Contents (Elt F) → (⟨S64x64, .f32⟩ : BufTy).Contents (Elt F)) ]

/-- The fourth step. -/
abbrev kStep4 : List (HloOp τ sig (Elt F)) :=
  [ StableHlo.binary main_v47 main_v47 main_v48 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    StableHlo.binary main_v48 main_v47 main_v49 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    StableHlo.nullary main_cst_11 (constant S_ .f32 0x3FC00000#32),
    StableHlo.unary main_cst_11 main_v50 (broadcastInDim S64x64 ![] bcast_S_S64x64 : (⟨S_, .f32⟩ : BufTy).Contents (Elt F) → (⟨S64x64, .f32⟩ : BufTy).Contents (Elt F)),
    StableHlo.binary main_v50 main_v47 main_v51 (mulf : (⟨S64x64, .f32⟩ : BufTy).Contents (Elt F) → (⟨S64x64, .f32⟩ : BufTy).Contents (Elt F) → (⟨S64x64, .f32⟩ : BufTy).Contents (Elt F)),
    StableHlo.binary main_v49 main_v23 main_v52 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    StableHlo.nullary main_cst_12 (constant S_ .f32 0x3F000000#32),
    StableHlo.unary main_cst_12 main_v53 (broadcastInDim S64x64 ![] bcast_S_S64x64 : (⟨S_, .f32⟩ : BufTy).Contents (Elt F) → (⟨S64x64, .f32⟩ : BufTy).Contents (Elt F)),
    StableHlo.binary main_v53 main_v52 main_v54 (mulf : (⟨S64x64, .f32⟩ : BufTy).Contents (Elt F) → (⟨S64x64, .f32⟩ : BufTy).Contents (Elt F) → (⟨S64x64, .f32⟩ : BufTy).Contents (Elt F)),
    StableHlo.binary main_v51 main_v54 main_v55 (subf : (⟨S64x64, .f32⟩ : BufTy).Contents (Elt F) → (⟨S64x64, .f32⟩ : BufTy).Contents (Elt F) → (⟨S64x64, .f32⟩ : BufTy).Contents (Elt F)) ]

/-- The fifth step. -/
abbrev kStep5 : List (HloOp τ sig (Elt F)) :=
  [ StableHlo.binary main_v55 main_v55 main_v56 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    StableHlo.binary main_v56 main_v55 main_v57 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    StableHlo.nullary main_cst_13 (constant S_ .f32 0x3FC00000#32),
    StableHlo.unary main_cst_13 main_v58 (broadcastInDim S64x64 ![] bcast_S_S64x64 : (⟨S_, .f32⟩ : BufTy).Contents (Elt F) → (⟨S64x64, .f32⟩ : BufTy).Contents (Elt F)),
    StableHlo.binary main_v58 main_v55 main_v59 (mulf : (⟨S64x64, .f32⟩ : BufTy).Contents (Elt F) → (⟨S64x64, .f32⟩ : BufTy).Contents (Elt F) → (⟨S64x64, .f32⟩ : BufTy).Contents (Elt F)),
    StableHlo.binary main_v57 main_v23 main_v60 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    StableHlo.nullary main_cst_14 (constant S_ .f32 0x3F000000#32),
    StableHlo.unary main_cst_14 main_v61 (broadcastInDim S64x64 ![] bcast_S_S64x64 : (⟨S_, .f32⟩ : BufTy).Contents (Elt F) → (⟨S64x64, .f32⟩ : BufTy).Contents (Elt F)),
    StableHlo.binary main_v61 main_v60 main_v62 (mulf : (⟨S64x64, .f32⟩ : BufTy).Contents (Elt F) → (⟨S64x64, .f32⟩ : BufTy).Contents (Elt F) → (⟨S64x64, .f32⟩ : BufTy).Contents (Elt F)),
    StableHlo.binary main_v59 main_v62 main_v63 (subf : (⟨S64x64, .f32⟩ : BufTy).Contents (Elt F) → (⟨S64x64, .f32⟩ : BufTy).Contents (Elt F) → (⟨S64x64, .f32⟩ : BufTy).Contents (Elt F)) ]

/-- The square root of the reciprocal, spread, the product with the last iterate, and that matrix applied to the mean column. -/
abbrev kTail : List (HloOp τ sig (Elt F)) :=
  [ StableHlo.unary main_v21 main_v64 (Host.sqrt : (⟨S_, .f32⟩ : BufTy).Contents (Elt F) → (⟨S_, .f32⟩ : BufTy).Contents (Elt F)),
    StableHlo.unary main_v64 main_v65 (broadcastInDim S64x64 ![] bcast_S_S64x64 : (⟨S_, .f32⟩ : BufTy).Contents (Elt F) → (⟨S64x64, .f32⟩ : BufTy).Contents (Elt F)),
    StableHlo.binary main_v63 main_v65 main_v66 (mulf : (⟨S64x64, .f32⟩ : BufTy).Contents (Elt F) → (⟨S64x64, .f32⟩ : BufTy).Contents (Elt F) → (⟨S64x64, .f32⟩ : BufTy).Contents (Elt F)),
    StableHlo.binary main_v66 main_v5 main_v67 ((fun l r => Host.dotGeneral dot_S64x64_S64x1_S64x1_1_0_0_1_n_n none l r) : (⟨S64x64, .f32⟩ : BufTy).Contents (Elt F) → (⟨S64x1, .f32⟩ : BufTy).Contents (Elt F) → (⟨S64x1, .f32⟩ : BufTy).Contents (Elt F)) ]

/-- The line is its pieces one after the other. -/
theorem hostOps1_2_eq : (hostOps1_2 : List (HloOp τ sig (Elt F))) = kScale ++ kStep1 ++ kStep2 ++ kStep3 ++ kStep4 ++ kStep5 ++ kTail := rfl

end Pieces

/-- Two lines one after the other fold as the second over the first's fold. -/
theorem after_append (l₁ l₂ : List (HloOp τ sig (Elt Ideal))) (V : Valuation τ sig (Elt Ideal)) :
    after (l₁ ++ l₂) V = after l₂ (after l₁ V) := by
  induction l₁ generalizing V with
  | nil => rfl
  | cons op l ih => simp only [List.cons_append, after_cons, ih]

section Stretches

variable (W : Valuation τ sig (Elt Ideal))

/-! The reciprocal of the trace and the scaled matrix. -/

theorem scale_v21 : after kScale W (Proc.devRef .tc main_v21 : DevRef τ sig) = rOf (W (Proc.devRef .tc main_v20 : DevRef τ sig)) := by
  simp only [after_cons, after_nil]; rfl
theorem scale_v23 : after kScale W (Proc.devRef .tc main_v23 : DevRef τ sig) = sOf (W (Proc.devRef .tc main_v19 : DevRef τ sig)) (W (Proc.devRef .tc main_v20 : DevRef τ sig)) := by
  simp only [after_cons, after_nil]; rfl
theorem scale_keep_v11 : after kScale W (Proc.devRef .tc main_v11 : DevRef τ sig) = W (Proc.devRef .tc main_v11 : DevRef τ sig) := by
  simp only [after_cons, after_nil]; rfl
theorem scale_keep_v5 : after kScale W (Proc.devRef .tc main_v5 : DevRef τ sig) = W (Proc.devRef .tc main_v5 : DevRef τ sig) := by
  simp only [after_cons, after_nil]; rfl
theorem scale_keep_v0 : after kScale W (Proc.devRef .tc main_v0 : DevRef τ sig) = W (Proc.devRef .tc main_v0 : DevRef τ sig) := by
  simp only [after_cons, after_nil]; rfl

/-! The five steps: each reads the previous iterate and the scaled matrix. -/

theorem step1_out : after kStep1 W (Proc.devRef .tc main_v31 : DevRef τ sig)
    = Cert.Whiten.step bcK DK (W (Proc.devRef .tc main_v11 : DevRef τ sig)) (W (Proc.devRef .tc main_v23 : DevRef τ sig)) := by
  simp only [after_cons, after_nil]; rfl
theorem step1_keep_v23 : after kStep1 W (Proc.devRef .tc main_v23 : DevRef τ sig) = W (Proc.devRef .tc main_v23 : DevRef τ sig) := by
  simp only [after_cons, after_nil]; rfl
theorem step1_keep_v21 : after kStep1 W (Proc.devRef .tc main_v21 : DevRef τ sig) = W (Proc.devRef .tc main_v21 : DevRef τ sig) := by
  simp only [after_cons, after_nil]; rfl
theorem step1_keep_v5 : after kStep1 W (Proc.devRef .tc main_v5 : DevRef τ sig) = W (Proc.devRef .tc main_v5 : DevRef τ sig) := by
  simp only [after_cons, after_nil]; rfl
theorem step1_keep_v0 : after kStep1 W (Proc.devRef .tc main_v0 : DevRef τ sig) = W (Proc.devRef .tc main_v0 : DevRef τ sig) := by
  simp only [after_cons, after_nil]; rfl
theorem step2_out : after kStep2 W (Proc.devRef .tc main_v39 : DevRef τ sig)
    = Cert.Whiten.step bcK DK (W (Proc.devRef .tc main_v31 : DevRef τ sig)) (W (Proc.devRef .tc main_v23 : DevRef τ sig)) := by
  simp only [after_cons, after_nil]; rfl
theorem step2_keep_v23 : after kStep2 W (Proc.devRef .tc main_v23 : DevRef τ sig) = W (Proc.devRef .tc main_v23 : DevRef τ sig) := by
  simp only [after_cons, after_nil]; rfl
theorem step2_keep_v21 : after kStep2 W (Proc.devRef .tc main_v21 : DevRef τ sig) = W (Proc.devRef .tc main_v21 : DevRef τ sig) := by
  simp only [after_cons, after_nil]; rfl
theorem step2_keep_v5 : after kStep2 W (Proc.devRef .tc main_v5 : DevRef τ sig) = W (Proc.devRef .tc main_v5 : DevRef τ sig) := by
  simp only [after_cons, after_nil]; rfl
theorem step2_keep_v0 : after kStep2 W (Proc.devRef .tc main_v0 : DevRef τ sig) = W (Proc.devRef .tc main_v0 : DevRef τ sig) := by
  simp only [after_cons, after_nil]; rfl
theorem step3_out : after kStep3 W (Proc.devRef .tc main_v47 : DevRef τ sig)
    = Cert.Whiten.step bcK DK (W (Proc.devRef .tc main_v39 : DevRef τ sig)) (W (Proc.devRef .tc main_v23 : DevRef τ sig)) := by
  simp only [after_cons, after_nil]; rfl
theorem step3_keep_v23 : after kStep3 W (Proc.devRef .tc main_v23 : DevRef τ sig) = W (Proc.devRef .tc main_v23 : DevRef τ sig) := by
  simp only [after_cons, after_nil]; rfl
theorem step3_keep_v21 : after kStep3 W (Proc.devRef .tc main_v21 : DevRef τ sig) = W (Proc.devRef .tc main_v21 : DevRef τ sig) := by
  simp only [after_cons, after_nil]; rfl
theorem step3_keep_v5 : after kStep3 W (Proc.devRef .tc main_v5 : DevRef τ sig) = W (Proc.devRef .tc main_v5 : DevRef τ sig) := by
  simp only [after_cons, after_nil]; rfl
theorem step3_keep_v0 : after kStep3 W (Proc.devRef .tc main_v0 : DevRef τ sig) = W (Proc.devRef .tc main_v0 : DevRef τ sig) := by
  simp only [after_cons, after_nil]; rfl
theorem step4_out : after kStep4 W (Proc.devRef .tc main_v55 : DevRef τ sig)
    = Cert.Whiten.step bcK DK (W (Proc.devRef .tc main_v47 : DevRef τ sig)) (W (Proc.devRef .tc main_v23 : DevRef τ sig)) := by
  simp only [after_cons, after_nil]; rfl
theorem step4_keep_v23 : after kStep4 W (Proc.devRef .tc main_v23 : DevRef τ sig) = W (Proc.devRef .tc main_v23 : DevRef τ sig) := by
  simp only [after_cons, after_nil]; rfl
theorem step4_keep_v21 : after kStep4 W (Proc.devRef .tc main_v21 : DevRef τ sig) = W (Proc.devRef .tc main_v21 : DevRef τ sig) := by
  simp only [after_cons, after_nil]; rfl
theorem step4_keep_v5 : after kStep4 W (Proc.devRef .tc main_v5 : DevRef τ sig) = W (Proc.devRef .tc main_v5 : DevRef τ sig) := by
  simp only [after_cons, after_nil]; rfl
theorem step4_keep_v0 : after kStep4 W (Proc.devRef .tc main_v0 : DevRef τ sig) = W (Proc.devRef .tc main_v0 : DevRef τ sig) := by
  simp only [after_cons, after_nil]; rfl
theorem step5_out : after kStep5 W (Proc.devRef .tc main_v63 : DevRef τ sig)
    = Cert.Whiten.step bcK DK (W (Proc.devRef .tc main_v55 : DevRef τ sig)) (W (Proc.devRef .tc main_v23 : DevRef τ sig)) := by
  simp only [after_cons, after_nil]; rfl
theorem step5_keep_v23 : after kStep5 W (Proc.devRef .tc main_v23 : DevRef τ sig) = W (Proc.devRef .tc main_v23 : DevRef τ sig) := by
  simp only [after_cons, after_nil]; rfl
theorem step5_keep_v21 : after kStep5 W (Proc.devRef .tc main_v21 : DevRef τ sig) = W (Proc.devRef .tc main_v21 : DevRef τ sig) := by
  simp only [after_cons, after_nil]; rfl
theorem step5_keep_v5 : after kStep5 W (Proc.devRef .tc main_v5 : DevRef τ sig) = W (Proc.devRef .tc main_v5 : DevRef τ sig) := by
  simp only [after_cons, after_nil]; rfl
theorem step5_keep_v0 : after kStep5 W (Proc.devRef .tc main_v0 : DevRef τ sig) = W (Proc.devRef .tc main_v0 : DevRef τ sig) := by
  simp only [after_cons, after_nil]; rfl

/-! After the steps: the last iterate times √r, and that matrix applied to the mean column. -/

theorem tail_v66 : after kTail W (Proc.devRef .tc main_v66 : DevRef τ sig)
    = mulf (W (Proc.devRef .tc main_v63 : DevRef τ sig)) (Cert.Whiten.spread bcK (Host.sqrt (W (Proc.devRef .tc main_v21 : DevRef τ sig)))) := by
  simp only [after_cons, after_nil]; rfl
theorem tail_v67 : after kTail W (Proc.devRef .tc main_v67 : DevRef τ sig)
    = Host.dotGeneral (φ₁ := .f32) (φ₂ := .f32) dot_S64x64_S64x1_S64x1_1_0_0_1_n_n none
        (mulf (W (Proc.devRef .tc main_v63 : DevRef τ sig)) (Cert.Whiten.spread bcK (Host.sqrt (W (Proc.devRef .tc main_v21 : DevRef τ sig))))) (W (Proc.devRef .tc main_v5 : DevRef τ sig)) := by
  simp only [after_cons, after_nil]; rfl
theorem tail_keep_v0 : after kTail W (Proc.devRef .tc main_v0 : DevRef τ sig) = W (Proc.devRef .tc main_v0 : DevRef τ sig) := by
  simp only [after_cons, after_nil]; rfl

end Stretches

/-! ## The whole line -/

/-- The whitening matrix buffer after the line. -/
theorem wm_after (W : Valuation τ sig (Elt Ideal)) :
    after hostOps1_2 W (Proc.devRef .tc main_v66 : DevRef τ sig)
      = wmFrom (W (Proc.devRef .tc main_v19 : DevRef τ sig)) (W (Proc.devRef .tc main_v11 : DevRef τ sig)) (W (Proc.devRef .tc main_v20 : DevRef τ sig)) := by
  rw [hostOps1_2_eq]
  simp only [after_append]
  rw [tail_v66, step5_out, step5_keep_v21, step4_out, step4_keep_v23, step4_keep_v21, step3_out, step3_keep_v23,
    step3_keep_v21, step2_out, step2_keep_v23, step2_keep_v21, step1_out, step1_keep_v23, step1_keep_v21, scale_v23, scale_v21,
    scale_keep_v11]
  rfl

/-- The whitened mean buffer after the line. -/
theorem bias_after (W : Valuation τ sig (Elt Ideal)) :
    after hostOps1_2 W (Proc.devRef .tc main_v67 : DevRef τ sig)
      = Host.dotGeneral (φ₁ := .f32) (φ₂ := .f32) dot_S64x64_S64x1_S64x1_1_0_0_1_n_n none
          (wmFrom (W (Proc.devRef .tc main_v19 : DevRef τ sig)) (W (Proc.devRef .tc main_v11 : DevRef τ sig)) (W (Proc.devRef .tc main_v20 : DevRef τ sig))) (W (Proc.devRef .tc main_v5 : DevRef τ sig)) := by
  rw [hostOps1_2_eq]
  simp only [after_append]
  rw [tail_v67, step5_out, step5_keep_v21, step5_keep_v5, step4_out, step4_keep_v23, step4_keep_v21, step4_keep_v5,
    step3_out, step3_keep_v23, step3_keep_v21, step3_keep_v5, step2_out, step2_keep_v23, step2_keep_v21, step2_keep_v5,
    step1_out, step1_keep_v23, step1_keep_v21, step1_keep_v5, scale_v23, scale_v21, scale_keep_v11, scale_keep_v5]
  rfl

/-- The input buffer is not written. -/
theorem v0_after (W : Valuation τ sig (Elt Ideal)) :
    after hostOps1_2 W (Proc.devRef .tc main_v0 : DevRef τ sig) = W (Proc.devRef .tc main_v0 : DevRef τ sig) := by
  rw [hostOps1_2_eq]
  simp only [after_append]
  rw [tail_keep_v0, step5_keep_v0, step4_keep_v0, step3_keep_v0, step2_keep_v0, step1_keep_v0, scale_keep_v0]

end Cert.KernelIdeal.Hand

end
-- ==== Proof.KernelValue.lean ====
/-
  The kernel program's result, index by index.

  Following the program's seven stretches buffer by buffer: the statistics pass leaves the per-slot sums; the host
  forms the means, the covariance matrix from raw second moments, and from it the whitening matrix wm and the
  whitened mean wm · mean; the transform pass writes, for image b, wm · (image b) − wm · mean; the last reshape splits
  the pixel axis back into rows and columns. So entry (b, c, h, w) of the result is
      Σ_k wm (c, k) · pix b k (112 · h + w) − Σ_k wm (c, k) · mean k.
-/
import proofs.«119691_j51127290691774_2_alg».proof.Proof.KernelSigma
import proofs.«119691_j51127290691774_2_alg».proof.Proof.Region1
import proofs.«119691_j51127290691774_2_alg».proof.Proof.HostChain

set_option maxRecDepth 16384

noncomputable section

namespace Cert.KernelIdeal.Hand

open Idealize.ShloMosaic Idealize.ShloMosaic.TcCoe Idealize.SL.Sem Idealize.ShloMosaic.ValueIdx
open Cert.KernelIdeal Cert.KernelIdeal.Facts₀ Cert.KernelIdeal.Facts
open Cert.KernelIdeal.Gen (V1 V5 W0 W1 W2 W3 W4 W5 W6 W7 W2_arr W2_of_ne W6_arr dat0 dat1 N_0)

variable (m : (ℓ : Loc nD τ sig) → Buf (Elt Ideal) ℓ) (ρ : Dev nD → PrngReg) (c : Dev nD)

/-- The covariance matrix the host forms. -/
def sigK : FVec Ideal S64x64 .f32 := sigmaK (sumsArr (V1 m ρ) c) (momentsArr (V1 m ρ) c)

/-- The whitening matrix the host forms. -/
def wmK : FVec Ideal S64x64 .f32 :=
  Cert.Whiten.whitener bcast_S_S64x64 reducesTo_S64x64_S_d0_1 h_S_ dot_S64x64_S64x64_S64x64_1_0_0_1_n_n (sigK m ρ c)

theorem W2_sums : (W2 m ρ c (Proc.devRef .tc main_v1_0) : S2x64x1.Idx → EReal) = sumsArr (V1 m ρ) c :=
  (W2_arr m ρ c 1).trans (final1 (V1 m ρ) c)

theorem W2_moments : (W2 m ρ c (Proc.devRef .tc main_v1_1) : S2x64x64.Idx → EReal) = momentsArr (V1 m ρ) c :=
  (W2_arr m ρ c 2).trans (final2 (V1 m ρ) c)

/-- The statistics pass only reads its input array. -/
theorem W2_x3 : W2 m ρ c (Proc.devRef .tc main_v0) = W1 m ρ c (Proc.devRef .tc main_v0) :=
  (W2_arr m ρ c 0).trans (((dat0 (V1 m ρ) c).arrAt_in 0 rfl _).trans (Gen.A_eq0 (V1 m ρ) c 0))

theorem W3_sigma : (W3 m ρ c (Proc.devRef .tc main_v19) : S64x64.Idx → EReal) = sigK m ρ c := by
  show StableHlo.after (Gen.hostOps1 (F := Ideal)) (W2 m ρ c) (Proc.devRef .tc main_v19) = _
  rw [v19_after1, W2_sums, W2_moments]
  rfl

theorem W4_sigma : (W4 m ρ c (Proc.devRef .tc main_v19) : S64x64.Idx → EReal) = sigK m ρ c :=
  (v19_after2 (W3 m ρ c)).trans (W3_sigma m ρ c)

theorem W4_eye : (W4 m ρ c (Proc.devRef .tc main_v11) : S64x64.Idx → EReal) = Cert.Whiten.eye bcast_S_S64x64 :=
  (v11_after2 (W3 m ρ c)).trans (v11_after1 (W2 m ρ c))

theorem W4_trace : (W4 m ρ c (Proc.devRef .tc main_v20) : S_.Idx → EReal)
    = Cert.Whiten.trace bcast_S_S64x64 reducesTo_S64x64_S_d0_1 h_S_ (sigK m ρ c) :=
  (v20_after2 (W3 m ρ c)).trans (congrArg _ (W3_sigma m ρ c))

theorem W4_mean : (W4 m ρ c (Proc.devRef .tc main_v5) : S64x1.Idx → EReal) = meanCol (sumsArr (V1 m ρ) c) := by
  refine (v5_after2 (W3 m ρ c)).trans ?_
  show StableHlo.after (Gen.hostOps1 (F := Ideal)) (W2 m ρ c) (Proc.devRef .tc main_v5) = _
  rw [v5_after1, W2_sums]

theorem W4_x3 : (W4 m ρ c (Proc.devRef .tc main_v0) : S64x64x12544.Idx → EReal)
    = shapeCast S64x64x12544 (inp m c) shapeCasts_S64x64x112x112_S64x64x12544 :=
  (v0_after2 (W3 m ρ c)).trans ((v0_after1 (W2 m ρ c)).trans ((W2_x3 m ρ c).trans (x3_eq m ρ c)))

/-- The whitening matrix buffer at the transform pass's entry. -/
theorem V5_wm : (V5 m ρ c main_v66 : S64x64.Idx → EReal) = wmK m ρ c := by
  show StableHlo.after (Gen.hostOps1_2 (F := Ideal)) (W4 m ρ c) (Proc.devRef .tc main_v66) = _
  rw [wm_after, W4_sigma, W4_eye, W4_trace, wmFrom_whitener]
  rfl

/-- The whitened-mean buffer at the transform pass's entry. -/
theorem V5_bias : (V5 m ρ c main_v67 : S64x1.Idx → EReal)
    = Host.dotGeneral dot_S64x64_S64x1_S64x1_1_0_0_1_n_n none (wmK m ρ c) (meanCol (sumsArr (V1 m ρ) c)) := by
  show StableHlo.after (Gen.hostOps1_2 (F := Ideal)) (W4 m ρ c) (Proc.devRef .tc main_v67) = _
  rw [bias_after, W4_sigma, W4_eye, W4_trace, wmFrom_whitener, W4_mean]
  rfl

/-- The reshaped input at the transform pass's entry. -/
theorem V5_x3 : (V5 m ρ c main_v0 : S64x64x12544.Idx → EReal)
    = shapeCast S64x64x12544 (inp m c) shapeCasts_S64x64x112x112_S64x64x12544 := by
  show StableHlo.after (Gen.hostOps1_2 (F := Ideal)) (W4 m ρ c) (Proc.devRef .tc main_v0) = _
  rw [v0_after, W4_x3]

/-- The whitened-mean column. -/
def biasK : S64x1.Idx → EReal := V5 m ρ c main_v67

/-- The whitened mean at channel ch. -/
theorem bias_apply (ch : Fin 64) :
    biasK m ρ c (ix2 ch (0 : Fin 1)) = ∑ k : Fin 64, wmK m ρ c (ix2 ch k) * Cert.Whiten.mean (inp m c) k := by
  unfold biasK
  rw [V5_bias, Cert.LibMatProd.hostDot_eq (a := 64) (k := 64) (n := 1) dot_S64x64_S64x1_S64x1_1_0_0_1_n_n
    (Cert.LibPlainDot.contr_rank _ rfl) (Cert.LibPlainDot.contr_size _ rfl)
    (fun a q => Cert.LibPlainDot.lhs_row _ rfl rfl a q) (fun a q => Cert.LibPlainDot.lhs_col _ rfl a q)
    (fun a q => Cert.LibPlainDot.rhs_row _ rfl rfl a q) (fun a q => Cert.LibPlainDot.rhs_col _ rfl rfl rfl rfl a q) none,
    Cert.LibMatProd.mm_ix2]
  exact Finset.sum_congr rfl fun k _ => by rw [mean_eq]

/-- The program's result at (b, ch, h, w). -/
theorem out_apply (b ch : Fin 64) (h w : Fin 112) :
    (W7 m ρ c (Proc.devRef .tc main_v69) : S64x64x112x112.Idx → EReal) (ix4 b ch h w)
      = Cert.Whiten.outU (wmK m ρ c) (inp m c) b ch
          ⟨h.val * 112 + w.val, by have := h.isLt; have := w.isLt; omega⟩ := by
  show StableHlo.after (Gen.hostOps2 (F := Ideal)) (W6 m ρ c) (Proc.devRef .tc main_v69) (ix4 b ch h w) = _
  rw [v69_after3]
  have hq : h.val * 112 + w.val < 12544 := by have := h.isLt; have := w.isLt; omega
  rw [shapeCast_apply _ _ (ix4 b ch h w) (ix3 b ch (⟨h.val * 112 + w.val, hq⟩ : Fin 12544)) (by
    rw [Shape.rowMajor_val_three, Shape.rowMajor_val_four]
    show (b.val * 64 + ch.val) * 12544 + (h.val * 112 + w.val) = ((b.val * 64 + ch.val) * 112 + h.val) * 112 + w.val
    omega)]
  have e6 : (W6 m ρ c (Proc.devRef .tc main_v68) : S64x64x12544.Idx → EReal)
      = applyOut (V5 m ρ c main_v0) (V5 m ρ c main_v66) (V5 m ρ c main_v67) :=
    (W6_arr m ρ c 3).trans (final3 (V5 m ρ) c)
  have hb := bias_apply m ρ c ch
  unfold biasK at hb
  rw [e6, applyOut_ix3, hb, V5_wm, V5_x3]
  unfold Cert.Whiten.outU
  refine congrArg (fun z : EReal => z - _) (Finset.sum_congr rfl fun k _ => ?_)
  rw [pix_of_reshape]

end Cert.KernelIdeal.Hand

end
-- ==== Proof.RefRun.lean ====
/-
  The reference program as one straight line of array operations.

  The program's entry function calls a function computing the trace of a matrix, which itself calls one that selects
  between two arrays by a mask. Each call runs the callee's body on the operands, so the whole program is one line of
  97 operations: the two bodies written out at their calls. The line is cut into named stretches — what
  comes before the trace, the trace, the scaling, five Newton–Schulz steps, and what follows — so that its value can be
  read stretch by stretch. Every weakly fair execution terminates, each buffer holding the fold of the operations'
  results over what it held at launch.
-/
import proofs.«119691_j51127290691774_2_alg».proof.ReferenceIdeal
import proofs.«119691_j51127290691774_2_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The flattened input, its row means, the centred array, the identity matrix, ε on the diagonal and the covariance matrix. -/
abbrev opsFront : List (HloOp τ sig (Elt F)) :=
  [ StableHlo.unary main_arg0 main_v0 ((transpose S64x64x112x112 [1, 0, 2, 3] · transposes_S64x64x112x112_S64x64x112x112_1_0_2_3) : (⟨S64x64x112x112, .f32⟩ : BufTy).Contents (Elt F) → (⟨S64x64x112x112, .f32⟩ : BufTy).Contents (Elt F)),
    StableHlo.reshape main_v0 main_v1 rfl shapeCasts_S64x64x112x112_S64x802816,
    StableHlo.nullary main_cst (constant S_ .f32 0x00000000#32),
    StableHlo.binary main_v1 main_cst main_v2 ((fun x v => Host.reduceAdd x v reducesTo_S64x802816_S64_d1 h_S_) : (⟨S64x802816, .f32⟩ : BufTy).Contents (Elt F) → (⟨S_, .f32⟩ : BufTy).Contents (Elt F) → (⟨S64, .f32⟩ : BufTy).Contents (Elt F)),
    StableHlo.unary main_v2 main_v3 (broadcastInDim S64x1 ![0] bcast_S64_S64x1_0 : (⟨S64, .f32⟩ : BufTy).Contents (Elt F) → (⟨S64x1, .f32⟩ : BufTy).Contents (Elt F)),
    StableHlo.nullary main_cst_0 (constant S_ .f32 0x49440000#32),
    StableHlo.unary main_cst_0 main_v4 (broadcastInDim S64x1 ![] bcast_S_S64x1 : (⟨S_, .f32⟩ : BufTy).Contents (Elt F) → (⟨S64x1, .f32⟩ : BufTy).Contents (Elt F)),
    StableHlo.binary main_v3 main_v4 main_v5 (Host.divf : (⟨S64x1, .f32⟩ : BufTy).Contents (Elt F) → (⟨S64x1, .f32⟩ : BufTy).Contents (Elt F) → (⟨S64x1, .f32⟩ : BufTy).Contents (Elt F)),
    StableHlo.unary main_v5 main_v6 (broadcastInDim S64x802816 ![0, 1] bcast_S64x1_S64x802816_0_1 : (⟨S64x1, .f32⟩ : BufTy).Contents (Elt F) → (⟨S64x802816, .f32⟩ : BufTy).Contents (Elt F)),
    StableHlo.binary main_v1 main_v6 main_v7 (subf : (⟨S64x802816, .f32⟩ : BufTy).Contents (Elt F) → (⟨S64x802816, .f32⟩ : BufTy).Contents (Elt F) → (⟨S64x802816, .f32⟩ : BufTy).Contents (Elt F)),
    StableHlo.nullary main_v8 (iotaInDim S64x64 32 0),
    StableHlo.nullary main_v9 (iotaInDim S64x64 32 1),
    StableHlo.nullary main_c (constantI S_ 32 0#32),
    StableHlo.unary main_c main_v10 (broadcastInDim S64x64 ![] bcast_S_S64x64 : (⟨S_, .i32⟩ : BufTy).Contents (Elt F) → (⟨S64x64, .i32⟩ : BufTy).Contents (Elt F)),
    StableHlo.binary main_v8 main_v10 main_v11 (addi : (⟨S64x64, .i32⟩ : BufTy).Contents (Elt F) → (⟨S64x64, .i32⟩ : BufTy).Contents (Elt F) → (⟨S64x64, .i32⟩ : BufTy).Contents (Elt F)),
    StableHlo.binary main_v11 main_v9 main_v12 (cmpi .eq : (⟨S64x64, .i32⟩ : BufTy).Contents (Elt F) → (⟨S64x64, .i32⟩ : BufTy).Contents (Elt F) → (⟨S64x64, .i1⟩ : BufTy).Contents (Elt F)),
    StableHlo.unary main_v12 main_v13 (uitofp .f32 : (⟨S64x64, .i1⟩ : BufTy).Contents (Elt F) → (⟨S64x64, .f32⟩ : BufTy).Contents (Elt F)),
    StableHlo.nullary main_cst_1 (constant S_ .f32 0x3727C5AC#32),
    StableHlo.unary main_cst_1 main_v14 (broadcastInDim S64x64 ![] bcast_S_S64x64 : (⟨S_, .f32⟩ : BufTy).Contents (Elt F) → (⟨S64x64, .f32⟩ : BufTy).Contents (Elt F)),
    StableHlo.binary main_v14 main_v13 main_v15 (mulf : (⟨S64x64, .f32⟩ : BufTy).Contents (Elt F) → (⟨S64x64, .f32⟩ : BufTy).Contents (Elt F) → (⟨S64x64, .f32⟩ : BufTy).Contents (Elt F)),
    StableHlo.unary main_v7 main_v16 ((transpose S802816x64 [1, 0] · transposes_S64x802816_S802816x64_1_0) : (⟨S64x802816, .f32⟩ : BufTy).Contents (Elt F) → (⟨S802816x64, .f32⟩ : BufTy).Contents (Elt F)),
    StableHlo.binary main_v7 main_v16 main_v17 ((fun l r => Host.dotGeneral dot_S64x802816_S802816x64_S64x64_1_0_0_1_n_n none l r) : (⟨S64x802816, .f32⟩ : BufTy).Contents (Elt F) → (⟨S802816x64, .f32⟩ : BufTy).Contents (Elt F) → (⟨S64x64, .f32⟩ : BufTy).Contents (Elt F)),
    StableHlo.nullary main_cst_2 (constant S_ .f32 0x49440000#32),
    StableHlo.unary main_cst_2 main_v18 (broadcastInDim S64x64 ![] bcast_S_S64x64 : (⟨S_, .f32⟩ : BufTy).Contents (Elt F) → (⟨S64x64, .f32⟩ : BufTy).Contents (Elt F)),
    StableHlo.binary main_v17 main_v18 main_v19 (Host.divf : (⟨S64x64, .f32⟩ : BufTy).Contents (Elt F) → (⟨S64x64, .f32⟩ : BufTy).Contents (Elt F) → (⟨S64x64, .f32⟩ : BufTy).Contents (Elt F)),
    StableHlo.binary main_v15 main_v19 main_v20 (addf : (⟨S64x64, .f32⟩ : BufTy).Contents (Elt F) → (⟨S64x64, .f32⟩ : BufTy).Contents (Elt F) → (⟨S64x64, .f32⟩ : BufTy).Contents (Elt F)) ]

theorem opsFront_sub : (opsFront : List (HloOp τ sig (Elt F))).Forall fun op => op.bufs ⊆ tcRefs τ sig :=
  ⟨unary_bufs_sub .., reshape_bufs_sub .., nullary_bufs_sub .., binary_bufs_sub .., unary_bufs_sub .., nullary_bufs_sub .., unary_bufs_sub .., binary_bufs_sub .., unary_bufs_sub .., binary_bufs_sub .., nullary_bufs_sub .., nullary_bufs_sub .., nullary_bufs_sub .., unary_bufs_sub .., binary_bufs_sub .., binary_bufs_sub .., unary_bufs_sub .., nullary_bufs_sub .., unary_bufs_sub .., binary_bufs_sub .., unary_bufs_sub .., binary_bufs_sub .., nullary_bufs_sub .., unary_bufs_sub .., binary_bufs_sub .., binary_bufs_sub ..⟩

/-- The trace of the covariance matrix: the diagonal mask, the masked entries, their sum. -/
abbrev opsTrace : List (HloOp τ sig (Elt F)) :=
  [ StableHlo.TRef.nullary (.of main_call0_v0 : StableHlo.TRef sig ⟨S64x64, .i32⟩) (iotaInDim S64x64 32 0),
    StableHlo.TRef.nullary (.of main_call0_v1 : StableHlo.TRef sig ⟨S64x64, .i32⟩) (iotaInDim S64x64 32 1),
    StableHlo.TRef.nullary (.of main_call0_c : StableHlo.TRef sig ⟨S_, .i32⟩) (constantI S_ 32 0#32),
    StableHlo.TRef.unary (.of main_call0_c : StableHlo.TRef sig ⟨S_, .i32⟩) (.of main_call0_v2 : StableHlo.TRef sig ⟨S64x64, .i32⟩) (broadcastInDim S64x64 ![] bcast_S_S64x64),
    StableHlo.TRef.binary (.of main_call0_v0 : StableHlo.TRef sig ⟨S64x64, .i32⟩) (.of main_call0_v2 : StableHlo.TRef sig ⟨S64x64, .i32⟩) (.of main_call0_v3 : StableHlo.TRef sig ⟨S64x64, .i32⟩) addi,
    StableHlo.TRef.binary (.of main_call0_v3 : StableHlo.TRef sig ⟨S64x64, .i32⟩) (.of main_call0_v1 : StableHlo.TRef sig ⟨S64x64, .i32⟩) (.of main_call0_v4 : StableHlo.TRef sig ⟨S64x64, .i1⟩) (cmpi .eq),
    StableHlo.TRef.nullary (.of main_call0_cst : StableHlo.TRef sig ⟨S_, .f32⟩) (constant S_ .f32 0x00000000#32),
    StableHlo.TRef.unary (.of main_call0_cst : StableHlo.TRef sig ⟨S_, .f32⟩) (.of main_call0_v5 : StableHlo.TRef sig ⟨S64x64, .f32⟩) (broadcastInDim S64x64 ![] bcast_S_S64x64),
    StableHlo.TRef.ternary (.of main_call0_v4 : StableHlo.TRef sig ⟨S64x64, .i1⟩) (.of main_v20 : StableHlo.TRef sig ⟨S64x64, .f32⟩) (.of main_call0_v5 : StableHlo.TRef sig ⟨S64x64, .f32⟩) (.of main_call0_v6 : StableHlo.TRef sig ⟨S64x64, .f32⟩) select,
    StableHlo.TRef.nullary (.of main_call0_cst_0 : StableHlo.TRef sig ⟨S_, .f32⟩) (constant S_ .f32 0x00000000#32),
    StableHlo.TRef.binary main_call0_call0.v0 (.of main_call0_cst_0 : StableHlo.TRef sig ⟨S_, .f32⟩) (.of main_v21 : StableHlo.TRef sig ⟨S_, .f32⟩) (fun x v => Host.reduceAdd x v reducesTo_S64x64_S_d0_1 h_S_) ]

theorem opsTrace_sub : (opsTrace : List (HloOp τ sig (Elt F))).Forall fun op => op.bufs ⊆ tcRefs τ sig :=
  ⟨nullary_bufs_sub .., nullary_bufs_sub .., nullary_bufs_sub .., unary_bufs_sub .., binary_bufs_sub .., binary_bufs_sub .., nullary_bufs_sub .., unary_bufs_sub .., ternary_bufs_sub .., nullary_bufs_sub .., binary_bufs_sub ..⟩

/-- The reciprocal r of the trace and the covariance matrix times r. -/
abbrev opsScale : List (HloOp τ sig (Elt F)) :=
  [ StableHlo.nullary main_cst_3 (constant S_ .f32 0x3F800000#32),
    StableHlo.binary main_cst_3 main_v21 main_v22 (Host.divf : (⟨S_, .f32⟩ : BufTy).Contents (Elt F) → (⟨S_, .f32⟩ : BufTy).Contents (Elt F) → (⟨S_, .f32⟩ : BufTy).Contents (Elt F)),
    StableHlo.unary main_v22 main_v23 (broadcastInDim S64x64 ![] bcast_S_S64x64 : (⟨S_, .f32⟩ : BufTy).Contents (Elt F) → (⟨S64x64, .f32⟩ : BufTy).Contents (Elt F)),
    StableHlo.binary main_v20 main_v23 main_v24 (mulf : (⟨S64x64, .f32⟩ : BufTy).Contents (Elt F) → (⟨S64x64, .f32⟩ : BufTy).Contents (Elt F) → (⟨S64x64, .f32⟩ : BufTy).Contents (Elt F)) ]

theorem opsScale_sub : (opsScale : List (HloOp τ sig (Elt F))).Forall fun op => op.bufs ⊆ tcRefs τ sig :=
  ⟨nullary_bufs_sub .., binary_bufs_sub .., unary_bufs_sub .., binary_bufs_sub ..⟩

/-- Newton–Schulz step 1: p ↦ 3/2 · p − 1/2 · ((p · p) · p) · (σ · r). -/
abbrev opsStep1 : List (HloOp τ sig (Elt F)) :=
  [ StableHlo.binary main_v13 main_v13 main_v25 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    StableHlo.binary main_v25 main_v13 main_v26 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    StableHlo.nullary main_cst_4 (constant S_ .f32 0x3FC00000#32),
    StableHlo.unary main_cst_4 main_v27 (broadcastInDim S64x64 ![] bcast_S_S64x64 : (⟨S_, .f32⟩ : BufTy).Contents (Elt F) → (⟨S64x64, .f32⟩ : BufTy).Contents (Elt F)),
    StableHlo.binary main_v27 main_v13 main_v28 (mulf : (⟨S64x64, .f32⟩ : BufTy).Contents (Elt F) → (⟨S64x64, .f32⟩ : BufTy).Contents (Elt F) → (⟨S64x64, .f32⟩ : BufTy).Contents (Elt F)),
    StableHlo.binary main_v26 main_v24 main_v29 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    StableHlo.nullary main_cst_5 (constant S_ .f32 0x3F000000#32),
    StableHlo.unary main_cst_5 main_v30 (broadcastInDim S64x64 ![] bcast_S_S64x64 : (⟨S_, .f32⟩ : BufTy).Contents (Elt F) → (⟨S64x64, .f32⟩ : BufTy).Contents (Elt F)),
    StableHlo.binary main_v30 main_v29 main_v31 (mulf : (⟨S64x64, .f32⟩ : BufTy).Contents (Elt F) → (⟨S64x64, .f32⟩ : BufTy).Contents (Elt F) → (⟨S64x64, .f32⟩ : BufTy).Contents (Elt F)),
    StableHlo.binary main_v28 main_v31 main_v32 (subf : (⟨S64x64, .f32⟩ : BufTy).Contents (Elt F) → (⟨S64x64, .f32⟩ : BufTy).Contents (Elt F) → (⟨S64x64, .f32⟩ : BufTy).Contents (Elt F)) ]

theorem opsStep1_sub : (opsStep1 : List (HloOp τ sig (Elt F))).Forall fun op => op.bufs ⊆ tcRefs τ sig :=
  ⟨binary_bufs_sub .., binary_bufs_sub .., nullary_bufs_sub .., unary_bufs_sub .., binary_bufs_sub .., binary_bufs_sub .., nullary_bufs_sub .., unary_bufs_sub .., binary_bufs_sub .., binary_bufs_sub ..⟩

/-- Newton–Schulz step 2: p ↦ 3/2 · p − 1/2 · ((p · p) · p) · (σ · r). -/
abbrev opsStep2 : List (HloOp τ sig (Elt F)) :=
  [ StableHlo.binary main_v32 main_v32 main_v33 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    StableHlo.binary main_v33 main_v32 main_v34 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    StableHlo.nullary main_cst_6 (constant S_ .f32 0x3FC00000#32),
    StableHlo.unary main_cst_6 main_v35 (broadcastInDim S64x64 ![] bcast_S_S64x64 : (⟨S_, .f32⟩ : BufTy).Contents (Elt F) → (⟨S64x64, .f32⟩ : BufTy).Contents (Elt F)),
    StableHlo.binary main_v35 main_v32 main_v36 (mulf : (⟨S64x64, .f32⟩ : BufTy).Contents (Elt F) → (⟨S64x64, .f32⟩ : BufTy).Contents (Elt F) → (⟨S64x64, .f32⟩ : BufTy).Contents (Elt F)),
    StableHlo.binary main_v34 main_v24 main_v37 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    StableHlo.nullary main_cst_7 (constant S_ .f32 0x3F000000#32),
    StableHlo.unary main_cst_7 main_v38 (broadcastInDim S64x64 ![] bcast_S_S64x64 : (⟨S_, .f32⟩ : BufTy).Contents (Elt F) → (⟨S64x64, .f32⟩ : BufTy).Contents (Elt F)),
    StableHlo.binary main_v38 main_v37 main_v39 (mulf : (⟨S64x64, .f32⟩ : BufTy).Contents (Elt F) → (⟨S64x64, .f32⟩ : BufTy).Contents (Elt F) → (⟨S64x64, .f32⟩ : BufTy).Contents (Elt F)),
    StableHlo.binary main_v36 main_v39 main_v40 (subf : (⟨S64x64, .f32⟩ : BufTy).Contents (Elt F) → (⟨S64x64, .f32⟩ : BufTy).Contents (Elt F) → (⟨S64x64, .f32⟩ : BufTy).Contents (Elt F)) ]

theorem opsStep2_sub : (opsStep2 : List (HloOp τ sig (Elt F))).Forall fun op => op.bufs ⊆ tcRefs τ sig :=
  ⟨binary_bufs_sub .., binary_bufs_sub .., nullary_bufs_sub .., unary_bufs_sub .., binary_bufs_sub .., binary_bufs_sub .., nullary_bufs_sub .., unary_bufs_sub .., binary_bufs_sub .., binary_bufs_sub ..⟩

/-- Newton–Schulz step 3: p ↦ 3/2 · p − 1/2 · ((p · p) · p) · (σ · r). -/
abbrev opsStep3 : List (HloOp τ sig (Elt F)) :=
  [ StableHlo.binary main_v40 main_v40 main_v41 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    StableHlo.binary main_v41 main_v40 main_v42 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    StableHlo.nullary main_cst_8 (constant S_ .f32 0x3FC00000#32),
    StableHlo.unary main_cst_8 main_v43 (broadcastInDim S64x64 ![] bcast_S_S64x64 : (⟨S_, .f32⟩ : BufTy).Contents (Elt F) → (⟨S64x64, .f32⟩ : BufTy).Contents (Elt F)),
    StableHlo.binary main_v43 main_v40 main_v44 (mulf : (⟨S64x64, .f32⟩ : BufTy).Contents (Elt F) → (⟨S64x64, .f32⟩ : BufTy).Contents (Elt F) → (⟨S64x64, .f32⟩ : BufTy).Contents (Elt F)),
    StableHlo.binary main_v42 main_v24 main_v45 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    StableHlo.nullary main_cst_9 (constant S_ .f32 0x3F000000#32),
    StableHlo.unary main_cst_9 main_v46 (broadcastInDim S64x64 ![] bcast_S_S64x64 : (⟨S_, .f32⟩ : BufTy).Contents (Elt F) → (⟨S64x64, .f32⟩ : BufTy).Contents (Elt F)),
    StableHlo.binary main_v46 main_v45 main_v47 (mulf : (⟨S64x64, .f32⟩ : BufTy).Contents (Elt F) → (⟨S64x64, .f32⟩ : BufTy).Contents (Elt F) → (⟨S64x64, .f32⟩ : BufTy).Contents (Elt F)),
    StableHlo.binary main_v44 main_v47 main_v48 (subf : (⟨S64x64, .f32⟩ : BufTy).Contents (Elt F) → (⟨S64x64, .f32⟩ : BufTy).Contents (Elt F) → (⟨S64x64, .f32⟩ : BufTy).Contents (Elt F)) ]

theorem opsStep3_sub : (opsStep3 : List (HloOp τ sig (Elt F))).Forall fun op => op.bufs ⊆ tcRefs τ sig :=
  ⟨binary_bufs_sub .., binary_bufs_sub .., nullary_bufs_sub .., unary_bufs_sub .., binary_bufs_sub .., binary_bufs_sub .., nullary_bufs_sub .., unary_bufs_sub .., binary_bufs_sub .., binary_bufs_sub ..⟩

/-- Newton–Schulz step 4: p ↦ 3/2 · p − 1/2 · ((p · p) · p) · (σ · r). -/
abbrev opsStep4 : List (HloOp τ sig (Elt F)) :=
  [ StableHlo.binary main_v48 main_v48 main_v49 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    StableHlo.binary main_v49 main_v48 main_v50 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    StableHlo.nullary main_cst_10 (constant S_ .f32 0x3FC00000#32),
    StableHlo.unary main_cst_10 main_v51 (broadcastInDim S64x64 ![] bcast_S_S64x64 : (⟨S_, .f32⟩ : BufTy).Contents (Elt F) → (⟨S64x64, .f32⟩ : BufTy).Contents (Elt F)),
    StableHlo.binary main_v51 main_v48 main_v52 (mulf : (⟨S64x64, .f32⟩ : BufTy).Contents (Elt F) → (⟨S64x64, .f32⟩ : BufTy).Contents (Elt F) → (⟨S64x64, .f32⟩ : BufTy).Contents (Elt F)),
    StableHlo.binary main_v50 main_v24 main_v53 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    StableHlo.nullary main_cst_11 (constant S_ .f32 0x3F000000#32),
    StableHlo.unary main_cst_11 main_v54 (broadcastInDim S64x64 ![] bcast_S_S64x64 : (⟨S_, .f32⟩ : BufTy).Contents (Elt F) → (⟨S64x64, .f32⟩ : BufTy).Contents (Elt F)),
    StableHlo.binary main_v54 main_v53 main_v55 (mulf : (⟨S64x64, .f32⟩ : BufTy).Contents (Elt F) → (⟨S64x64, .f32⟩ : BufTy).Contents (Elt F) → (⟨S64x64, .f32⟩ : BufTy).Contents (Elt F)),
    StableHlo.binary main_v52 main_v55 main_v56 (subf : (⟨S64x64, .f32⟩ : BufTy).Contents (Elt F) → (⟨S64x64, .f32⟩ : BufTy).Contents (Elt F) → (⟨S64x64, .f32⟩ : BufTy).Contents (Elt F)) ]

theorem opsStep4_sub : (opsStep4 : List (HloOp τ sig (Elt F))).Forall fun op => op.bufs ⊆ tcRefs τ sig :=
  ⟨binary_bufs_sub .., binary_bufs_sub .., nullary_bufs_sub .., unary_bufs_sub .., binary_bufs_sub .., binary_bufs_sub .., nullary_bufs_sub .., unary_bufs_sub .., binary_bufs_sub .., binary_bufs_sub ..⟩

/-- Newton–Schulz step 5: p ↦ 3/2 · p − 1/2 · ((p · p) · p) · (σ · r). -/
abbrev opsStep5 : List (HloOp τ sig (Elt F)) :=
  [ StableHlo.binary main_v56 main_v56 main_v57 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    StableHlo.binary main_v57 main_v56 main_v58 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    StableHlo.nullary main_cst_12 (constant S_ .f32 0x3FC00000#32),
    StableHlo.unary main_cst_12 main_v59 (broadcastInDim S64x64 ![] bcast_S_S64x64 : (⟨S_, .f32⟩ : BufTy).Contents (Elt F) → (⟨S64x64, .f32⟩ : BufTy).Contents (Elt F)),
    StableHlo.binary main_v59 main_v56 main_v60 (mulf : (⟨S64x64, .f32⟩ : BufTy).Contents (Elt F) → (⟨S64x64, .f32⟩ : BufTy).Contents (Elt F) → (⟨S64x64, .f32⟩ : BufTy).Contents (Elt F)),
    StableHlo.binary main_v58 main_v24 main_v61 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    StableHlo.nullary main_cst_13 (constant S_ .f32 0x3F000000#32),
    StableHlo.unary main_cst_13 main_v62 (broadcastInDim S64x64 ![] bcast_S_S64x64 : (⟨S_, .f32⟩ : BufTy).Contents (Elt F) → (⟨S64x64, .f32⟩ : BufTy).Contents (Elt F)),
    StableHlo.binary main_v62 main_v61 main_v63 (mulf : (⟨S64x64, .f32⟩ : BufTy).Contents (Elt F) → (⟨S64x64, .f32⟩ : BufTy).Contents (Elt F) → (⟨S64x64, .f32⟩ : BufTy).Contents (Elt F)),
    StableHlo.binary main_v60 main_v63 main_v64 (subf : (⟨S64x64, .f32⟩ : BufTy).Contents (Elt F) → (⟨S64x64, .f32⟩ : BufTy).Contents (Elt F) → (⟨S64x64, .f32⟩ : BufTy).Contents (Elt F)) ]

theorem opsStep5_sub : (opsStep5 : List (HloOp τ sig (Elt F))).Forall fun op => op.bufs ⊆ tcRefs τ sig :=
  ⟨binary_bufs_sub .., binary_bufs_sub .., nullary_bufs_sub .., unary_bufs_sub .., binary_bufs_sub .., binary_bufs_sub .., nullary_bufs_sub .., unary_bufs_sub .., binary_bufs_sub .., binary_bufs_sub ..⟩

/-- √r, the whitening matrix, its product with the centred array, and the result back in the input's arrangement. -/
abbrev opsTail : List (HloOp τ sig (Elt F)) :=
  [ StableHlo.unary main_v22 main_v65 (Host.sqrt : (⟨S_, .f32⟩ : BufTy).Contents (Elt F) → (⟨S_, .f32⟩ : BufTy).Contents (Elt F)),
    StableHlo.unary main_v65 main_v66 (broadcastInDim S64x64 ![] bcast_S_S64x64 : (⟨S_, .f32⟩ : BufTy).Contents (Elt F) → (⟨S64x64, .f32⟩ : BufTy).Contents (Elt F)),
    StableHlo.binary main_v64 main_v66 main_v67 (mulf : (⟨S64x64, .f32⟩ : BufTy).Contents (Elt F) → (⟨S64x64, .f32⟩ : BufTy).Contents (Elt F) → (⟨S64x64, .f32⟩ : BufTy).Contents (Elt F)),
    StableHlo.binary main_v67 main_v7 main_v68 ((fun l r => Host.dotGeneral dot_S64x64_S64x802816_S64x802816_1_0_0_1_n_n none l r) : (⟨S64x64, .f32⟩ : BufTy).Contents (Elt F) → (⟨S64x802816, .f32⟩ : BufTy).Contents (Elt F) → (⟨S64x802816, .f32⟩ : BufTy).Contents (Elt F)),
    StableHlo.reshape main_v68 main_v69 rfl shapeCasts_S64x802816_S64x64x112x112,
    StableHlo.unary main_v69 main_v70 ((transpose S64x64x112x112 [1, 0, 2, 3] · transposes_S64x64x112x112_S64x64x112x112_1_0_2_3) : (⟨S64x64x112x112, .f32⟩ : BufTy).Contents (Elt F) → (⟨S64x64x112x112, .f32⟩ : BufTy).Contents (Elt F)) ]

theorem opsTail_sub : (opsTail : List (HloOp τ sig (Elt F))).Forall fun op => op.bufs ⊆ tcRefs τ sig :=
  ⟨unary_bufs_sub .., unary_bufs_sub .., binary_bufs_sub .., binary_bufs_sub .., reshape_bufs_sub .., unary_bufs_sub ..⟩

/-- The whole line: the stretches in order. -/
abbrev ops : List (HloOp τ sig (Elt F)) :=
  opsFront ++ opsTrace ++ opsScale ++ opsStep1 ++ opsStep2 ++ opsStep3 ++ opsStep4 ++ opsStep5 ++ opsTail

/-- The entry function is that line: with the two called bodies unfolded at their calls and sequencing reassociated, both sides are the same chain of steps, by computation. -/
theorem main_eq (c : Dev nD) : main (F := F) c = seq ops := by
  rfl

theorem scopedRefs_eq : (Finset.univ.filter fun b : Ref sig .tc => b.isScoped) = ∅ := by decide
theorem scopedSems_eq : (Finset.univ.filter fun sm : SemLoc sig => sm.isScoped .tc) = ∅ := by decide

theorem forall_append {α : Type} {p : α → Prop} : ∀ {l₁ l₂ : List α}, l₁.Forall p → l₂.Forall p → (l₁ ++ l₂).Forall p
  | [], _, _, h₂ => h₂
  | a :: l₁, l₂, h₁, h₂ => by
    rw [List.cons_append, List.forall_cons] at *
    exact ⟨h₁.1, forall_append h₁.2 h₂⟩

/-- Every operation of the line touches TensorCore buffers only. -/
theorem ops_sub : (ops : List (HloOp τ sig (Elt F))).Forall fun op => op.bufs ⊆ tcRefs τ sig :=
  forall_append (forall_append (forall_append (forall_append (forall_append (forall_append (forall_append (forall_append (opsFront_sub) opsTrace_sub) opsScale_sub) opsStep1_sub) opsStep2_sub) opsStep3_sub) opsStep4_sub) opsStep5_sub) opsTail_sub

/-- No operation of the line allocates: each determines its results. -/
theorem ops_fresh : ∀ op ∈ (ops : List (HloOp τ sig (Elt F))), op.fresh = ∅ := by
  intro op h
  simp only [ops, opsFront, opsTrace, opsScale, opsStep1, opsStep2, opsStep3, opsStep4, opsStep5, opsTail, List.cons_append, List.nil_append, List.append_assoc, List.mem_cons, List.not_mem_nil, or_false] at h
  rcases h with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl <;> rfl

/-- On every device, for any float values, from any memory with zero counters: every weakly fair execution of the
    program terminates, and every final state has each buffer at the fold of the line over the launch contents. -/
theorem run_all (m : (ℓ : Loc nD τ sig) → Buf (Elt F) ℓ) (ρ : Dev nD → PrngReg) :
    θ_run (defs (F := F)) (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

end Cert.ReferenceIdeal.Hand

end
-- ==== Proof.LibMatChain.lean ====
/-
  General lemmas: products of matrices over the extended reals, and when they associate.

  On the extended reals a product does not distribute over a sum once an infinity is among the terms, so a chain of
  matrix products cannot be regrouped in general. It can when every entry is a real number: then each sum and each
  product is the coercion of the same expression over the reals, where the finite sums commute.

  * `IsReal`: an extended real that is the coercion of a real; `isReal_of_abs_lt_top`: one whose absolute value
    max x (-x) lies strictly below +∞ is such;
  * `coe_sum`: the coercion of a finite sum of reals is the sum of the coercions;
  * `sum_mul_sum_assoc`: for real families, Σ_k x k · (Σ_l A k l · B l) = Σ_l (Σ_k x k · A k l) · B l;
  * `matProd`: the product of an [a, k] by a [k, n] array as an [a, n] array, entry (p, j) the sum over q of
    x (p, q) · w (q, j); `matProd_assoc`: x · (A · B) = (x · A) · B when all three hold reals only;
  * `matProd_congr`: entry (p, j) reads only row p of the left factor and column j of the right one.
  Nothing here mentions a program: the extents are variables.
-/
import Idealize.ShloMosaic.Lib.ValueIdx
import Idealize.ShloMosaic.PureOps.Ideal.Laws

noncomputable section

namespace Cert.LibMatChain

open Idealize.ShloMosaic Idealize.ShloMosaic.ValueIdx

/-- An extended real that is a real number. -/
def IsReal (x : EReal) : Prop := ∃ r : ℝ, x = (r : EReal)

/-- An extended real whose absolute value, max x (-x), is strictly below +∞ is a real number: at either infinity the
    maximum is +∞. -/
theorem isReal_of_abs_lt_top {x : EReal} (h : max x (-x) < ⊤) : IsReal x := by
  induction x using EReal.rec with
  | bot => exact absurd h (by simp)
  | coe r => exact ⟨r, rfl⟩
  | top => exact absurd h (by simp)

/-- The coercion of a finite sum of reals is the sum of the coercions. -/
theorem coe_sum {ι : Type*} (s : Finset ι) (f : ι → ℝ) : ((∑ i ∈ s, f i : ℝ) : EReal) = ∑ i ∈ s, (f i : EReal) :=
  map_sum (⟨⟨Real.toEReal, EReal.coe_zero⟩, EReal.coe_add⟩ : ℝ →+ EReal) f s

/-- For families of reals, a vector times the column j of a product A · B is the vector times A, times that column of
    B: both are the double sum over (k, l) of x k · A k l · B l, taken over the reals. -/
theorem sum_mul_sum_assoc {κ ι : Type*} [Fintype κ] [Fintype ι] (x : κ → EReal) (A : κ → ι → EReal) (B : ι → EReal)
    (hx : ∀ k, IsReal (x k)) (hA : ∀ k l, IsReal (A k l)) (hB : ∀ l, IsReal (B l)) :
    ∑ k, x k * ∑ l, A k l * B l = ∑ l, (∑ k, x k * A k l) * B l := by
  choose x' hx' using hx
  choose A' hA' using hA
  choose B' hB' using hB
  simp only [hx', hA', hB', ← EReal.coe_mul, ← coe_sum]
  refine congrArg _ ?_
  simp only [Finset.mul_sum, Finset.sum_mul]
  rw [Finset.sum_comm]
  exact Finset.sum_congr rfl fun l _ => Finset.sum_congr rfl fun k _ => (mul_assoc _ _ _).symm

variable {a k l n : ℕ}

/-- The product of an [a, k] by a [k, n] array: entry (p, j) is the sum over q of x (p, q) · w (q, j). -/
def matProd (x : (⟨2, ![a, k]⟩ : Shape).Idx → EReal) (w : (⟨2, ![k, n]⟩ : Shape).Idx → EReal) :
    (⟨2, ![a, n]⟩ : Shape).Idx → EReal :=
  fun i => ∑ q : Fin k, x (ix2 (i 0) q) * w (ix2 q (i 1))

theorem matProd_ix2 (x : (⟨2, ![a, k]⟩ : Shape).Idx → EReal) (w : (⟨2, ![k, n]⟩ : Shape).Idx → EReal) (p : Fin a) (j : Fin n) :
    matProd x w (ix2 p j) = ∑ q : Fin k, x (ix2 p q) * w (ix2 q j) := rfl

/-- Entry (p, j) of a product reads only row p of the left factor and column j of the right one. -/
theorem matProd_congr {a' : ℕ} (X : (⟨2, ![a, k]⟩ : Shape).Idx → EReal) (W : (⟨2, ![k, n]⟩ : Shape).Idx → EReal)
    (x : (⟨2, ![a', k]⟩ : Shape).Idx → EReal) (w : (⟨2, ![k, n]⟩ : Shape).Idx → EReal) (p : Fin a') (p' : Fin a) (j : Fin n)
    (hx : ∀ q : Fin k, x (ix2 p q) = X (ix2 p' q)) (hw : ∀ q : Fin k, w (ix2 q j) = W (ix2 q j)) :
    matProd x w (ix2 p j) = matProd X W (ix2 p' j) := by
  rw [matProd_ix2, matProd_ix2]
  exact Finset.sum_congr rfl fun q _ => by rw [hx q, hw q]

/-- Three arrays of reals: x · (A · B) = (x · A) · B. -/
theorem matProd_assoc (x : (⟨2, ![a, k]⟩ : Shape).Idx → EReal) (A : (⟨2, ![k, l]⟩ : Shape).Idx → EReal)
    (B : (⟨2, ![l, n]⟩ : Shape).Idx → EReal) (hx : ∀ i, IsReal (x i)) (hA : ∀ i, IsReal (A i)) (hB : ∀ i, IsReal (B i)) :
    matProd x (matProd A B) = matProd (matProd x A) B := by
  funext i
  obtain ⟨p, j, rfl⟩ : ∃ (p : Fin a) (j : Fin n), i = ix2 p j := ⟨i 0, i 1, eq_ix2 i⟩
  rw [matProd_ix2, matProd_ix2]
  simp only [matProd_ix2]
  exact sum_mul_sum_assoc (fun q => x (ix2 p q)) (fun q r => A (ix2 q r)) (fun r => B (ix2 r j))
    (fun q => hx _) (fun q r => hA _) (fun r => hB _)

end Cert.LibMatChain

end
-- ==== Proof.RefValue.lean ====
/-
  The value of the reference program.

  The program flattens the input to one row per channel, subtracts each row's mean, forms the covariance matrix of the
  centred rows plus ε on the diagonal, passes it through the trace, the scaling and five Newton–Schulz steps to the
  whitening matrix, multiplies the centred rows by that matrix and puts the result back in the input's arrangement.
  Its line of operations is evaluated stretch by stretch: each stretch is read over an arbitrary incoming assignment
  of contents to buffers, as one named function of the few buffers it reads, and the buffers a later stretch still
  reads are shown to pass through it unchanged. Read at an index, the covariance matrix is the one of centred pixels
  and the result is the whitened centred pixel.
-/
import proofs.«119691_j51127290691774_2_alg».proof.Proof.RefRun
import proofs.«119691_j51127290691774_2_alg».proof.Proof.Spec
import proofs.«119691_j51127290691774_2_alg».proof.Proof.LibMatChain
import proofs.«119691_j51127290691774_2_alg».proof.Proof.LibBroadcastRead
import proofs.«119691_j51127290691774_2_alg».proof.Proof.LibBlockSum
import proofs.«119691_j51127290691774_2_alg».proof.Proof.LibMatProd
import proofs.«119691_j51127290691774_2_alg».proof.Proof.LibPlainDot

noncomputable section

namespace Cert.ReferenceIdeal.Hand

open Cert.ReferenceIdeal Cert.ReferenceIdeal.Gen Idealize.ShloMosaic Idealize.ShloMosaic.TcCoe Idealize.SL.Sem Idealize.ShloMosaic.StableHlo
open Idealize.ShloMosaic.ValueIdx

/-! ## The shape facts the matrix stretch cites, as the program states them -/

abbrev bcR : Cert.Whiten.Sc.BroadcastsInDim Cert.Whiten.M (![] : Fin 0 → Fin Cert.Whiten.M.rank) := bcast_S_S64x64
abbrev redR : Cert.Whiten.M.ReducesTo [0, 1] Cert.Whiten.Sc := reducesTo_S64x64_S_d0_1
abbrev posR : 0 < Cert.Whiten.Sc.numel := h_S_
abbrev DR : DotDims Cert.Whiten.M Cert.Whiten.M Cert.Whiten.M := dot_S64x64_S64x64_S64x64_1_0_0_1_n_n

/-! ## The program's value, in named pieces -/

/-- One row per channel: the channel axis first, then images, rows and columns flattened. -/
def xflat (x : FVec Ideal S64x64x112x112 .f32) : FVec Ideal S64x802816 .f32 :=
  shapeCast S64x802816 (transpose S64x64x112x112 [1, 0, 2, 3] x transposes_S64x64x112x112_S64x64x112x112_1_0_2_3)
    shapeCasts_S64x64x112x112_S64x802816

/-- The row sums, from zero. -/
def rowSum (x : FVec Ideal S64x64x112x112 .f32) : FVec Ideal S64 .f32 :=
  Host.reduceAdd (xflat x) (constant (F := Ideal) S_ .f32 0x00000000#32) reducesTo_S64x802816_S64_d1 h_S_

/-- The row means as a column: each row sum divided by the number of entries of a row. -/
def meanCol (x : FVec Ideal S64x64x112x112 .f32) : FVec Ideal S64x1 .f32 :=
  Host.divf (broadcastInDim S64x1 ![0] bcast_S64_S64x1_0 (rowSum x))
    (broadcastInDim S64x1 ![] bcast_S_S64x1 (constant (F := Ideal) S_ .f32 0x49440000#32))

/-- Each row minus its mean. -/
def centred (x : FVec Ideal S64x64x112x112 .f32) : FVec Ideal S64x802816 .f32 :=
  subf (xflat x) (broadcastInDim S64x802816 ![0, 1] bcast_S64x1_S64x802816_0_1 (meanCol x))

/-- The centred rows times their transpose, divided by the number of entries of a row. -/
def covRef (x : FVec Ideal S64x64x112x112 .f32) : FVec Ideal S64x64 .f32 :=
  Host.divf (Host.dotGeneral dot_S64x802816_S802816x64_S64x64_1_0_0_1_n_n none (centred x)
      (transpose S802816x64 [1, 0] (centred x) transposes_S64x802816_S802816x64_1_0))
    (broadcastInDim S64x64 ![] bcast_S_S64x64 (constant (F := Ideal) S_ .f32 0x49440000#32))

/-- The covariance matrix: ε on the diagonal plus the scaled product. -/
def sigmaRef (x : FVec Ideal S64x64x112x112 .f32) : FVec Ideal S64x64 .f32 :=
  addf (Cert.Whiten.epsEye bcR) (covRef x)

/-- The whitening matrix of that covariance matrix. -/
def wmRef (x : FVec Ideal S64x64x112x112 .f32) : FVec Ideal S64x64 .f32 :=
  Cert.Whiten.whitener bcR redR posR DR (sigmaRef x)

/-- The whitening matrix times the centred rows. -/
def prod (x : FVec Ideal S64x64x112x112 .f32) : FVec Ideal S64x802816 .f32 :=
  Host.dotGeneral dot_S64x64_S64x802816_S64x802816_1_0_0_1_n_n none (wmRef x) (centred x)

/-- The result: the product back in the input's arrangement. -/
def outRef (x : FVec Ideal S64x64x112x112 .f32) : FVec Ideal S64x64x112x112 .f32 :=
  transpose S64x64x112x112 [1, 0, 2, 3] (shapeCast S64x64x112x112 (prod x) shapeCasts_S64x802816_S64x64x112x112)
    transposes_S64x64x112x112_S64x64x112x112_1_0_2_3

/-! ## The line, stretch by stretch -/

/-- Two lines one after the other fold as the second over the first's fold. -/
theorem after_append (l₁ l₂ : List (HloOp τ sig (Elt Ideal))) (V : Valuation τ sig (Elt Ideal)) :
    after (l₁ ++ l₂) V = after l₂ (after l₁ V) := by
  induction l₁ generalizing V with
  | nil => rfl
  | cons op l ih => simp only [List.cons_append, after_cons, ih]

section Stretches

variable (W : Valuation τ sig (Elt Ideal))

/-! Before the trace: the covariance matrix, the centred rows, the identity matrix. -/

theorem front_v20 : after opsFront W (main_v20 : DevRef τ sig) = sigmaRef (W (main_arg0 : DevRef τ sig)) := by
  after_results_simp
  rfl
theorem front_v7 : after opsFront W (main_v7 : DevRef τ sig) = centred (W (main_arg0 : DevRef τ sig)) := by
  after_results_simp
  rfl
theorem front_v13 : after opsFront W (main_v13 : DevRef τ sig) = Cert.Whiten.eye bcR := by
  after_results_simp
  rfl
theorem front_keep_arg0 : after opsFront W (main_arg0 : DevRef τ sig) = W (main_arg0 : DevRef τ sig) := by
  after_results_simp

/-! The trace of whatever matrix the stretch finds. -/

theorem trace_v21 : after opsTrace W (main_v21 : DevRef τ sig) = Cert.Whiten.trace bcR redR posR (W (main_v20 : DevRef τ sig)) := by
  after_results_simp
  rfl
theorem trace_keep_v20 : after opsTrace W (main_v20 : DevRef τ sig) = W (main_v20 : DevRef τ sig) := by
  after_results_simp
theorem trace_keep_v7 : after opsTrace W (main_v7 : DevRef τ sig) = W (main_v7 : DevRef τ sig) := by
  after_results_simp
theorem trace_keep_v13 : after opsTrace W (main_v13 : DevRef τ sig) = W (main_v13 : DevRef τ sig) := by
  after_results_simp
theorem trace_keep_arg0 : after opsTrace W (main_arg0 : DevRef τ sig) = W (main_arg0 : DevRef τ sig) := by
  after_results_simp

/-! The reciprocal of the trace and the scaled matrix. -/

theorem scale_v22 : after opsScale W (main_v22 : DevRef τ sig) = Host.divf (Cert.Whiten.word 0x3F800000#32) (W (main_v21 : DevRef τ sig)) := by
  after_results_simp
  rfl
theorem scale_v24 : after opsScale W (main_v24 : DevRef τ sig) = mulf (W (main_v20 : DevRef τ sig)) (Cert.Whiten.spread bcR (Host.divf (Cert.Whiten.word 0x3F800000#32) (W (main_v21 : DevRef τ sig)))) := by
  after_results_simp
  rfl
theorem scale_keep_v7 : after opsScale W (main_v7 : DevRef τ sig) = W (main_v7 : DevRef τ sig) := by
  after_results_simp
theorem scale_keep_v13 : after opsScale W (main_v13 : DevRef τ sig) = W (main_v13 : DevRef τ sig) := by
  after_results_simp
theorem scale_keep_arg0 : after opsScale W (main_arg0 : DevRef τ sig) = W (main_arg0 : DevRef τ sig) := by
  after_results_simp

/-! The five steps: each reads the previous iterate and the scaled matrix. -/

theorem step1_out : after opsStep1 W (main_v32 : DevRef τ sig) = Cert.Whiten.step bcR DR (W (main_v13 : DevRef τ sig)) (W (main_v24 : DevRef τ sig)) := by
  after_results_simp
  rfl
theorem step1_keep_v24 : after opsStep1 W (main_v24 : DevRef τ sig) = W (main_v24 : DevRef τ sig) := by
  after_results_simp
theorem step1_keep_v22 : after opsStep1 W (main_v22 : DevRef τ sig) = W (main_v22 : DevRef τ sig) := by
  after_results_simp
theorem step1_keep_v7 : after opsStep1 W (main_v7 : DevRef τ sig) = W (main_v7 : DevRef τ sig) := by
  after_results_simp
theorem step1_keep_arg0 : after opsStep1 W (main_arg0 : DevRef τ sig) = W (main_arg0 : DevRef τ sig) := by
  after_results_simp
theorem step2_out : after opsStep2 W (main_v40 : DevRef τ sig) = Cert.Whiten.step bcR DR (W (main_v32 : DevRef τ sig)) (W (main_v24 : DevRef τ sig)) := by
  after_results_simp
  rfl
theorem step2_keep_v24 : after opsStep2 W (main_v24 : DevRef τ sig) = W (main_v24 : DevRef τ sig) := by
  after_results_simp
theorem step2_keep_v22 : after opsStep2 W (main_v22 : DevRef τ sig) = W (main_v22 : DevRef τ sig) := by
  after_results_simp
theorem step2_keep_v7 : after opsStep2 W (main_v7 : DevRef τ sig) = W (main_v7 : DevRef τ sig) := by
  after_results_simp
theorem step2_keep_arg0 : after opsStep2 W (main_arg0 : DevRef τ sig) = W (main_arg0 : DevRef τ sig) := by
  after_results_simp
theorem step3_out : after opsStep3 W (main_v48 : DevRef τ sig) = Cert.Whiten.step bcR DR (W (main_v40 : DevRef τ sig)) (W (main_v24 : DevRef τ sig)) := by
  after_results_simp
  rfl
theorem step3_keep_v24 : after opsStep3 W (main_v24 : DevRef τ sig) = W (main_v24 : DevRef τ sig) := by
  after_results_simp
theorem step3_keep_v22 : after opsStep3 W (main_v22 : DevRef τ sig) = W (main_v22 : DevRef τ sig) := by
  after_results_simp
theorem step3_keep_v7 : after opsStep3 W (main_v7 : DevRef τ sig) = W (main_v7 : DevRef τ sig) := by
  after_results_simp
theorem step3_keep_arg0 : after opsStep3 W (main_arg0 : DevRef τ sig) = W (main_arg0 : DevRef τ sig) := by
  after_results_simp
theorem step4_out : after opsStep4 W (main_v56 : DevRef τ sig) = Cert.Whiten.step bcR DR (W (main_v48 : DevRef τ sig)) (W (main_v24 : DevRef τ sig)) := by
  after_results_simp
  rfl
theorem step4_keep_v24 : after opsStep4 W (main_v24 : DevRef τ sig) = W (main_v24 : DevRef τ sig) := by
  after_results_simp
theorem step4_keep_v22 : after opsStep4 W (main_v22 : DevRef τ sig) = W (main_v22 : DevRef τ sig) := by
  after_results_simp
theorem step4_keep_v7 : after opsStep4 W (main_v7 : DevRef τ sig) = W (main_v7 : DevRef τ sig) := by
  after_results_simp
theorem step4_keep_arg0 : after opsStep4 W (main_arg0 : DevRef τ sig) = W (main_arg0 : DevRef τ sig) := by
  after_results_simp
theorem step5_out : after opsStep5 W (main_v64 : DevRef τ sig) = Cert.Whiten.step bcR DR (W (main_v56 : DevRef τ sig)) (W (main_v24 : DevRef τ sig)) := by
  after_results_simp
  rfl
theorem step5_keep_v24 : after opsStep5 W (main_v24 : DevRef τ sig) = W (main_v24 : DevRef τ sig) := by
  after_results_simp
theorem step5_keep_v22 : after opsStep5 W (main_v22 : DevRef τ sig) = W (main_v22 : DevRef τ sig) := by
  after_results_simp
theorem step5_keep_v7 : after opsStep5 W (main_v7 : DevRef τ sig) = W (main_v7 : DevRef τ sig) := by
  after_results_simp
theorem step5_keep_arg0 : after opsStep5 W (main_arg0 : DevRef τ sig) = W (main_arg0 : DevRef τ sig) := by
  after_results_simp

/-! After the steps: the last iterate times √r, times the centred rows, rearranged. -/

theorem tail_v70 : after opsTail W (main_v70 : DevRef τ sig) = transpose S64x64x112x112 [1, 0, 2, 3] (shapeCast S64x64x112x112
      (Host.dotGeneral (φ₁ := .f32) (φ₂ := .f32) dot_S64x64_S64x802816_S64x802816_1_0_0_1_n_n none
        (mulf (W (main_v64 : DevRef τ sig) : FVec Ideal S64x64 .f32) (Cert.Whiten.spread bcR (Host.sqrt (W (main_v22 : DevRef τ sig) : FVec Ideal S_ .f32))))
        (W (main_v7 : DevRef τ sig) : FVec Ideal S64x802816 .f32))
      shapeCasts_S64x802816_S64x64x112x112) transposes_S64x64x112x112_S64x64x112x112_1_0_2_3 := by
  after_results_simp
  rfl
theorem tail_keep_arg0 : after opsTail W (main_arg0 : DevRef τ sig) = W (main_arg0 : DevRef τ sig) := by
  after_results_simp

end Stretches

/-! ## Read at an index -/

section Index

/-- The reduced index k of an [a, b] array with column p put back on axis 1 is (k, p). -/
theorem lift_second2 {a b : ℕ} (h : (⟨2, ![a, b]⟩ : Shape).Reduces [1] (⟨1, ![a]⟩ : Shape)) (k : Fin a)
    (p : Fin ((⟨2, ![a, b]⟩ : Shape).size 1)) : h.lift (ix1 k) p = ix2 k (⟨p.val, p.isLt⟩ : Fin b) := by
  funext ax; apply Fin.ext
  fin_cases ax <;> rfl

/-- A sum over the 802816 positions of a row, cut into the 64 images' blocks of 12544 pixels. -/
theorem sum_rows (f : Fin 802816 → EReal) :
    ∑ n : Fin 802816, f n
      = ∑ b : Fin 64, ∑ q : Fin 12544, f ⟨b.val * 12544 + q.val, by have := b.isLt; have := q.isLt; omega⟩ := by
  have h1 : ∑ n : Fin 802816, f n = ∑ n : Fin (64 * 12544), (fun n => if h : n < 802816 then f ⟨n, h⟩ else 0) n.val :=
    Finset.sum_congr rfl fun n _ => by
      show f n = if h : n.val < 802816 then f ⟨n.val, h⟩ else 0
      rw [dif_pos n.isLt]
  have h2 : ∑ b : Fin 64, ∑ q : Fin 12544, f ⟨b.val * 12544 + q.val, by have := b.isLt; have := q.isLt; omega⟩
      = ∑ s ∈ Finset.range 64, ∑ k : Fin 12544, (fun n => if h : n < 802816 then f ⟨n, h⟩ else 0) (s * 12544 + k.val) := by
    rw [← Fin.sum_univ_eq_sum_range (fun s => ∑ k : Fin 12544, (fun n => if h : n < 802816 then f ⟨n, h⟩ else 0) (s * 12544 + k.val)) 64]
    exact Finset.sum_congr rfl fun b _ => Finset.sum_congr rfl fun q _ => by
      have hlt : b.val * 12544 + q.val < 802816 := by have := b.isLt; have := q.isLt; omega
      show f ⟨b.val * 12544 + q.val, _⟩ = if h : b.val * 12544 + q.val < 802816 then f ⟨b.val * 12544 + q.val, h⟩ else 0
      rw [dif_pos hlt]
  rw [h1, h2]
  exact (Cert.LibBlockSum.sum_fin_blocks (fun n => if h : n < 802816 then f ⟨n, h⟩ else 0) 64 12544).symm

/-- A [64] array laid out as a [64, 1] column reads, at (i, 0), its entry i. -/
theorem bcast_col_apply (v : FVec Ideal S64 .f32) (i : Fin 64) :
    broadcastInDim S64x1 ![0] bcast_S64_S64x1_0 v (ix2 i (0 : Fin 1)) = v (ix1 i) := by
  refine broadcastInDim_apply ![0] bcast_S64_S64x1_0 v (ix2 i (0 : Fin 1)) (ix1 i) fun ax => ?_
  match ax with
  | ⟨0, _⟩ =>
    show i.val = if (64 : ℕ) = 1 then 0 else i.val
    rw [if_neg (by norm_num)]

/-- The transpose of a [64, 802816] array reads, at (n, j), the operand at (j, n). -/
theorem transpose_rows_apply (v : FVec Ideal S64x802816 .f32) (n : Fin 802816) (j : Fin 64) :
    transpose S802816x64 [1, 0] v transposes_S64x802816_S802816x64_1_0 (ix2 n j) = v (ix2 j n) :=
  transpose_apply _ _ _ _ (ix2 j n) (fun bb => by fin_cases bb <;> rfl)

/-- The product of the centred rows by their transpose is the plain matrix product. -/
theorem dot1_eq (L : FVec Ideal S64x802816 .f32) (R : FVec Ideal S802816x64 .f32) :
    Host.dotGeneral dot_S64x802816_S802816x64_S64x64_1_0_0_1_n_n none L R = Cert.LibMatProd.mm L R :=
  Cert.LibMatProd.hostDot_eq _ (Cert.LibPlainDot.contr_rank _ rfl) (Cert.LibPlainDot.contr_size _ rfl)
    (Cert.LibPlainDot.lhs_row _ rfl rfl) (Cert.LibPlainDot.lhs_col _ rfl) (Cert.LibPlainDot.rhs_row _ rfl rfl)
    (Cert.LibPlainDot.rhs_col _ rfl rfl rfl rfl) none L R

/-- The product of a 64 × 64 matrix by the centred rows is the plain matrix product. -/
theorem dot3_eq (L : FVec Ideal S64x64 .f32) (R : FVec Ideal S64x802816 .f32) :
    Host.dotGeneral dot_S64x64_S64x802816_S64x802816_1_0_0_1_n_n none L R = Cert.LibMatProd.mm L R :=
  Cert.LibMatProd.hostDot_eq _ (Cert.LibPlainDot.contr_rank _ rfl) (Cert.LibPlainDot.contr_size _ rfl)
    (Cert.LibPlainDot.lhs_row _ rfl rfl) (Cert.LibPlainDot.lhs_col _ rfl) (Cert.LibPlainDot.rhs_row _ rfl rfl)
    (Cert.LibPlainDot.rhs_col _ rfl rfl rfl rfl) none L R

variable (x : FVec Ideal S64x64x112x112 .f32)

/-- Row i of the flattened input at position 12544 · b + q is pixel q of channel i of image b. -/
theorem xflat_apply (i b : Fin 64) (q : Fin 12544) :
    xflat x (ix2 i (⟨b.val * 12544 + q.val, by have := b.isLt; have := q.isLt; omega⟩ : Fin 802816))
      = Cert.Whiten.pix x b i q := by
  have hh : q.val / 112 < 112 := by have := q.isLt; omega
  have hw : q.val % 112 < 112 := Nat.mod_lt _ (by norm_num)
  unfold xflat Cert.Whiten.pix
  refine (shapeCast_apply _ _ _ (ix4 i b (⟨q.val / 112, hh⟩ : Fin 112) (⟨q.val % 112, hw⟩ : Fin 112)) ?_).trans ?_
  · rw [Shape.rowMajor_val_four, Shape.rowMajor_val_two]
    show ((i.val * 64 + b.val) * 112 + q.val / 112) * 112 + q.val % 112 = i.val * 802816 + (b.val * 12544 + q.val)
    have := Nat.div_add_mod q.val 112
    omega
  · exact transpose_apply _ _ _ _ (ix4 b i (⟨q.val / 112, hh⟩ : Fin 112) (⟨q.val % 112, hw⟩ : Fin 112))
      (fun bb => by fin_cases bb <;> rfl)

/-- The sum of row i, from zero, is the sum over its 802816 entries. -/
theorem rowSum_apply (i : Fin 64) : rowSum x (ix1 i) = ∑ n : Fin 802816, xflat x (ix2 i n) := by
  have h' : S64x802816.ReducesTo [1] S64 := reducesTo_S64x802816_S64_d1
  have h : S64x802816.Reduces [1] S64 := ⟨h'.1, Nat.one_pos, h'.2⟩
  show Ideal.hostReduceAdd h' (xflat x) (constant (F := Ideal) S_ .f32 0x00000000#32 (Shape.Idx.first h_S_)) (ix1 i) = _
  rw [Ideal.hostReduceAdd_single h' h, constant_apply, Ideal.ofBits_zero_f32, zero_add]
  exact Finset.sum_congr rfl fun p _ => congrArg (xflat x) (lift_second2 h i p)

/-- Entry i of the column of means is the mean of channel i. -/
theorem meanCol_apply (i : Fin 64) : meanCol x (ix2 i (0 : Fin 1)) = Cert.Whiten.mean x i := by
  show Ideal.div (broadcastInDim S64x1 ![0] bcast_S64_S64x1_0 (rowSum x) (ix2 i (0 : Fin 1)))
      (broadcastInDim S64x1 ![] bcast_S_S64x1 (constant (F := Ideal) S_ .f32 0x49440000#32) (ix2 i (0 : Fin 1))) = _
  rw [bcast_col_apply, Cert.LibBroadcastRead.broadcastInDim_scalar_apply, constant_apply, rowSum_apply, sum_rows]
  unfold Cert.Whiten.mean Cert.Whiten.count
  exact congrArg (Ideal.div · _) (Finset.sum_congr rfl fun b _ => Finset.sum_congr rfl fun q _ => xflat_apply x i b q)

/-- Row i of the centred array at position 12544 · b + q is the pixel minus the channel's mean. -/
theorem centred_apply (i b : Fin 64) (q : Fin 12544) :
    centred x (ix2 i (⟨b.val * 12544 + q.val, by have := b.isLt; have := q.isLt; omega⟩ : Fin 802816))
      = Cert.Whiten.pix x b i q - Cert.Whiten.mean x i := by
  show xflat x _ - broadcastInDim S64x802816 ![0, 1] bcast_S64x1_S64x802816_0_1 (meanCol x) _ = _
  rw [Cert.LibBroadcastRead.broadcastInDim_a1_ab_apply, xflat_apply, meanCol_apply]

/-- The program's covariance matrix is the covariance matrix of centred pixels. -/
theorem sigmaRef_eq : sigmaRef x = Cert.Whiten.sigmaC bcR x := by
  funext ij
  obtain ⟨i, j, rfl⟩ : ∃ (i j : Fin 64), ij = ix2 i j := ⟨ij 0, ij 1, eq_ix2 ij⟩
  rw [Cert.Whiten.sigmaC_ix2]
  unfold Cert.Whiten.sigmaCAt Cert.Whiten.count
  show Cert.Whiten.epsEye bcR (ix2 i j)
      + Ideal.div (Host.dotGeneral dot_S64x802816_S802816x64_S64x64_1_0_0_1_n_n none (centred x)
            (transpose S802816x64 [1, 0] (centred x) transposes_S64x802816_S802816x64_1_0) (ix2 i j))
          (broadcastInDim S64x64 ![] bcast_S_S64x64 (constant (F := Ideal) S_ .f32 0x49440000#32) (ix2 i j)) = _
  rw [dot1_eq, Cert.LibMatProd.mm_ix2, Cert.LibBroadcastRead.broadcastInDim_scalar_apply, constant_apply, sum_rows]
  refine congrArg (fun s => Cert.Whiten.epsEye bcR (ix2 i j) + Ideal.div s _) ?_
  exact Finset.sum_congr rfl fun b _ => Finset.sum_congr rfl fun q _ => by
    rw [centred_apply, transpose_rows_apply, centred_apply]

/-- The program's result at (b, c, h, w) is the whitened centred pixel 112 · h + w of channel c of image b. -/
theorem outRef_apply (b c : Fin 64) (h w : Fin 112) :
    outRef x (ix4 b c h w)
      = Cert.Whiten.outC (Cert.Whiten.whitener bcR redR posR DR (Cert.Whiten.sigmaC bcR x)) x b c
          ⟨h.val * 112 + w.val, by have := h.isLt; have := w.isLt; omega⟩ := by
  have hq : h.val * 112 + w.val < 12544 := by have := h.isLt; have := w.isLt; omega
  unfold outRef
  rw [transpose_apply _ _ _ _ (ix4 c b h w) (fun bb => by fin_cases bb <;> rfl)]
  rw [shapeCast_apply _ _ _ (ix2 c (⟨b.val * 12544 + (h.val * 112 + w.val), by have := b.isLt; omega⟩ : Fin 802816)) (by
    rw [Shape.rowMajor_val_two, Shape.rowMajor_val_four]
    show c.val * 802816 + (b.val * 12544 + (h.val * 112 + w.val)) = ((c.val * 64 + b.val) * 112 + h.val) * 112 + w.val
    omega)]
  unfold prod
  rw [dot3_eq, Cert.LibMatProd.mm_ix2]
  unfold Cert.Whiten.outC wmRef
  rw [sigmaRef_eq]
  exact Finset.sum_congr rfl fun k _ => by
    rw [centred_apply x k b ⟨h.val * 112 + w.val, hq⟩]

end Index

/-! ## The whole line -/

/-- The result buffer after the line holds the named value of the input. -/
theorem out_eq (V : Valuation τ sig (Elt Ideal)) :
    after ops V (main_v70 : DevRef τ sig) = outRef (V (main_arg0 : DevRef τ sig)) := by
  simp only [ops, after_append]
  rw [tail_v70, step5_out, step5_keep_v22, step5_keep_v7, step4_out, step4_keep_v22, step4_keep_v7, step4_keep_v24, step3_out, step3_keep_v22, step3_keep_v7, step3_keep_v24, step2_out, step2_keep_v22, step2_keep_v7, step2_keep_v24, step1_out, step1_keep_v22, step1_keep_v7, step1_keep_v24, scale_v24, scale_v22, scale_keep_v7, scale_keep_v13, trace_v21, trace_keep_v20, trace_keep_v7, trace_keep_v13, front_v20, front_v7, front_v13]
  rfl

/-- The input buffer is not written. -/
theorem arg0_eq (V : Valuation τ sig (Elt Ideal)) :
    after ops V (main_arg0 : DevRef τ sig) = V (main_arg0 : DevRef τ sig) := by
  simp only [ops, after_append]
  rw [tail_keep_arg0, step5_keep_arg0, step4_keep_arg0, step3_keep_arg0, step2_keep_arg0, step1_keep_arg0, scale_keep_arg0, trace_keep_arg0, front_keep_arg0]

/-- On every device, from any memory with zero counters: every weakly fair execution of the program terminates with
    the result buffer at the named value of the input and the input unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v70) = outRef (m ((c.tc : Thread nD τ).loc main_arg0))
      ∧ r.2.mem ((c.tc : Thread nD τ).loc main_arg0) = m ((c.tc : Thread nD τ).loc main_arg0)) :=
  (θ_run (defs (F := Ideal)) _ _).mono (fun _ h c => ⟨(h c main_v70).trans (out_eq _), (h c main_arg0).trans (arg0_eq _)⟩)
    (run_all m ρ)

end Cert.ReferenceIdeal.Hand

end
-- ==== Proof.LibSelfAttention.lean ====
/-
  Dense self-attention over the rows of one array, on the extended reals.

  For an [N, D] array x and a slope c: the score of rows i and n is the inner product of the two rows; the activation
  is the leaky rectifier of the score (x itself when 0 ≤ x, c · x otherwise); the weight of n for i is
  exp (activation − the row's maximum); the total is the sum of the row's weights. Two arrangements of the result:

  * mix, then normalise:  (Σ_n weight i n · x (n, d)) / total i,
  * normalise, then mix:   Σ_n (weight i n / total i) · x (n, d).

  On the extended reals a quotient does not pass through a sum in general. When every entry of x and the slope are
  real numbers, every score, activation, maximum (N > 0) and weight is a real, every weight is positive, so the total
  is a positive real, and both arrangements are the coercion of one expression over the reals.

  General lemmas: nothing here mentions a program, the extents N and D and the slope are variables. It builds on the
  real-number predicate and the coercion of finite sums of the matrix-chain lemma file, which it imports.
-/
import Idealize.ShloMosaic.Lib.ValueIdx
import Idealize.ShloMosaic.PureOps.Ideal.Laws
import proofs.«119691_j51127290691774_2_alg».proof.Proof.LibMatChain

noncomputable section

namespace Cert.Attn

open Idealize.ShloMosaic Idealize.ShloMosaic.ValueIdx Cert.LibMatChain

/-! ## Real extended reals are closed under the operations used -/

theorem isReal_coe (r : ℝ) : IsReal (r : EReal) := ⟨r, rfl⟩

theorem isReal_zero : IsReal (0 : EReal) := ⟨0, rfl⟩

theorem isReal_add {x y : EReal} (hx : IsReal x) (hy : IsReal y) : IsReal (x + y) := by
  obtain ⟨a, rfl⟩ := hx; obtain ⟨b, rfl⟩ := hy; exact ⟨a + b, (EReal.coe_add a b).symm⟩

theorem isReal_mul {x y : EReal} (hx : IsReal x) (hy : IsReal y) : IsReal (x * y) := by
  obtain ⟨a, rfl⟩ := hx; obtain ⟨b, rfl⟩ := hy; exact ⟨a * b, (EReal.coe_mul a b).symm⟩

theorem isReal_sub {x y : EReal} (hx : IsReal x) (hy : IsReal y) : IsReal (x - y) := by
  obtain ⟨a, rfl⟩ := hx; obtain ⟨b, rfl⟩ := hy; exact ⟨a - b, (EReal.coe_sub a b).symm⟩

theorem isReal_max {x y : EReal} (hx : IsReal x) (hy : IsReal y) : IsReal (max x y) := by
  rcases max_choice x y with h | h <;> rw [h] <;> assumption

theorem isReal_sum {ι : Type*} (s : Finset ι) (f : ι → EReal) (hf : ∀ i, IsReal (f i)) : IsReal (∑ i ∈ s, f i) := by
  choose g hg using hf
  exact ⟨∑ i ∈ s, g i, by rw [coe_sum]; exact Finset.sum_congr rfl fun i _ => hg i⟩

/-- The fold of max from −∞ over a nonempty finite family of reals is a real. -/
theorem isReal_foldMax {ι : Type*} [DecidableEq ι] (s : Finset ι) (f : ι → EReal) (hf : ∀ i, IsReal (f i)) :
    s.fold max ⊥ f = ⊥ ∧ s = ∅ ∨ IsReal (s.fold max ⊥ f) := by
  induction s using Finset.induction_on with
  | empty => exact Or.inl ⟨Finset.fold_empty, rfl⟩
  | insert a s ha ih =>
    right
    rw [Finset.fold_insert ha]
    rcases ih with ⟨h, -⟩ | h
    · rw [h, max_bot_right]; exact hf a
    · exact isReal_max (hf a) h

/-! ## The attention of an array with itself -/

variable {N D : ℕ}

/-- The score of rows i and n: their inner product. -/
def score (x : (⟨2, ![N, D]⟩ : Shape).Idx → EReal) (i n : Fin N) : EReal := ∑ q : Fin D, x (ix2 i q) * x (ix2 n q)

/-- The leaky rectifier with slope c: x where 0 ≤ x, c · x elsewhere. -/
def leaky (c x : EReal) : EReal := Scalar.select (Ideal.cmp .oge x 0) x (c * x)

/-- The activation of the score. -/
def act (c : EReal) (x : (⟨2, ![N, D]⟩ : Shape).Idx → EReal) (i n : Fin N) : EReal := leaky c (score x i n)

/-- The largest activation of row i (−∞ for an empty row). -/
def rowMax (c : EReal) (x : (⟨2, ![N, D]⟩ : Shape).Idx → EReal) (i : Fin N) : EReal :=
  (Finset.univ : Finset (Fin N)).fold max ⊥ (fun n => act c x i n)

/-- The weight of row n for row i, before normalisation. -/
def weight (c : EReal) (x : (⟨2, ![N, D]⟩ : Shape).Idx → EReal) (i n : Fin N) : EReal :=
  Ideal.exp (act c x i n - rowMax c x i)

/-- The sum of row i's weights. -/
def total (c : EReal) (x : (⟨2, ![N, D]⟩ : Shape).Idx → EReal) (i : Fin N) : EReal := ∑ n : Fin N, weight c x i n

/-- Entry (i, d) of the weighted sum of the rows, divided by the total afterwards. -/
def mixThenNormAt (c : EReal) (x : (⟨2, ![N, D]⟩ : Shape).Idx → EReal) (i : Fin N) (d : Fin D) : EReal :=
  Ideal.div (∑ n : Fin N, weight c x i n * x (ix2 n d)) (total c x i)

/-- Entry (i, d) of the sum of the rows under the normalised weights. -/
def normThenMixAt (c : EReal) (x : (⟨2, ![N, D]⟩ : Shape).Idx → EReal) (i : Fin N) (d : Fin D) : EReal :=
  ∑ n : Fin N, Ideal.div (weight c x i n) (total c x i) * x (ix2 n d)

/-- Mix, then normalise, as an [N, D] array. -/
def mixThenNorm (c : EReal) (x : (⟨2, ![N, D]⟩ : Shape).Idx → EReal) : (⟨2, ![N, D]⟩ : Shape).Idx → EReal :=
  fun j => mixThenNormAt c x (j 0) (j 1)

/-- Normalise, then mix, as an [N, D] array. -/
def normThenMix (c : EReal) (x : (⟨2, ![N, D]⟩ : Shape).Idx → EReal) : (⟨2, ![N, D]⟩ : Shape).Idx → EReal :=
  fun j => normThenMixAt c x (j 0) (j 1)

theorem mixThenNorm_ix2 (c : EReal) (x : (⟨2, ![N, D]⟩ : Shape).Idx → EReal) (i : Fin N) (d : Fin D) :
    mixThenNorm c x (ix2 i d) = mixThenNormAt c x i d := rfl

theorem normThenMix_ix2 (c : EReal) (x : (⟨2, ![N, D]⟩ : Shape).Idx → EReal) (i : Fin N) (d : Fin D) :
    normThenMix c x (ix2 i d) = normThenMixAt c x i d := rfl

/-! ## Finiteness -/

theorem isReal_leaky {c x : EReal} (hc : IsReal c) (hx : IsReal x) : IsReal (leaky c x) := by
  unfold leaky Scalar.select
  split
  · exact hx
  · exact isReal_mul hc hx

section Real

variable (c : EReal) (x : (⟨2, ![N, D]⟩ : Shape).Idx → EReal) (hc : IsReal c) (hx : ∀ j, IsReal (x j))
include hc hx

theorem isReal_score (i n : Fin N) : IsReal (score x i n) :=
  isReal_sum _ _ fun q => isReal_mul (hx _) (hx _)

theorem isReal_act (i n : Fin N) : IsReal (act c x i n) := isReal_leaky hc (isReal_score c x hc hx i n)

theorem isReal_rowMax (i : Fin N) : IsReal (rowMax c x i) := by
  rcases isReal_foldMax (Finset.univ : Finset (Fin N)) (fun n => act c x i n) (fun n => isReal_act c x hc hx i n) with ⟨-, h⟩ | h
  · exact absurd (Finset.mem_univ i) (by rw [h]; exact Finset.notMem_empty i)
  · exact h

/-- Every weight is the coercion of a positive real. -/
theorem weight_pos (i n : Fin N) : ∃ r : ℝ, 0 < r ∧ weight c x i n = (r : EReal) := by
  obtain ⟨r, hr⟩ := isReal_sub (isReal_act c x hc hx i n) (isReal_rowMax c x hc hx i)
  exact ⟨Real.exp r, Real.exp_pos r, by unfold weight; rw [hr]; rfl⟩

/-- The total is the coercion of a positive real. -/
theorem total_pos (i : Fin N) : ∃ r : ℝ, 0 < r ∧ total c x i = (r : EReal) := by
  choose w hw0 hw using fun n => weight_pos c x hc hx i n
  haveI : Nonempty (Fin N) := ⟨i⟩
  refine ⟨∑ n : Fin N, w n, Finset.sum_pos (fun n _ => hw0 n) Finset.univ_nonempty, ?_⟩
  unfold total
  rw [coe_sum]
  exact Finset.sum_congr rfl fun n _ => hw n

/-- The two arrangements agree when the slope and every entry are reals. -/
theorem normThenMix_eq_mixThenNorm : normThenMix c x = mixThenNorm c x := by
  funext j
  show normThenMixAt c x (j 0) (j 1) = mixThenNormAt c x (j 0) (j 1)
  generalize j 0 = i
  generalize j 1 = d
  unfold normThenMixAt mixThenNormAt
  obtain ⟨l, hl0, hl⟩ := total_pos c x hc hx i
  choose w _ hw using fun n => weight_pos c x hc hx i n
  choose v hv using fun n : Fin N => hx (ix2 n d)
  rw [hl]
  simp only [Ideal.div_coe (ne_of_gt hl0), hw, hv, ← EReal.coe_mul, ← coe_sum]
  refine congrArg _ ?_
  rw [Finset.sum_mul]
  exact Finset.sum_congr rfl fun n _ => by ring

end Real

end Cert.Attn

end
-- ==== Proof.LibRealOps.lean ====
/-
  General lemmas: extended reals that are real numbers, under the float operations at the ideal values.

  On the extended reals division, square root, rounding and the exponential have corners at the infinities, at zero
  and below zero. Away from them they are the coercions of the real operations: a quotient by a positive (or nonzero)
  real, the square root of a nonnegative real, the rounding of a real to an integer, the exponential of a real (a
  positive real); a sum of squares of reals is nonnegative. Five float words as the extended reals they denote:
  0x2B8CBCCC = 9223372 · 2⁻⁶³ (positive), 0x3D4CCCCD = 13421773 · 2⁻²⁸ (nonzero), 0x3F800000 = 1, 0xFF800000 = −∞.
  And the shift-invariance of a softmax-weighted mean over the reals: weights E with a positive total, each scaled by
  one positive factor, give the same mean whether one normalises the unscaled weights and mixes, or mixes the scaled
  weights and divides by their total.
  Nothing here mentions a program. It builds on the real-number predicate and its closure under +, ·, −, max and
  finite sums of the self-attention lemma file, which it imports.
-/
import Idealize.ShloMosaic.PureOps.Ideal.Laws
import proofs.«119691_j51127290691774_2_alg».proof.Proof.LibSelfAttention

noncomputable section

namespace Cert.LibRealOps

open Idealize.ShloMosaic Cert.LibMatChain Cert.Attn

/-- The exponential of a real is the real exponential. -/
theorem exp_coe (r : ℝ) : Ideal.exp (r : EReal) = ((Real.exp r : ℝ) : EReal) := rfl

/-- Rounding a real by an integer-valued rule gives that integer, as a real. -/
theorem liftRound_coe (f : ℝ → ℤ) (r : ℝ) : Ideal.liftRound f (r : EReal) = (((f r : ℤ) : ℝ) : EReal) := rfl

/-- The square root of a nonnegative real is the real square root. -/
theorem sqrt_coe {r : ℝ} (h : 0 ≤ r) : Ideal.sqrt (r : EReal) = ((Real.sqrt r : ℝ) : EReal) := by
  show (if r < 0 then (⊥ : EReal) else ((Real.sqrt r : ℝ) : EReal)) = _
  rw [if_neg (not_lt.mpr h)]

theorem isReal_exp {x : EReal} (hx : IsReal x) : ∃ r : ℝ, 0 < r ∧ Ideal.exp x = (r : EReal) := by
  obtain ⟨a, rfl⟩ := hx
  exact ⟨Real.exp a, Real.exp_pos a, exp_coe a⟩

theorem isReal_liftRound (f : ℝ → ℤ) {x : EReal} (hx : IsReal x) : IsReal (Ideal.liftRound f x) := by
  obtain ⟨a, rfl⟩ := hx
  exact ⟨((f a : ℤ) : ℝ), liftRound_coe f a⟩

/-- A real divided by a positive real is a real. -/
theorem isReal_div {x y : EReal} (hx : IsReal x) (hy : IsReal y) (hpos : 0 < y) : IsReal (Ideal.div x y) := by
  obtain ⟨b, rfl⟩ := hy
  have hb : b ≠ 0 := ne_of_gt (EReal.coe_pos.mp hpos)
  rw [Ideal.div_coe hb]
  exact isReal_mul hx (isReal_coe _)

/-- A real divided by a nonzero real is a real. -/
theorem isReal_div_ne {x : EReal} (hx : IsReal x) {b : ℝ} (hb : b ≠ 0) : IsReal (Ideal.div x (b : EReal)) := by
  rw [Ideal.div_coe hb]
  exact isReal_mul hx (isReal_coe _)

/-- The square root of a nonnegative real is a nonnegative real. -/
theorem isReal_sqrt {x : EReal} (hx : IsReal x) (h0 : 0 ≤ x) : IsReal (Ideal.sqrt x) := by
  obtain ⟨a, rfl⟩ := hx
  rw [sqrt_coe (EReal.coe_nonneg.mp h0)]
  exact isReal_coe _

/-- A sum of squares of reals is nonnegative. -/
theorem sum_sq_nonneg {ι : Type*} (s : Finset ι) (f : ι → EReal) (hf : ∀ i, IsReal (f i)) : 0 ≤ ∑ i ∈ s, f i * f i := by
  refine Finset.sum_nonneg fun i _ => ?_
  obtain ⟨a, ha⟩ := hf i
  rw [ha, ← EReal.coe_mul]
  exact EReal.coe_nonneg.mpr (mul_self_nonneg a)

/-! ## The three float words -/

/-- The normalisation floor, the word 0x2B8CBCCC, is 9223372 · 2⁻⁶³. -/
theorem ofBits_floor : Ideal.ofBits .f32 0x2B8CBCCC#32 = ((9223372 * (2 : ℝ) ^ (-63 : ℤ) : ℝ) : EReal) := by
  simp [Ideal.ofBits, Ideal.ieee, -EReal.coe_mul]

/-- The bin width, the word 0x3D4CCCCD, is 13421773 · 2⁻²⁸. -/
theorem ofBits_bin : Ideal.ofBits .f32 0x3D4CCCCD#32 = ((13421773 * (2 : ℝ) ^ (-28 : ℤ) : ℝ) : EReal) := by
  simp [Ideal.ofBits, Ideal.ieee, -EReal.coe_mul]

/-- The word 0x3F800000 is one. -/
theorem ofBits_one : Ideal.ofBits .f32 0x3F800000#32 = ((1 : ℝ) : EReal) := by
  simp [Ideal.ofBits, Ideal.ieee, -EReal.coe_mul]; norm_num

/-- The word 0xFF800000 is −∞. -/
theorem ofBits_negInf : Ideal.ofBits .f32 0xFF800000#32 = (⊥ : EReal) := by
  simp [Ideal.ofBits, Ideal.ieee]

theorem floor_pos : (0 : ℝ) < 9223372 * (2 : ℝ) ^ (-63 : ℤ) := by positivity

theorem bin_ne : (13421773 * (2 : ℝ) ^ (-28 : ℤ) : ℝ) ≠ 0 := by positivity

/-! ## A softmax-weighted mean does not depend on the shift -/

/-- Over the reals: weights E with a positive total, each scaled by one positive factor κ, give the same normalised
    mean whether one normalises the unscaled weights first or mixes the scaled ones and divides at the end. -/
theorem real_softmax_shift {ι : Type*} [Fintype ι] (E ν : ι → ℝ) (κ : ℝ) (hκ : 0 < κ) (hS : 0 < ∑ w, E w) :
    ∑ w, E w * (1 / ∑ w', E w') * ν w = (∑ w, E w * κ * ν w) * (1 / ∑ w, E w * κ) := by
  have h1 : ∑ w, E w * κ * ν w = κ * ∑ w, E w * ν w := by
    rw [Finset.mul_sum]; exact Finset.sum_congr rfl fun w _ => by ring
  have h2 : ∑ w, E w * κ = κ * ∑ w, E w := by
    rw [Finset.mul_sum]; exact Finset.sum_congr rfl fun w _ => by ring
  have h3 : ∑ w, E w * (1 / ∑ w', E w') * ν w = (∑ w, E w * ν w) * (1 / ∑ w', E w') := by
    rw [Finset.sum_mul]; exact Finset.sum_congr rfl fun w _ => by ring
  rw [h1, h2, h3]
  have hS' : (∑ w, E w) ≠ 0 := ne_of_gt hS
  have hκ' : κ ≠ 0 := ne_of_gt hκ
  field_simp

end Cert.LibRealOps

end
-- ==== Proof.Algebra.lean ====
/-
  The two arrangements of the whitening computation agree over the real numbers.

  The pixel count is the real number 802816 = 64 · 12544. When every pixel is a real number every channel mean is one;
  then the whitened centred pixel  Σ_k w (c, k) · (p_k − μ_k)  and the whitened pixel minus the whitened mean
  Σ_k w (c, k) · p_k − Σ_k w (c, k) · μ_k  are the coercion of one real expression, and likewise the covariance from
  centred pixels and the covariance from raw second moments: with N the number of (image, pixel) pairs,
      (e + (Σ a·b)/N) − (A/N)·(B/N) = e + (Σ (a − A/N)·(b − B/N))/N,   A = Σ a,  B = Σ b.
-/
import proofs.«119691_j51127290691774_2_alg».proof.Proof.Spec
import proofs.«119691_j51127290691774_2_alg».proof.Proof.LibRealOps
import proofs.«119691_j51127290691774_2_alg».proof.Proof.LibMatProd
import proofs.«119691_j51127290691774_2_alg».proof.Proof.LibPlainDot
import proofs.«119691_j51127290691774_2_alg».proof.Proof.LibBroadcastRead

noncomputable section

namespace Cert.Whiten

open Idealize.ShloMosaic Idealize.ShloMosaic.ValueIdx Cert.LibMatChain Cert.Attn Cert.LibRealOps

/-! ## The pixel count and the channel means -/

/-- The word 0x49440000 is 802816 = 49 · 2¹⁴. -/
theorem count_eq : count = ((802816 : ℝ) : EReal) := by
  unfold count
  simp [Ideal.ofBits, Ideal.ieee, -EReal.coe_mul]
  norm_num

theorem count_pos : (0 : EReal) < count := by
  rw [count_eq]; exact EReal.coe_pos.mpr (by norm_num)

theorem isReal_pix (x : S4.Idx → EReal) (hx : ∀ i, IsReal (x i)) (b c : Fin 64) (q : Fin 12544) : IsReal (pix x b c q) := hx _

/-- A sum of reals divided by the pixel count is a real. -/
theorem isReal_mean (x : S4.Idx → EReal) (hx : ∀ i, IsReal (x i)) (c : Fin 64) : IsReal (mean x c) := by
  unfold mean
  rw [count_eq]
  exact isReal_div_ne (isReal_sum _ _ fun b => isReal_sum _ _ fun q => hx _) (by norm_num)

/-! ## The whitened pixel -/

/-- Σ_k w_k · p_k − Σ_k w_k · μ_k = Σ_k w_k · (p_k − μ_k) for reals. -/
theorem outU_eq_outC (wm : FVec Ideal M .f32) (x : S4.Idx → EReal) (hw : ∀ i, IsReal (wm i))
    (hx : ∀ i, IsReal (x i)) (b c : Fin 64) (q : Fin 12544) : outU wm x b c q = outC wm x b c q := by
  unfold outU outC
  choose w hw' using fun k : Fin 64 => hw (ix2 c k)
  choose p hp using fun k : Fin 64 => isReal_pix x hx b k q
  choose m hm using fun k : Fin 64 => isReal_mean x hx k
  simp only [hw', hp, hm, ← EReal.coe_mul, ← EReal.coe_sub, ← coe_sum]
  refine congrArg _ ?_
  rw [← Finset.sum_sub_distrib]
  exact Finset.sum_congr rfl fun k _ => by ring

/-! ## The identity matrix and ε on the diagonal -/

variable (bc : Sc.BroadcastsInDim M (![] : Fin 0 → Fin M.rank))

/-- A number spread over the matrix is that number at every entry. -/
theorem spread_apply (v : FVec Ideal Sc .f32) (i : M.Idx) : spread bc v i = v ix0 := by
  unfold spread
  exact Cert.LibBroadcastRead.broadcastInDim_scalar_apply bc v i

theorem word_apply (b : BitVec 32) (i : Sc.Idx) : word b i = Ideal.ofBits .f32 b := rfl

/-- The diagonal mask at (i, j): the 32-bit words of two numbers below 64 are equal exactly when the numbers are. -/
theorem diagMask_ix2 (i j : Fin 64) : diagMask bc (ix2 i j) = if i = j then 1#1 else 0#1 := by
  unfold diagMask
  show IntOp.cmpi .eq (IntOp.addi (BitVec.ofNat 32 i.val) (broadcastInDim M ![] bc (constantI Sc 32 0#32) (ix2 i j)))
    (BitVec.ofNat 32 j.val) = _
  rw [Cert.LibBroadcastRead.broadcastInDim_scalar_apply bc]
  show BitVec.ofBool (BitVec.ofNat 32 i.val + 0#32 == BitVec.ofNat 32 j.val) = _
  rw [BitVec.add_zero]
  by_cases h : i = j
  · subst h; simp
  · rw [if_neg h]
    have hne : ¬ (BitVec.ofNat 32 i.val = BitVec.ofNat 32 j.val) := by
      intro he
      have h2 := congrArg BitVec.toNat he
      simp only [BitVec.toNat_ofNat] at h2
      have hi := i.isLt; have hj := j.isLt
      rw [Nat.mod_eq_of_lt (by omega), Nat.mod_eq_of_lt (by omega)] at h2
      exact h (Fin.ext h2)
    rw [beq_eq_false_iff_ne.mpr hne]; rfl

/-- The identity matrix at (i, j): one on the diagonal, zero off it. -/
theorem eye_ix2 (i j : Fin 64) : eye bc (ix2 i j) = if i = j then ((1 : ℝ) : EReal) else ((0 : ℝ) : EReal) := by
  unfold eye
  show FloatOps.uitofp (F := Ideal) .f32 (diagMask bc (ix2 i j)) = _
  rw [diagMask_ix2]
  show (((if i = j then 1#1 else 0#1 : BitVec 1).toNat : ℝ) : EReal) = _
  split <;> simp

/-- The real number ε: the word 0x3727C5AC is 10995116 · 2⁻⁴⁰. -/
def epsR : ℝ := 10995116 * (2 : ℝ) ^ (-40 : ℤ)

theorem ofBits_eps : Ideal.ofBits .f32 0x3727C5AC#32 = ((epsR : ℝ) : EReal) := by
  unfold epsR
  simp [Ideal.ofBits, Ideal.ieee, -EReal.coe_mul]

theorem epsR_pos : 0 < epsR := by unfold epsR; positivity

/-- ε on the diagonal at (i, j): ε · [i = j]. -/
theorem epsEye_ix2 (i j : Fin 64) : epsEye bc (ix2 i j) = (((if i = j then epsR else 0 : ℝ)) : EReal) := by
  unfold epsEye
  rw [mulf_apply, spread_apply, word_apply, ofBits_eps, eye_ix2]
  split
  · rw [← EReal.coe_mul, mul_one]
  · rw [← EReal.coe_mul, mul_zero]

/-! ## The covariance matrix -/

/-- Over the reals, for a finite family of N pairs: the second moment minus the product of the means is the mean of
    the products of the centred values. -/
theorem real_cov {ι : Type*} [Fintype ι] (a b : ι → ℝ) (e N : ℝ) (hN : (Fintype.card ι : ℝ) = N) (hN0 : N ≠ 0) :
    (e + (∑ i, a i * b i) * (1 / N)) - ((∑ i, a i) * (1 / N)) * ((∑ i, b i) * (1 / N))
      = e + (∑ i, (a i - (∑ i, a i) * (1 / N)) * (b i - (∑ i, b i) * (1 / N))) * (1 / N) := by
  have key : ∀ α β : ℝ, ∑ i, (a i - α) * (b i - β)
      = (∑ i, a i * b i) - β * (∑ i, a i) - α * (∑ i, b i) + N * (α * β) := by
    intro α β
    have h : ∀ i, (a i - α) * (b i - β) = a i * b i - β * a i - α * b i + α * β := fun i => by ring
    simp only [h, Finset.sum_add_distrib, Finset.sum_sub_distrib, ← Finset.mul_sum, Finset.sum_const, Finset.card_univ,
      nsmul_eq_mul, hN]
    ring
  rw [key]
  field_simp
  ring

/-- The covariance from raw second moments is the covariance from centred pixels when every pixel is a real. -/
theorem sigmaU_eq_sigmaC (x : S4.Idx → EReal) (hx : ∀ i, IsReal (x i)) : sigmaU bc x = sigmaC bc x := by
  funext ij
  obtain ⟨i, j, rfl⟩ : ∃ (i j : Fin 64), ij = ix2 i j := ⟨ij 0, ij 1, eq_ix2 ij⟩
  rw [sigmaU_ix2, sigmaC_ix2]
  unfold sigmaUAt sigmaCAt mean
  rw [epsEye_ix2, count_eq]
  choose a ha using fun (b : Fin 64) (q : Fin 12544) => isReal_pix x hx b i q
  choose a' ha' using fun (b : Fin 64) (q : Fin 12544) => isReal_pix x hx b j q
  have h0 : (802816 : ℝ) ≠ 0 := by norm_num
  simp only [Ideal.div_coe h0, ha, ha', ← EReal.coe_mul, ← EReal.coe_sub, ← EReal.coe_add, ← coe_sum]
  refine congrArg _ ?_
  have h := real_cov (ι := Fin 64 × Fin 12544) (fun p => a p.1 p.2) (fun p => a' p.1 p.2)
    (if i = j then epsR else 0) 802816 (by simp [Fintype.card_prod]) h0
  simp only [Fintype.sum_prod_type] at h
  exact h

end Cert.Whiten

end
-- ==== Proof.AlgebraReal.lean ====
/-
  The whitening matrix of the covariance matrix is a matrix of real numbers.

  The stretch of array operations from a 64 × 64 matrix σ to its whitening matrix uses a division (by the trace of σ)
  and a square root (of the reciprocal of the trace), which on the extended reals leave the real numbers at zero and
  below it. For a σ of real entries with a positive diagonal the trace is the sum of the diagonal, a positive real; its
  reciprocal r is a positive real; σ · r is real; the identity matrix and the constants 3/2 and 1/2 are real; products of
  real matrices, differences and entrywise products of real matrices are real, so every iterate is; and √r is real.
  The covariance matrix from centred pixels is such a σ: entry (i, j) is ε·[i = j] plus a sum of products of reals
  divided by the pixel count, and a diagonal entry is ε > 0 plus a sum of squares divided by a positive number.
-/
import proofs.«119691_j51127290691774_2_alg».proof.Proof.Algebra
import proofs.«119691_j51127290691774_2_alg».proof.Proof.LibRealOps
import proofs.«119691_j51127290691774_2_alg».proof.Proof.LibMatProd
import proofs.«119691_j51127290691774_2_alg».proof.Proof.LibPlainDot
import proofs.«119691_j51127290691774_2_alg».proof.Proof.LibBroadcastRead

noncomputable section

namespace Cert.Whiten

open Idealize.ShloMosaic Idealize.ShloMosaic.ValueIdx Cert.LibMatChain Cert.Attn Cert.LibRealOps

variable (bc : Sc.BroadcastsInDim M (![] : Fin 0 → Fin M.rank))

/-! ## Arrays of real numbers under the operations of the chain -/

theorem isReal_mulf (a b : FVec Ideal M .f32) (ha : ∀ i, IsReal (a i)) (hb : ∀ i, IsReal (b i)) (i : M.Idx) :
    IsReal (mulf a b i) := by
  rw [mulf_apply]; exact isReal_mul (ha i) (hb i)

theorem isReal_subf (a b : FVec Ideal M .f32) (ha : ∀ i, IsReal (a i)) (hb : ∀ i, IsReal (b i)) (i : M.Idx) :
    IsReal (subf a b i) := by
  rw [subf_apply]; exact isReal_sub (ha i) (hb i)

theorem isReal_spread (v : FVec Ideal Sc .f32) (hv : IsReal (v ix0)) (i : M.Idx) : IsReal (spread bc v i) := by
  rw [spread_apply]; exact hv

theorem isReal_eye (i : M.Idx) : IsReal (eye bc i) := by
  obtain ⟨a, b, rfl⟩ : ∃ (a b : Fin 64), i = ix2 a b := ⟨i 0, i 1, eq_ix2 i⟩
  rw [eye_ix2]
  split <;> exact isReal_coe _

/-- The word 0x3FC00000 is 3/2. -/
theorem ofBits_threeHalves : Ideal.ofBits .f32 0x3FC00000#32 = (((3 : ℝ) / 2 : ℝ) : EReal) := by
  simp [Ideal.ofBits, Ideal.ieee, -EReal.coe_mul]; norm_num

/-- The word 0x3F000000 is 1/2. -/
theorem ofBits_half : Ideal.ofBits .f32 0x3F000000#32 = (((1 : ℝ) / 2 : ℝ) : EReal) := by
  simp [Ideal.ofBits, Ideal.ieee, -EReal.coe_mul]; norm_num

section Dot

variable (D : DotDims M M M)
  (hlc : D.lhsContracting = [1]) (hrc : D.rhsContracting = [0]) (hlb : D.lhsBatch = []) (hln : D.lhsNonContracting = [0])
  (hrb : D.rhsBatch = []) (hrn : D.rhsNonContracting = [1])
include hlc hrc hlb hln hrb hrn

/-- The plain product of two 64 × 64 matrices, entry by entry. -/
theorem dot_eq (L R : FVec Ideal M .f32) : Host.dotGeneral D none L R = Cert.LibMatProd.mm L R :=
  Cert.LibMatProd.hostDot_eq D (Cert.LibPlainDot.contr_rank D hlc) (Cert.LibPlainDot.contr_size D hlc)
    (Cert.LibPlainDot.lhs_row D hlb hln) (Cert.LibPlainDot.lhs_col D hlc) (Cert.LibPlainDot.rhs_row D hlc hrc)
    (Cert.LibPlainDot.rhs_col D hlb hln hrb hrn) none L R

theorem isReal_dot (L R : FVec Ideal M .f32) (hL : ∀ i, IsReal (L i)) (hR : ∀ i, IsReal (R i)) (i : M.Idx) :
    IsReal (Host.dotGeneral D none L R i) := by
  rw [dot_eq D hlc hrc hlb hln hrb hrn]
  exact isReal_sum _ _ fun q => isReal_mul (hL _) (hR _)

/-- One step of the iteration keeps real matrices real. -/
theorem isReal_step (p s : FVec Ideal M .f32) (hp : ∀ i, IsReal (p i)) (hs : ∀ i, IsReal (s i)) (i : M.Idx) :
    IsReal (step bc D p s i) := by
  unfold step
  refine isReal_subf _ _ (isReal_mulf _ _ (isReal_spread bc _ ?_) hp) (isReal_mulf _ _ (isReal_spread bc _ ?_) ?_) i
  · rw [word_apply, ofBits_threeHalves]; exact isReal_coe _
  · rw [word_apply, ofBits_half]; exact isReal_coe _
  · exact isReal_dot D hlc hrc hlb hln hrb hrn _ _
      (isReal_dot D hlc hrc hlb hln hrb hrn _ _ (isReal_dot D hlc hrc hlb hln hrb hrn _ _ hp hp) hp) hs

end Dot

/-! ## The trace and its reciprocal -/

variable (red : M.ReducesTo [0, 1] Sc) (pos : 0 < Sc.numel)

/-- The trace is the sum of the diagonal entries. -/
theorem trace_eq (σ : FVec Ideal M .f32) : trace bc red pos σ ix0 = ∑ a : Fin 64, σ (ix2 a a) := by
  unfold trace
  show Ideal.hostReduceAdd red (select (diagMask bc) σ (spread bc (word 0x00000000#32))) (Ideal.ofBits .f32 0x00000000#32) ix0 = _
  rw [Ideal.hostReduceAdd_total red (fun b => b.elim0), Ideal.ofBits_zero_f32, zero_add, sum_idx2]
  refine Finset.sum_congr rfl fun a _ => ?_
  have h : ∀ b : Fin 64, select (diagMask bc) σ (spread bc (word 0x00000000#32)) (ix2 a b) = if a = b then σ (ix2 a b) else 0 := by
    intro b
    rw [select_apply, diagMask_ix2, spread_apply, word_apply, Ideal.ofBits_zero_f32]
    split
    · exact select_one _ _
    · exact select_zero _ _
  simp only [h]
  rw [Finset.sum_ite_eq]
  simp

/-- A real matrix with a positive diagonal has a positive real trace. -/
theorem trace_pos (σ : FVec Ideal M .f32) (hσ : ∀ i, IsReal (σ i)) (hd : ∀ a : Fin 64, 0 < σ (ix2 a a)) :
    ∃ t : ℝ, 0 < t ∧ trace bc red pos σ ix0 = (t : EReal) := by
  choose d hd' using fun a : Fin 64 => hσ (ix2 a a)
  refine ⟨∑ a : Fin 64, d a, Finset.sum_pos (fun a _ => ?_) Finset.univ_nonempty, ?_⟩
  · have := hd a; rw [hd'] at this; exact EReal.coe_pos.mp this
  · rw [trace_eq, coe_sum]; exact Finset.sum_congr rfl fun a _ => hd' a

/-- … and so a positive real reciprocal of the trace. -/
theorem invTrace_pos (σ : FVec Ideal M .f32) (hσ : ∀ i, IsReal (σ i)) (hd : ∀ a : Fin 64, 0 < σ (ix2 a a)) :
    ∃ r : ℝ, 0 < r ∧ invTrace bc red pos σ ix0 = (r : EReal) := by
  obtain ⟨t, ht, he⟩ := trace_pos bc red pos σ hσ hd
  refine ⟨1 / t, by positivity, ?_⟩
  unfold invTrace
  show Ideal.div (Ideal.ofBits .f32 0x3F800000#32) (trace bc red pos σ ix0) = _
  rw [he, Ideal.div_coe (ne_of_gt ht), ofBits_one, ← EReal.coe_mul, one_mul]

/-! ## The whitening matrix of a real matrix with a positive diagonal -/

theorem whitener_real_of (D : DotDims M M M)
    (hlc : D.lhsContracting = [1]) (hrc : D.rhsContracting = [0]) (hlb : D.lhsBatch = []) (hln : D.lhsNonContracting = [0])
    (hrb : D.rhsBatch = []) (hrn : D.rhsNonContracting = [1])
    (σ : FVec Ideal M .f32) (hσ : ∀ i, IsReal (σ i)) (hd : ∀ a : Fin 64, 0 < σ (ix2 a a)) :
    ∀ i, IsReal (whitener bc red pos D σ i) := by
  obtain ⟨r, hr, he⟩ := invTrace_pos bc red pos σ hσ hd
  have hs : ∀ i, IsReal (scaled bc red pos σ i) := by
    unfold scaled
    exact isReal_mulf _ _ hσ (isReal_spread bc _ (by rw [he]; exact isReal_coe _))
  have hstep := fun p hp => isReal_step bc D hlc hrc hlb hln hrb hrn p (scaled bc red pos σ) hp hs
  unfold whitener
  refine isReal_mulf _ _ (hstep _ (hstep _ (hstep _ (hstep _ (hstep _ (isReal_eye bc)))))) (isReal_spread bc _ ?_)
  show IsReal (Ideal.sqrt (invTrace bc red pos σ ix0))
  rw [he]
  exact isReal_sqrt (isReal_coe _) (EReal.coe_nonneg.mpr (le_of_lt hr))

/-! ## The covariance matrix from centred pixels is real with a positive diagonal -/

theorem isReal_sigmaCAt (x : S4.Idx → EReal) (hx : ∀ i, IsReal (x i)) (i j : Fin 64) : IsReal (sigmaCAt bc x i j) := by
  unfold sigmaCAt
  rw [epsEye_ix2, count_eq]
  refine isReal_add (isReal_coe _) (isReal_div_ne (isReal_sum _ _ fun b => isReal_sum _ _ fun q => ?_) (by norm_num))
  exact isReal_mul (isReal_sub (hx _) (isReal_mean x hx i)) (isReal_sub (hx _) (isReal_mean x hx j))

/-- A diagonal entry is ε plus a mean of squares. -/
theorem sigmaCAt_diag_pos (x : S4.Idx → EReal) (hx : ∀ i, IsReal (x i)) (a : Fin 64) : 0 < sigmaCAt bc x a a := by
  unfold sigmaCAt
  rw [epsEye_ix2, if_pos rfl, count_eq]
  choose d hd using fun (b : Fin 64) (q : Fin 12544) => isReal_sub (isReal_pix x hx b a q) (isReal_mean x hx a)
  have h0 : (802816 : ℝ) ≠ 0 := by norm_num
  simp only [Ideal.div_coe h0, hd, ← EReal.coe_mul, ← EReal.coe_add, ← coe_sum]
  refine EReal.coe_pos.mpr ?_
  have h1 : 0 ≤ ∑ b : Fin 64, ∑ q : Fin 12544, d b q * d b q :=
    Finset.sum_nonneg fun b _ => Finset.sum_nonneg fun q _ => mul_self_nonneg _
  have h2 := epsR_pos
  have h3 : 0 ≤ (∑ b : Fin 64, ∑ q : Fin 12544, d b q * d b q) * (1 / 802816 : ℝ) := mul_nonneg h1 (by norm_num)
  linarith

theorem whitener_real (D : DotDims M M M)
    (hlc : D.lhsContracting = [1]) (hrc : D.rhsContracting = [0]) (hlb : D.lhsBatch = []) (hln : D.lhsNonContracting = [0])
    (hrb : D.rhsBatch = []) (hrn : D.rhsNonContracting = [1])
    (x : S4.Idx → EReal) (hx : ∀ i, IsReal (x i)) : ∀ i, IsReal (whitener bc red pos D (sigmaC bc x) i) :=
  whitener_real_of bc red pos D hlc hrc hlb hln hrb hrn (sigmaC bc x)
    (fun i => isReal_sigmaCAt bc x hx (i 0) (i 1)) (fun a => sigmaCAt_diag_pos bc x hx a)

end Cert.Whiten

end
-- ==== Proof.Finite.lean ====
/-
  The precondition "every pixel has a finite absolute value" read back: every pixel is a real number.

  The precondition is the conjunction, over every index of the input, of the comparison |x| < +∞, where |x| is
  max x (−x) on the extended reals and the word 0x7F800000 is +∞. A conjunction that came out true was true at every
  index; and an extended real whose absolute value lies strictly below +∞ is neither infinity, so it is a real number.
-/
import proofs.«119691_j51127290691774_2_alg».proof.Pre_finite_inputs
import proofs.«119691_j51127290691774_2_alg».proof.Proof.Gen.Pre_finite_inputs
import proofs.«119691_j51127290691774_2_alg».proof.Proof.LibMatChain
import Idealize.ShloMosaic.Lib.ReduceAll
import Idealize.ShloMosaic.PureOps.Ideal.Laws

noncomputable section

namespace Cert.Whiten

open Idealize.ShloMosaic Idealize.ShloMosaic.ValueIdx Cert.LibMatChain

/-- The word 0x7F800000 is +∞. -/
theorem ofBits_posInf : Ideal.ofBits .f32 0x7F800000#32 = (⊤ : EReal) := by
  simp [Ideal.ofBits, Ideal.ieee]

/-- An extended real that compares strictly below +∞ in absolute value is a real number. -/
theorem real_of_abs_lt (x : EReal)
    (h : Ideal.cmp .olt (max x (-x)) (Ideal.ofBits .f32 0x7F800000#32) = 1#1) : IsReal x := by
  rw [ofBits_posInf] at h
  refine isReal_of_abs_lt_top ?_
  by_contra hn
  rw [show Ideal.cmp .olt (max x (-x)) ⊤ = BitVec.ofBool (decide (max x (-x) < ⊤)) from rfl, decide_eq_false hn] at h
  exact absurd h (by decide)

/-- Under the precondition every pixel is a real number. -/
theorem real_of_pre (x : FVec Ideal Cert.Pre_finite_inputs.S64x64x112x112 .f32)
    (h : Cert.Pre_finite_inputs.fn (F := Ideal) x = (fun _ => 1#1)) : ∀ i, IsReal (x i) := by
  intro i
  have e := congrFun h ix0
  dsimp only [Cert.Pre_finite_inputs.fn] at e
  haveI : Subsingleton Cert.Pre_finite_inputs.S_.Idx := ⟨fun a b => funext fun d => d.elim0⟩
  exact real_of_abs_lt (x i) (Host.reduce_andi_all _ _ _ _ ix0 e i)

end Cert.Whiten

end
-- ==== Proof.lean ====
/-
  Whitening by a Newton–Schulz iteration: the kernel program against its reference, on the extended reals.

  Both programs take x, 64 images of 64 channels of 112 × 112 pixels, and return wm applied to the centred pixels, where
  wm is obtained from the 64 × 64 channel covariance matrix σ by one shared stretch of array arithmetic (its trace, the
  scaling by 1 / tr σ, five Newton–Schulz steps from the identity, the factor √(1 / tr σ)).

  The reference centres first:  σ = ε·I + (Σ (x − mean)(x − mean)ᵀ) / m,  out = wm · (x − mean).
  The kernel program makes one pass that accumulates, per image, the channel sums and the raw second moments
  (two partial sums of 32 images each, added on the host), forms  σ = (ε·I + (Σ x xᵀ) / m) − mean · meanᵀ,  and in a
  second pass returns  wm · x − wm · mean.

  The two σ agree and the two results agree over the reals, by expanding the products; on the extended reals the
  expansions need every number involved to be real. The precondition makes every pixel real; then the means and σ are
  real, the trace of σ is at least 64 · ε > 0 (each diagonal entry is ε plus a mean of squares), so 1 / tr σ and its
  square root are real and so is every entry of wm. The sums over the 802816 pixels of a channel are grouped
  differently by the two programs (image by image in two halves, against all at once); on the extended reals addition
  is associative and commutative, so that costs nothing. Changes of float format are the identity here.
-/
import proofs.«119691_j51127290691774_2_alg».proof.Defs
import proofs.«119691_j51127290691774_2_alg».proof.Proof.Gen.Kernel
import proofs.«119691_j51127290691774_2_alg».proof.Proof.Gen.Kernel.Frame
import proofs.«119691_j51127290691774_2_alg».proof.Proof.Gen.KernelIdeal
import proofs.«119691_j51127290691774_2_alg».proof.Proof.Gen.KernelIdeal.Frame
import proofs.«119691_j51127290691774_2_alg».proof.Proof.Gen.ReferenceIdeal
import proofs.«119691_j51127290691774_2_alg».proof.Proof.Gen.Pre_finite_inputs
import proofs.«119691_j51127290691774_2_alg».proof.Proof.KernelRun
import proofs.«119691_j51127290691774_2_alg».proof.Proof.KernelValue
import proofs.«119691_j51127290691774_2_alg».proof.Proof.RefValue
import proofs.«119691_j51127290691774_2_alg».proof.Proof.Algebra
import proofs.«119691_j51127290691774_2_alg».proof.Proof.AlgebraReal
import proofs.«119691_j51127290691774_2_alg».proof.Proof.Finite
import Idealize.ShloMosaic.Adequacy
import Idealize.ShloMosaic.Init

set_option maxRecDepth 16384

noncomputable section

namespace Cert.Proof

open Idealize.ShloMosaic Idealize.SL.Sem Idealize.ShloMosaic.ValueIdx Idealize.ShloMosaic.TcCoe

/-- For real pixels the two programs' result arrays are one array: the covariance matrices agree, the whitening
    matrix is real, and the whitened centred pixel is the whitened pixel minus the whitened mean. -/
theorem result_eq (m : (ℓ : Loc Cert.KernelIdeal.nD Cert.KernelIdeal.τ Cert.KernelIdeal.sig) → Buf (Elt Ideal) ℓ)
    (ρ : Dev Cert.KernelIdeal.nD → PrngReg) (c : Dev Cert.KernelIdeal.nD)
    (hx : ∀ i, Cert.LibMatChain.IsReal (Cert.KernelIdeal.Hand.inp m c i)) :
    Cert.ReferenceIdeal.Hand.outRef (Cert.KernelIdeal.Hand.inp m c)
      = (Cert.KernelIdeal.Gen.W7 m ρ c (Proc.devRef .tc Cert.KernelIdeal.main_v69)
          : Cert.KernelIdeal.S64x64x112x112.Idx → EReal) := by
  funext idx
  obtain ⟨b, ch, h, w, rfl⟩ : ∃ (b ch : Fin 64) (h w : Fin 112), idx = ix4 b ch h w :=
    ⟨idx 0, idx 1, idx 2, idx 3, eq_ix4 idx⟩
  have hs : Cert.KernelIdeal.Hand.sigK m ρ c
      = Cert.Whiten.sigmaC Cert.KernelIdeal.Facts₀.bcast_S_S64x64 (Cert.KernelIdeal.Hand.inp m c) :=
    (Cert.KernelIdeal.Hand.sigmaK_eq m ρ c).trans (Cert.Whiten.sigmaU_eq_sigmaC _ _ hx)
  have hw : Cert.KernelIdeal.Hand.wmK m ρ c
      = Cert.Whiten.whitener Cert.KernelIdeal.Facts₀.bcast_S_S64x64 Cert.KernelIdeal.Facts₀.reducesTo_S64x64_S_d0_1
          Cert.KernelIdeal.Facts₀.h_S_ Cert.KernelIdeal.dot_S64x64_S64x64_S64x64_1_0_0_1_n_n
          (Cert.Whiten.sigmaC Cert.KernelIdeal.Facts₀.bcast_S_S64x64 (Cert.KernelIdeal.Hand.inp m c)) := by
    unfold Cert.KernelIdeal.Hand.wmK
    rw [hs]
  have hreal : ∀ i, Cert.LibMatChain.IsReal (Cert.KernelIdeal.Hand.wmK m ρ c i) := by
    rw [hw]
    exact Cert.Whiten.whitener_real _ _ _ _ rfl rfl rfl rfl rfl rfl _ hx
  rw [Cert.ReferenceIdeal.Hand.outRef_apply]
  refine Eq.trans ?_ (Cert.KernelIdeal.Hand.out_apply m ρ c b ch h w).symm
  rw [Cert.Whiten.outU_eq_outC _ _ hreal hx, hw]
  rfl

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference's frame is its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Hand.run m ρ)

/-- The idealized kernel program is the printed one read at the exact values: no rewrite was applied. -/
theorem preserves : Cert.preserves_Kernel_KernelIdeal := trivial

/-- From memories that agree on x and satisfy the precondition, both programs run, and their results are equal
    extended reals at every index. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.Gen.W7 m ρ c (Proc.devRef .tc Cert.KernelIdeal.main_v69),
    Cert.KernelIdeal.Hand.run_value m ρ, ?_⟩
  refine (θ_run Cert.ReferenceIdeal.defs _ _).mono (fun _ h c => ⟨(h c).1.trans ?_, (h c).2⟩)
    (Cert.ReferenceIdeal.Hand.run m' ρ')
  rw [hagree c]
  exact result_eq m ρ c (Cert.Whiten.real_of_pre _ (hpre c))

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
